-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v248)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v248) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x150000 : Shape := ⟨2, ![2, 150000]⟩
abbrev S50000 : Shape := ⟨1, ![50000]⟩
abbrev S128x512 : Shape := ⟨2, ![128, 512]⟩
abbrev S512 : Shape := ⟨1, ![512]⟩
abbrev S3x512x512 : Shape := ⟨3, ![3, 512, 512]⟩
abbrev S3x512 : Shape := ⟨2, ![3, 512]⟩
abbrev S5x512 : Shape := ⟨2, ![5, 512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_
  bcast_S_S5x512 : S_.BroadcastsInDim S5x512 (![] : Fin 0 → Fin S5x512.rank)
  reducesTo_S5x512_S_d0_1 : S5x512.ReducesTo [0, 1] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S512x512 .f32) (main_arg10 : FVec F S512 .f32) (main_arg11 : FVec F S512x1 .f32) (main_arg12 : FVec F S1 .f32) (main_v33 : IVec S_ 1) : IVec S_ 1 :=
  let main_v34 : FVec F S512x512 .f32 := Host.absf main_arg9
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1 .f32 := Host.absf main_arg11
  let main_cst_16 : FVec F S_ .f32 := constant S_ .f32 0x7F800000#32
  let main_v45 : FVec F S512x1 .f32 := broadcastInDim S512x1 ![] bcast_S_S512x1 main_cst_16
  let main_v46 : IVec S512x1 1 := cmpf .olt main_v44 main_v45
  let main_c_17 : IVec S_ 1 := constantI S_ 1 1#1
  let main_v47 : IVec S_ 1 := (fun x v => Host.reduce IntOp.andi x v reducesTo_S512x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S3x512 .f32) (main_arg7 : FVec F S5x512 .f32) (main_arg8 : FVec F S5x512 .f32) (main_arg9 : FVec F S512x512 .f32) (main_arg10 : FVec F S512 .f32) (main_arg11 : FVec F S512x1 .f32) (main_arg12 : FVec F S1 .f32) (main_v13 : IVec S_ 1) (main_v16 : IVec S3x512x512 1) : IVec S_ 1 :=
  let main_c_5 : IVec S_ 1 := constantI S_ 1 1#1
  let main_v17 : IVec S_ 1 := (fun x v => Host.reduce IntOp.andi x v reducesTo_S3x512x512_S_d0_1_2 h_S_) main_v16 main_c_5
  let main_v18 : IVec S_ 1 := andi main_v13 main_v17
  let main_v19 : FVec F S3x512 .f32 := Host.absf main_arg6
  let main_cst_6 : FVec F S_ .f32 := constant S_ .f32 0x7F800000#32
  let main_v20 : FVec F S3x512 .f32 := broadcastInDim S3x512 ![] bcast_S_S3x512 main_cst_6
  let main_v21 : IVec S3x512 1 := cmpf .olt main_v19 main_v20
  let main_c_7 : IVec S_ 1 := constantI S_ 1 1#1
  let main_v22 : IVec S_ 1 := (fun x v => Host.reduce IntOp.andi x v reducesTo_S3x512_S_d0_1 h_S_) main_v21 main_c_7
  let main_v23 : IVec S_ 1 := andi main_v18 main_v22
  let main_v24 : FVec F S5x512 .f32 := Host.absf main_arg7
  let main_cst_8 : FVec F S_ .f32 := constant S_ .f32 0x7F800000#32
  let main_v25 : FVec F S5x512 .f32 := broadcastInDim S5x512 ![] bcast_S_S5x512 main_cst_8
  let main_v26 : IVec S5x512 1 := cmpf .olt main_v24 main_v25
  let main_c_9 : IVec S_ 1 := constantI S_ 1 1#1
  let main_v27 : IVec S_ 1 := (fun x v => Host.reduce IntOp.andi x v reducesTo_S5x512_S_d0_1 h_S_) main_v26 main_c_9
  let main_v28 : IVec S_ 1 := andi main_v23 main_v27
  let main_v29 : FVec F S5x512 .f32 := Host.absf main_arg8
  let main_cst_10 : FVec F S_ .f32 := constant S_ .f32 0x7F800000#32
  let main_v30 : FVec F S5x512 .f32 := broadcastInDim S5x512 ![] bcast_S_S5x512 main_cst_10
  let main_v31 : IVec S5x512 1 := cmpf .olt main_v29 main_v30
  let main_c_11 : IVec S_ 1 := constantI S_ 1 1#1
  let main_v32 : IVec S_ 1 := (fun x v => Host.reduce IntOp.andi x v reducesTo_S5x512_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x150000 32) (main_arg2 : IVec S50000 32) (main_arg3 : FVec F S128x512 .f32) (main_arg4 : FVec F S512 .f32) (main_arg5 : FVec F S3x512x512 .f32) (main_arg6 : FVec F S3x512 .f32) (main_arg7 : FVec F S5x512 .f32) (main_arg8 : FVec F S5x512 .f32) (main_arg9 : FVec F S512x512 .f32) (main_arg10 : FVec F S512 .f32) (main_arg11 : FVec F S512x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x512 .f32 := Host.absf main_arg3
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S3x512x512 .f32 := Host.absf main_arg5
  let main_cst_4 : FVec F S_ .f32 := constant S_ .f32 0x7F800000#32
  let main_v15 : FVec F S3x512x512 .f32 := broadcastInDim S3x512x512 ![] bcast_S_S3x512x512 main_cst_4
  let main_v16 : IVec S3x512x512 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x150000 : Shape := ⟨2, ![2, 150000]⟩
abbrev S50000 : Shape := ⟨1, ![50000]⟩
abbrev S128x512 : Shape := ⟨2, ![128, 512]⟩
abbrev S512 : Shape := ⟨1, ![512]⟩
abbrev S3x512x512 : Shape := ⟨3, ![3, 512, 512]⟩
abbrev S3x512 : Shape := ⟨2, ![3, 512]⟩
abbrev S5x512 : Shape := ⟨2, ![5, 512]⟩
abbrev S512x512 : Shape := ⟨2, ![512, 512]⟩
abbrev S512x1 : Shape := ⟨2, ![512, 1]⟩
abbrev S1 : Shape := ⟨1, ![1]⟩
abbrev S1x150000 : Shape := ⟨2, ![1, 150000]⟩
abbrev S150000 : Shape := ⟨1, ![150000]⟩
abbrev S200000 : Shape := ⟨1, ![200000]⟩
abbrev S_ : Shape := ⟨0, ![]⟩
abbrev S200000x1 : Shape := ⟨2, ![200000, 1]⟩
abbrev S50000x512 : Shape := ⟨2, ![50000, 512]⟩
abbrev S2000x128 : Shape := ⟨2, ![2000, 128]⟩
abbrev S2000x512 : Shape := ⟨2, ![2000, 512]⟩
abbrev S200000x512 : Shape := ⟨2, ![200000, 512]⟩
abbrev S1x512 : Shape := ⟨2, ![1, 512]⟩
abbrev S1x512x512 : Shape := ⟨3, ![1, 512, 512]⟩
abbrev S2048 : Shape := ⟨1, ![2048]⟩
abbrev S50000x1 : Shape := ⟨2, ![50000, 1]⟩
abbrev S2048x512 : Shape := ⟨2, ![2048, 512]⟩
abbrev S2048x1 : Shape := ⟨2, ![2048, 1]⟩
abbrev S1x1 : Shape := ⟨2, ![1, 1]⟩

abbrev nBuf : Space → Nat
  | .hbm => 422
  | .vmem => 24
  | .smem => 0
  | _ => 0

abbrev hbmTy0_0 (i : Nat) : BufTy := match i % 128 with
  | 0 => ⟨S50000x128, .f32⟩
  | 1 => ⟨S2x150000, .i32⟩
  | 2 => ⟨S50000, .i32⟩
  | 3 => ⟨S128x512, .f32⟩
  | 4 => ⟨S512, .f32⟩
  | 5 => ⟨S3x512x512, .f32⟩
  | 6 => ⟨S3x512, .f32⟩
  | 7 => ⟨S5x512, .f32⟩
  | 8 => ⟨S5x512, .f32⟩
  | 9 => ⟨S512x512, .f32⟩
  | 10 => ⟨S512, .f32⟩
  | 11 => ⟨S512x1, .f32⟩
  | 12 => ⟨S1, .f32⟩
  | 13 => ⟨S50000, .i32⟩
  | 14 => ⟨S1x150000, .i32⟩
  | 15 => ⟨S150000, .i32⟩
  | 16 => ⟨S200000, .i32⟩
  | 17 => ⟨S1x150000, .i32⟩
  | 18 => ⟨S150000, .i32⟩
  | 19 => ⟨S200000, .i32⟩
  | 20 => ⟨S_, .f32⟩
  | 21 => ⟨S200000, .f32⟩
  | 22 => ⟨S_, .f32⟩
  | 23 => ⟨S50000, .f32⟩
  | 24 => ⟨S200000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S200000, .i32⟩
  | 39 => ⟨S200000, .i1⟩
  | 40 => ⟨S_, .i32⟩
  | 41 => ⟨S200000, .i32⟩
  | 42 => ⟨S200000, .i32⟩
  | 43 => ⟨S200000, .i32⟩
  | 44 => ⟨S200000x1, .i32⟩
  | 45 => ⟨S200000, .f32⟩
  | 46 => ⟨S_, .i32⟩
  | 47 => ⟨S200000, .i32⟩
  | 48 => ⟨S200000, .i1⟩
  | 49 => ⟨S_, .i32⟩
  | 50 => ⟨S200000, .i32⟩
  | 51 => ⟨S200000, .i32⟩
  | 52 => ⟨S200000, .i32⟩
  | 53 => ⟨S200000x1, .i32⟩
  | 54 => ⟨S200000, .f32⟩
  | 55 => ⟨S200000, .f32⟩
  | 56 => ⟨S50000x512, .f32⟩
  | 57 => ⟨S_, .i32⟩
  | 58 => ⟨S200000, .i32⟩
  | 59 => ⟨S200000, .i1⟩
  | 60 => ⟨S_, .i32⟩
  | 61 => ⟨S200000, .i32⟩
  | 62 => ⟨S200000, .i32⟩
  | 63 => ⟨S200000, .i32⟩
  | 64 => ⟨S200000x1, .i32⟩
  | 65 => ⟨S200000x512, .f32⟩
  | 66 => ⟨S200000x1, .f32⟩
  | 67 => ⟨S200000x512, .f32⟩
  | 68 => ⟨S200000x512, .f32⟩
  | 69 => ⟨S_, .f32⟩
  | 70 => ⟨S50000x512, .f32⟩
  | 71 => ⟨S200000x1, .i32⟩
  | 72 => ⟨S50000x512, .f32⟩
  | 73 => ⟨S1x512, .f32⟩
  | 74 => ⟨S50000x512, .f32⟩
  | 75 => ⟨S50000x512, .f32⟩
  | 76 => ⟨S1x512, .f32⟩
  | 77 => ⟨S512, .f32⟩
  | 78 => ⟨S1x512, .f32⟩
  | 79 => ⟨S512, .f32⟩
  | 80 => ⟨S_, .f32⟩
  | 81 => ⟨S512, .f32⟩
  | 82 => ⟨S_, .f32⟩
  | 83 => ⟨S512, .f32⟩
  | 84 => ⟨S512, .f32⟩
  | 85 => ⟨S_, .i32⟩
  | 86 => ⟨S_, .f32⟩
  | 87 => ⟨S512, .f32⟩
  | 88 => ⟨S1x512, .f32⟩
  | 89 => ⟨S_, .f32⟩
  | 90 => ⟨S1x512, .f32⟩
  | 91 => ⟨S1x512, .f32⟩
  | 92 => ⟨S50000x512, .f32⟩
  | 93 => ⟨S50000x512, .f32⟩
  | 94 => ⟨S50000x512, .f32⟩
  | 95 => ⟨S_, .f32⟩
  | 96 => ⟨S_, .f32⟩
  | 97 => ⟨S_, .f32⟩
  | 98 => ⟨S_, .f32⟩
  | 99 => ⟨S512, .f32⟩
  | 100 => ⟨S512, .f32⟩
  | 101 => ⟨S512, .f32⟩
  | 102 => ⟨S_, .f32⟩
  | 103 => ⟨S_, .i1⟩
  | 104 => ⟨S_, .f32⟩
  | 105 => ⟨S_, .f32⟩
  | 106 => ⟨S512, .f32⟩
  | 107 => ⟨S512, .f32⟩
  | 108 => ⟨S1x512, .f32⟩
  | 109 => ⟨S50000x512, .f32⟩
  | 110 => ⟨S50000x512, .f32⟩
  | 111 => ⟨S_, .f32⟩
  | 112 => ⟨S512, .f32⟩
  | 113 => ⟨S512, .f32⟩
  | 114 => ⟨S512, .f32⟩
  | 115 => ⟨S1x512, .f32⟩
  | 116 => ⟨S50000x512, .f32⟩
  | 117 => ⟨S50000x512, .f32⟩
  | 118 => ⟨S1x512, .f32⟩
  | 119 => ⟨S50000x512, .f32⟩
  | 120 => ⟨S50000x512, .f32⟩
  | 121 => ⟨S1x512, .f32⟩
  | 122 => ⟨S50000x512, .f32⟩
  | 123 => ⟨S50000x512, .f32⟩
  | 124 => ⟨S_, .f32⟩
  | 125 => ⟨S50000x512, .f32⟩
  | 126 => ⟨S50000x512, .f32⟩
  | 127 => ⟨S1x512x512, .f32⟩
  | _ => ⟨S50000x128, .f32⟩

abbrev hbmTy0_1 (i : Nat) : BufTy := match i % 128 with
  | 0 => ⟨S512x512, .f32⟩
  | 1 => ⟨S1x512, .f32⟩
  | 2 => ⟨S512, .f32⟩
  | 3 => ⟨S50000x512, .f32⟩
  | 4 => ⟨S_, .i32⟩
  | 5 => ⟨S200000, .i32⟩
  | 6 => ⟨S200000, .i1⟩
  | 7 => ⟨S_, .i32⟩
  | 8 => ⟨S200000, .i32⟩
  | 9 => ⟨S200000, .i32⟩
  | 10 => ⟨S200000, .i32⟩
  | 11 => ⟨S200000x1, .i32⟩
  | 12 => ⟨S200000x512, .f32⟩
  | 13 => ⟨S200000x1, .f32⟩
  | 14 => ⟨S200000x512, .f32⟩
  | 15 => ⟨S200000x512, .f32⟩
  | 16 => ⟨S_, .f32⟩
  | 17 => ⟨S50000x512, .f32⟩
  | 18 => ⟨S200000x1, .i32⟩
  | 19 => ⟨S50000x512, .f32⟩
  | 20 => ⟨S1x512, .f32⟩
  | 21 => ⟨S50000x512, .f32⟩
  | 22 => ⟨S50000x512, .f32⟩
  | 23 => ⟨S1x512, .f32⟩
  | 24 => ⟨S512, .f32⟩
  | 25 => ⟨S1x512, .f32⟩
  | 26 => ⟨S512, .f32⟩
  | 27 => ⟨S_, .f32⟩
  | 28 => ⟨S512, .f32⟩
  | 29 => ⟨S_, .f32⟩
  | 30 => ⟨S512, .f32⟩
  | 31 => ⟨S512, .f32⟩
  | 32 => ⟨S_, .i32⟩
  | 33 => ⟨S_, .f32⟩
  | 34 => ⟨S512, .f32⟩
  | 35 => ⟨S1x512, .f32⟩
  | 36 => ⟨S_, .f32⟩
  | 37 => ⟨S1x512, .f32⟩
  | 38 => ⟨S1x512, .f32⟩
  | 39 => ⟨S50000x512, .f32⟩
  | 40 => ⟨S50000x512, .f32⟩
  | 41 => ⟨S50000x512, .f32⟩
  | 42 => ⟨S_, .f32⟩
  | 43 => ⟨S_, .f32⟩
  | 44 => ⟨S_, .f32⟩
  | 45 => ⟨S_, .f32⟩
  | 46 => ⟨S512, .f32⟩
  | 47 => ⟨S512, .f32⟩
  | 48 => ⟨S512, .f32⟩
  | 49 => ⟨S_, .f32⟩
  | 50 => ⟨S_, .i1⟩
  | 51 => ⟨S_, .f32⟩
  | 52 => ⟨S_, .f32⟩
  | 53 => ⟨S512, .f32⟩
  | 54 => ⟨S512, .f32⟩
  | 55 => ⟨S1x512, .f32⟩
  | 56 => ⟨S50000x512, .f32⟩
  | 57 => ⟨S50000x512, .f32⟩
  | 58 => ⟨S_, .f32⟩
  | 59 => ⟨S512, .f32⟩
  | 60 => ⟨S512, .f32⟩
  | 61 => ⟨S512, .f32⟩
  | 62 => ⟨S1x512, .f32⟩
  | 63 => ⟨S50000x512, .f32⟩
  | 64 => ⟨S50000x512, .f32⟩
  | 65 => ⟨S1x512, .f32⟩
  | 66 => ⟨S50000x512, .f32⟩
  | 67 => ⟨S50000x512, .f32⟩
  | 68 => ⟨S1x512, .f32⟩
  | 69 => ⟨S50000x512, .f32⟩
  | 70 => ⟨S50000x512, .f32⟩
  | 71 => ⟨S_, .f32⟩
  | 72 => ⟨S50000x512, .f32⟩
  | 73 => ⟨S50000x512, .f32⟩
  | 74 => ⟨S1x512x512, .f32⟩
  | 75 => ⟨S512x512, .f32⟩
  | 76 => ⟨S1x512, .f32⟩
  | 77 => ⟨S512, .f32⟩
  | 78 => ⟨S50000x512, .f32⟩
  | 79 => ⟨S_, .i32⟩
  | 80 => ⟨S200000, .i32⟩
  | 81 => ⟨S200000, .i1⟩
  | 82 => ⟨S_, .i32⟩
  | 83 => ⟨S200000, .i32⟩
  | 84 => ⟨S200000, .i32⟩
  | 85 => ⟨S200000, .i32⟩
  | 86 => ⟨S200000x1, .i32⟩
  | 87 => ⟨S200000x512, .f32⟩
  | 88 => ⟨S200000x1, .f32⟩
  | 89 => ⟨S200000x512, .f32⟩
  | 90 => ⟨S200000x512, .f32⟩
  | 91 => ⟨S_, .f32⟩
  | 92 => ⟨S50000x512, .f32⟩
  | 93 => ⟨S200000x1, .i32⟩
  | 94 => ⟨S50000x512, .f32⟩
  | 95 => ⟨S1x512, .f32⟩
  | 96 => ⟨S50000x512, .f32⟩
  | 97 => ⟨S50000x512, .f32⟩
  | 98 => ⟨S1x512, .f32⟩
  | 99 => ⟨S512, .f32⟩
  | 100 => ⟨S1x512, .f32⟩
  | 101 => ⟨S512, .f32⟩
  | 102 => ⟨S_, .f32⟩
  | 103 => ⟨S512, .f32⟩
  | 104 => ⟨S_, .f32⟩
  | 105 => ⟨S512, .f32⟩
  | 106 => ⟨S512, .f32⟩
  | 107 => ⟨S_, .i32⟩
  | 108 => ⟨S_, .f32⟩
  | 109 => ⟨S512, .f32⟩
  | 110 => ⟨S1x512, .f32⟩
  | 111 => ⟨S_, .f32⟩
  | 112 => ⟨S1x512, .f32⟩
  | 113 => ⟨S1x512, .f32⟩
  | 114 => ⟨S50000x512, .f32⟩
  | 115 => ⟨S50000x512, .f32⟩
  | 116 => ⟨S50000x512, .f32⟩
  | 117 => ⟨S_, .f32⟩
  | 118 => ⟨S_, .f32⟩
  | 119 => ⟨S_, .f32⟩
  | 120 => ⟨S_, .f32⟩
  | 121 => ⟨S512, .f32⟩
  | 122 => ⟨S512, .f32⟩
  | 123 => ⟨S512, .f32⟩
  | 124 => ⟨S_, .f32⟩
  | 125 => ⟨S_, .i1⟩
  | 126 => ⟨S_, .f32⟩
  | 127 => ⟨S_, .f32⟩
  | _ => ⟨S50000x128, .f32⟩

abbrev hbmTy0_2 (i : Nat) : BufTy := match i % 128 with
  | 0 => ⟨S512, .f32⟩
  | 1 => ⟨S512, .f32⟩
  | 2 => ⟨S1x512, .f32⟩
  | 3 => ⟨S50000x512, .f32⟩
  | 4 => ⟨S50000x512, .f32⟩
  | 5 => ⟨S_, .f32⟩
  | 6 => ⟨S512, .f32⟩
  | 7 => ⟨S512, .f32⟩
  | 8 => ⟨S512, .f32⟩
  | 9 => ⟨S1x512, .f32⟩
  | 10 => ⟨S50000x512, .f32⟩
  | 11 => ⟨S50000x512, .f32⟩
  | 12 => ⟨S1x512, .f32⟩
  | 13 => ⟨S50000x512, .f32⟩
  | 14 => ⟨S50000x512, .f32⟩
  | 15 => ⟨S1x512, .f32⟩
  | 16 => ⟨S50000x512, .f32⟩
  | 17 => ⟨S50000x512, .f32⟩
  | 18 => ⟨S_, .f32⟩
  | 19 => ⟨S50000x512, .f32⟩
  | 20 => ⟨S50000x512, .f32⟩
  | 21 => ⟨S1x512x512, .f32⟩
  | 22 => ⟨S512x512, .f32⟩
  | 23 => ⟨S1x512, .f32⟩
  | 24 => ⟨S512, .f32⟩
  | 25 => ⟨S50000x512, .f32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S200000x512, .f32⟩
  | 35 => ⟨S200000x1, .f32⟩
  | 36 => ⟨S200000x512, .f32⟩
  | 37 => ⟨S200000x512, .f32⟩
  | 38 => ⟨S_, .f32⟩
  | 39 => ⟨S50000x512, .f32⟩
  | 40 => ⟨S200000x1, .i32⟩
  | 41 => ⟨S50000x512, .f32⟩
  | 42 => ⟨S1x512, .f32⟩
  | 43 => ⟨S50000x512, .f32⟩
  | 44 => ⟨S50000x512, .f32⟩
  | 45 => ⟨S1x512, .f32⟩
  | 46 => ⟨S512, .f32⟩
  | 47 => ⟨S1x512, .f32⟩
  | 48 => ⟨S512, .f32⟩
  | 49 => ⟨S_, .f32⟩
  | 50 => ⟨S512, .f32⟩
  | 51 => ⟨S_, .f32⟩
  | 52 => ⟨S512, .f32⟩
  | 53 => ⟨S512, .f32⟩
  | 54 => ⟨S_, .i32⟩
  | 55 => ⟨S_, .f32⟩
  | 56 => ⟨S512, .f32⟩
  | 57 => ⟨S1x512, .f32⟩
  | 58 => ⟨S_, .f32⟩
  | 59 => ⟨S1x512, .f32⟩
  | 60 => ⟨S1x512, .f32⟩
  | 61 => ⟨S50000x512, .f32⟩
  | 62 => ⟨S50000x512, .f32⟩
  | 63 => ⟨S50000x512, .f32⟩
  | 64 => ⟨S_, .f32⟩
  | 65 => ⟨S_, .f32⟩
  | 66 => ⟨S_, .f32⟩
  | 67 => ⟨S_, .f32⟩
  | 68 => ⟨S512, .f32⟩
  | 69 => ⟨S512, .f32⟩
  | 70 => ⟨S512, .f32⟩
  | 71 => ⟨S_, .f32⟩
  | 72 => ⟨S_, .i1⟩
  | 73 => ⟨S_, .f32⟩
  | 74 => ⟨S_, .f32⟩
  | 75 => ⟨S512, .f32⟩
  | 76 => ⟨S512, .f32⟩
  | 77 => ⟨S1x512, .f32⟩
  | 78 => ⟨S50000x512, .f32⟩
  | 79 => ⟨S50000x512, .f32⟩
  | 80 => ⟨S_, .f32⟩
  | 81 => ⟨S512, .f32⟩
  | 82 => ⟨S512, .f32⟩
  | 83 => ⟨S512, .f32⟩
  | 84 => ⟨S1x512, .f32⟩
  | 85 => ⟨S50000x512, .f32⟩
  | 86 => ⟨S50000x512, .f32⟩
  | 87 => ⟨S1x512, .f32⟩
  | 88 => ⟨S50000x512, .f32⟩
  | 89 => ⟨S50000x512, .f32⟩
  | 90 => ⟨S1x512, .f32⟩
  | 91 => ⟨S50000x512, .f32⟩
  | 92 => ⟨S50000x512, .f32⟩
  | 93 => ⟨S_, .f32⟩
  | 94 => ⟨S50000x512, .f32⟩
  | 95 => ⟨S50000x512, .f32⟩
  | 96 => ⟨S_, .f32⟩
  | 97 => ⟨S50000, .f32⟩
  | 98 => ⟨S_, .f32⟩
  | 99 => ⟨S2048, .f32⟩
  | 100 => ⟨S50000x1, .i32⟩
  | 101 => ⟨S2048, .f32⟩
  | 102 => ⟨S_, .f32⟩
  | 103 => ⟨S2048x512, .f32⟩
  | 104 => ⟨S50000x1, .i32⟩
  | 105 => ⟨S2048x512, .f32⟩
  | 106 => ⟨S_, .f32⟩
  | 107 => ⟨S2048, .f32⟩
  | 108 => ⟨S2048, .f32⟩
  | 109 => ⟨S2048x1, .f32⟩
  | 110 => ⟨S2048x512, .f32⟩
  | 111 => ⟨S2048x512, .f32⟩
  | 112 => ⟨S1x512, .f32⟩
  | 113 => ⟨S512, .f32⟩
  | 114 => ⟨S1x512, .f32⟩
  | 115 => ⟨S512, .f32⟩
  | 116 => ⟨S_, .f32⟩
  | 117 => ⟨S512, .f32⟩
  | 118 => ⟨S_, .f32⟩
  | 119 => ⟨S512, .f32⟩
  | 120 => ⟨S512, .f32⟩
  | 121 => ⟨S_, .i32⟩
  | 122 => ⟨S_, .f32⟩
  | 123 => ⟨S512, .f32⟩
  | 124 => ⟨S1x512, .f32⟩
  | 125 => ⟨S_, .f32⟩
  | 126 => ⟨S1x512, .f32⟩
  | 127 => ⟨S1x512, .f32⟩
  | _ => ⟨S50000x128, .f32⟩

abbrev hbmTy0_3 (i : Nat) : BufTy := match i % 128 with
  | 0 => ⟨S2048x512, .f32⟩
  | 1 => ⟨S2048x512, .f32⟩
  | 2 => ⟨S2048x512, .f32⟩
  | 3 => ⟨S_, .f32⟩
  | 4 => ⟨S_, .f32⟩
  | 5 => ⟨S_, .f32⟩
  | 6 => ⟨S_, .f32⟩
  | 7 => ⟨S512, .f32⟩
  | 8 => ⟨S512, .f32⟩
  | 9 => ⟨S512, .f32⟩
  | 10 => ⟨S_, .f32⟩
  | 11 => ⟨S_, .i1⟩
  | 12 => ⟨S_, .f32⟩
  | 13 => ⟨S_, .f32⟩
  | 14 => ⟨S512, .f32⟩
  | 15 => ⟨S512, .f32⟩
  | 16 => ⟨S1x512, .f32⟩
  | 17 => ⟨S2048x512, .f32⟩
  | 18 => ⟨S2048x512, .f32⟩
  | 19 => ⟨S_, .f32⟩
  | 20 => ⟨S512, .f32⟩
  | 21 => ⟨S512, .f32⟩
  | 22 => ⟨S512, .f32⟩
  | 23 => ⟨S1x512, .f32⟩
  | 24 => ⟨S2048x512, .f32⟩
  | 25 => ⟨S2048x512, .f32⟩
  | 26 => ⟨S1x512, .f32⟩
  | 27 => ⟨S2048x512, .f32⟩
  | 28 => ⟨S2048x512, .f32⟩
  | 29 => ⟨S1x512, .f32⟩
  | 30 => ⟨S2048x512, .f32⟩
  | 31 => ⟨S2048x512, .f32⟩
  | 32 => ⟨S1x512, .f32⟩
  | 33 => ⟨S2048x512, .f32⟩
  | 34 => ⟨S2048x1, .f32⟩
  | 35 => ⟨S1x1, .f32⟩
  | 36 => ⟨S2048x1, .f32⟩
  | 37 => ⟨S2048x1, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S512x512, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S512x512, .f32⟩
  | .local _ .vmem, ⟨13, _⟩ => ⟨S2000x512, .f32⟩
  | .local _ .vmem, ⟨14, _⟩ => ⟨S2000x512, .f32⟩
  | .local _ .vmem, ⟨15, _⟩ => ⟨S2000x512, .f32⟩
  | .local _ .vmem, ⟨16, _⟩ => ⟨S2000x512, .f32⟩
  | .local _ .vmem, ⟨17, _⟩ => ⟨S512x512, .f32⟩
  | .local _ .vmem, ⟨18, _⟩ => ⟨S2000x512, .f32⟩
  | .local _ .vmem, ⟨19, _⟩ => ⟨S2000x512, .f32⟩
  | .local _ .vmem, ⟨20, _⟩ => ⟨S2048x512, .f32⟩
  | .local _ .vmem, ⟨21, _⟩ => ⟨S512x512, .f32⟩
  | .local _ .vmem, ⟨22, _⟩ => ⟨S1x512, .f32⟩
  | .local _ .vmem, ⟨23, _⟩ => ⟨S2048x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_v55 : Ref sig .tc := ⟨.hbm, 84, rfl⟩
abbrev main_c_12 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_cst_0 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_call1_v6 : Ref sig .tc := ⟨.hbm, 94, rfl⟩
abbrev main_call1_v7 : Ref sig .tc := ⟨.hbm, 95, rfl⟩
abbrev main_call1_cst_1 : Ref sig .tc := ⟨.hbm, 96, rfl⟩
abbrev main_call1_v8 : Ref sig .tc := ⟨.hbm, 97, rfl⟩
abbrev main_call1_cst_2 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_cst_3 : Ref sig .tc := ⟨.hbm, 102, rfl⟩
abbrev main_call1_v12 : Ref sig .tc := ⟨.hbm, 103, rfl⟩
abbrev main_call1_cst_4 : Ref sig .tc := ⟨.hbm, 104, rfl⟩
abbrev main_call1_call0_v0 : Ref sig .tc := ⟨.hbm, 105, rfl⟩
abbrev main_call1_call0_v1 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst_13 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_call2_cst : Ref sig .tc := ⟨.hbm, 124, rfl⟩
abbrev main_call2_v0 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_c_14 : Ref sig .tc := ⟨.hbm, 132, rfl⟩
abbrev main_v78 : Ref sig .tc := ⟨.hbm, 133, rfl⟩
abbrev main_v79 : Ref sig .tc := ⟨.hbm, 134, rfl⟩
abbrev main_c_15 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_16 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_cst_17 : Ref sig .tc := ⟨.hbm, 155, rfl⟩
abbrev main_v98 : Ref sig .tc := ⟨.hbm, 156, rfl⟩
abbrev main_cst_18 : Ref sig .tc := ⟨.hbm, 157, rfl⟩
abbrev main_v99 : Ref sig .tc := ⟨.hbm, 158, rfl⟩
abbrev main_v100 : Ref sig .tc := ⟨.hbm, 159, rfl⟩
abbrev main_c_19 : Ref sig .tc := ⟨.hbm, 160, rfl⟩
abbrev main_call3_cst : Ref sig .tc := ⟨.hbm, 161, rfl⟩
abbrev main_call3_v0 : Ref sig .tc := ⟨.hbm, 162, rfl⟩
abbrev main_call3_v1 : Ref sig .tc := ⟨.hbm, 163, rfl⟩
abbrev main_call3_cst_0 : Ref sig .tc := ⟨.hbm, 164, rfl⟩
abbrev main_call3_v2 : Ref sig .tc := ⟨.hbm, 165, rfl⟩
abbrev main_call3_v3 : Ref sig .tc := ⟨.hbm, 166, rfl⟩
abbrev main_call3_v4 : Ref sig .tc := ⟨.hbm, 167, rfl⟩
abbrev main_call3_v5 : Ref sig .tc := ⟨.hbm, 168, rfl⟩
abbrev main_call3_v6 : Ref sig .tc := ⟨.hbm, 169, rfl⟩
abbrev main_call3_v7 : Ref sig .tc := ⟨.hbm, 170, rfl⟩
abbrev main_call3_cst_1 : Ref sig .tc := ⟨.hbm, 171, rfl⟩
abbrev main_call3_v8 : Ref sig .tc := ⟨.hbm, 172, rfl⟩
abbrev main_call3_cst_2 : Ref sig .tc := ⟨.hbm, 173, rfl⟩
abbrev main_call3_v9 : Ref sig .tc := ⟨.hbm, 174, rfl⟩
abbrev main_call3_v10 : Ref sig .tc := ⟨.hbm, 175, rfl⟩
abbrev main_call3_v11 : Ref sig .tc := ⟨.hbm, 176, rfl⟩
abbrev main_call3_cst_3 : Ref sig .tc := ⟨.hbm, 177, rfl⟩
abbrev main_call3_v12 : Ref sig .tc := ⟨.hbm, 178, rfl⟩
abbrev main_call3_cst_4 : Ref sig .tc := ⟨.hbm, 179, rfl⟩
abbrev main_call3_call0_v0 : Ref sig .tc := ⟨.hbm, 180, rfl⟩
abbrev main_call3_call0_v1 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_cst_20 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_call4_cst : Ref sig .tc := ⟨.hbm, 199, rfl⟩
abbrev main_call4_v0 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_c_21 : Ref sig .tc := ⟨.hbm, 207, rfl⟩
abbrev main_v123 : Ref sig .tc := ⟨.hbm, 208, rfl⟩
abbrev main_v124 : Ref sig .tc := ⟨.hbm, 209, rfl⟩
abbrev main_c_22 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_cst_23 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_cst_24 : Ref sig .tc := ⟨.hbm, 230, rfl⟩
abbrev main_v143 : Ref sig .tc := ⟨.hbm, 231, rfl⟩
abbrev main_cst_25 : Ref sig .tc := ⟨.hbm, 232, rfl⟩
abbrev main_v144 : Ref sig .tc := ⟨.hbm, 233, rfl⟩
abbrev main_v145 : Ref sig .tc := ⟨.hbm, 234, rfl⟩
abbrev main_c_26 : Ref sig .tc := ⟨.hbm, 235, rfl⟩
abbrev main_call5_cst : Ref sig .tc := ⟨.hbm, 236, rfl⟩
abbrev main_call5_v0 : Ref sig .tc := ⟨.hbm, 237, rfl⟩
abbrev main_call5_v1 : Ref sig .tc := ⟨.hbm, 238, rfl⟩
abbrev main_call5_cst_0 : Ref sig .tc := ⟨.hbm, 239, rfl⟩
abbrev main_call5_v2 : Ref sig .tc := ⟨.hbm, 240, rfl⟩
abbrev main_call5_v3 : Ref sig .tc := ⟨.hbm, 241, rfl⟩
abbrev main_call5_v4 : Ref sig .tc := ⟨.hbm, 242, rfl⟩
abbrev main_call5_v5 : Ref sig .tc := ⟨.hbm, 243, rfl⟩
abbrev main_call5_v6 : Ref sig .tc := ⟨.hbm, 244, rfl⟩
abbrev main_call5_v7 : Ref sig .tc := ⟨.hbm, 245, rfl⟩
abbrev main_call5_cst_1 : Ref sig .tc := ⟨.hbm, 246, rfl⟩
abbrev main_call5_v8 : Ref sig .tc := ⟨.hbm, 247, rfl⟩
abbrev main_call5_cst_2 : Ref sig .tc := ⟨.hbm, 248, rfl⟩
abbrev main_call5_v9 : Ref sig .tc := ⟨.hbm, 249, rfl⟩
abbrev main_call5_v10 : Ref sig .tc := ⟨.hbm, 250, rfl⟩
abbrev main_call5_v11 : Ref sig .tc := ⟨.hbm, 251, rfl⟩
abbrev main_call5_cst_3 : Ref sig .tc := ⟨.hbm, 252, rfl⟩
abbrev main_call5_v12 : Ref sig .tc := ⟨.hbm, 253, rfl⟩
abbrev main_call5_cst_4 : Ref sig .tc := ⟨.hbm, 254, rfl⟩
abbrev main_call5_call0_v0 : Ref sig .tc := ⟨.hbm, 255, rfl⟩
abbrev main_call5_call0_v1 : Ref sig .tc := ⟨.hbm, 256, rfl⟩
abbrev main_v146 : Ref sig .tc := ⟨.hbm, 257, rfl⟩
abbrev main_v147 : Ref sig .tc := ⟨.hbm, 258, rfl⟩
abbrev main_v148 : Ref sig .tc := ⟨.hbm, 259, rfl⟩
abbrev main_v149 : Ref sig .tc := ⟨.hbm, 260, rfl⟩
abbrev main_cst_27 : Ref sig .tc := ⟨.hbm, 261, rfl⟩
abbrev main_v150 : Ref sig .tc := ⟨.hbm, 262, rfl⟩
abbrev main_v151 : Ref sig .tc := ⟨.hbm, 263, rfl⟩
abbrev main_v152 : Ref sig .tc := ⟨.hbm, 264, rfl⟩
abbrev main_v153 : Ref sig .tc := ⟨.hbm, 265, rfl⟩
abbrev main_v154 : Ref sig .tc := ⟨.hbm, 266, rfl⟩
abbrev main_v155 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_v160 : Ref sig .tc := ⟨.hbm, 272, rfl⟩
abbrev main_v161 : Ref sig .tc := ⟨.hbm, 273, rfl⟩
abbrev main_call6_cst : Ref sig .tc := ⟨.hbm, 274, rfl⟩
abbrev main_call6_v0 : Ref sig .tc := ⟨.hbm, 275, rfl⟩
abbrev main_v162 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_v167 : Ref sig .tc := ⟨.hbm, 281, rfl⟩
abbrev main_c_28 : Ref sig .tc := ⟨.hbm, 282, rfl⟩
abbrev main_v168 : Ref sig .tc := ⟨.hbm, 283, rfl⟩
abbrev main_v169 : Ref sig .tc := ⟨.hbm, 284, rfl⟩
abbrev main_c_29 : Ref sig .tc := ⟨.hbm, 285, rfl⟩
abbrev main_v170 : Ref sig .tc := ⟨.hbm, 286, rfl⟩
abbrev main_v171 : Ref sig .tc := ⟨.hbm, 287, rfl⟩
abbrev main_v172 : Ref sig .tc := ⟨.hbm, 288, rfl⟩
abbrev main_v173 : Ref sig .tc := ⟨.hbm, 289, rfl⟩
abbrev main_v174 : Ref sig .tc := ⟨.hbm, 290, rfl⟩
abbrev main_v175 : Ref sig .tc := ⟨.hbm, 291, rfl⟩
abbrev main_v176 : Ref sig .tc := ⟨.hbm, 292, rfl⟩
abbrev main_v177 : Ref sig .tc := ⟨.hbm, 293, rfl⟩
abbrev main_cst_30 : Ref sig .tc := ⟨.hbm, 294, rfl⟩
abbrev main_v178 : Ref sig .tc := ⟨.hbm, 295, rfl⟩
abbrev main_v179 : Ref sig .tc := ⟨.hbm, 296, rfl⟩
abbrev main_v180 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_v184 : Ref sig .tc := ⟨.hbm, 301, rfl⟩
abbrev main_v185 : Ref sig .tc := ⟨.hbm, 302, rfl⟩
abbrev main_v186 : Ref sig .tc := ⟨.hbm, 303, rfl⟩
abbrev main_v187 : Ref sig .tc := ⟨.hbm, 304, rfl⟩
abbrev main_cst_31 : Ref sig .tc := ⟨.hbm, 305, rfl⟩
abbrev main_v188 : Ref sig .tc := ⟨.hbm, 306, rfl⟩
abbrev main_cst_32 : Ref sig .tc := ⟨.hbm, 307, rfl⟩
abbrev main_v189 : Ref sig .tc := ⟨.hbm, 308, rfl⟩
abbrev main_v190 : Ref sig .tc := ⟨.hbm, 309, rfl⟩
abbrev main_c_33 : Ref sig .tc := ⟨.hbm, 310, rfl⟩
abbrev main_call7_cst : Ref sig .tc := ⟨.hbm, 311, rfl⟩
abbrev main_call7_v0 : Ref sig .tc := ⟨.hbm, 312, rfl⟩
abbrev main_call7_v1 : Ref sig .tc := ⟨.hbm, 313, rfl⟩
abbrev main_call7_cst_0 : Ref sig .tc := ⟨.hbm, 314, rfl⟩
abbrev main_call7_v2 : Ref sig .tc := ⟨.hbm, 315, rfl⟩
abbrev main_call7_v3 : Ref sig .tc := ⟨.hbm, 316, rfl⟩
abbrev main_call7_v4 : Ref sig .tc := ⟨.hbm, 317, rfl⟩
abbrev main_call7_v5 : Ref sig .tc := ⟨.hbm, 318, rfl⟩
abbrev main_call7_v6 : Ref sig .tc := ⟨.hbm, 319, rfl⟩
abbrev main_call7_v7 : Ref sig .tc := ⟨.hbm, 320, rfl⟩
abbrev main_call7_cst_1 : Ref sig .tc := ⟨.hbm, 321, rfl⟩
abbrev main_call7_v8 : Ref sig .tc := ⟨.hbm, 322, rfl⟩
abbrev main_call7_cst_2 : Ref sig .tc := ⟨.hbm, 323, rfl⟩
abbrev main_call7_v9 : Ref sig .tc := ⟨.hbm, 324, rfl⟩
abbrev main_call7_v10 : Ref sig .tc := ⟨.hbm, 325, rfl⟩
abbrev main_call7_v11 : Ref sig .tc := ⟨.hbm, 326, rfl⟩
abbrev main_call7_cst_3 : Ref sig .tc := ⟨.hbm, 327, rfl⟩
abbrev main_call7_v12 : Ref sig .tc := ⟨.hbm, 328, rfl⟩
abbrev main_call7_cst_4 : Ref sig .tc := ⟨.hbm, 329, rfl⟩
abbrev main_call7_call0_v0 : Ref sig .tc := ⟨.hbm, 330, rfl⟩
abbrev main_call7_call0_v1 : Ref sig .tc := ⟨.hbm, 331, rfl⟩
abbrev main_v191 : Ref sig .tc := ⟨.hbm, 332, rfl⟩
abbrev main_v192 : Ref sig .tc := ⟨.hbm, 333, rfl⟩
abbrev main_v193 : Ref sig .tc := ⟨.hbm, 334, rfl⟩
abbrev main_v194 : Ref sig .tc := ⟨.hbm, 335, rfl⟩
abbrev main_cst_34 : Ref sig .tc := ⟨.hbm, 336, rfl⟩
abbrev main_v195 : Ref sig .tc := ⟨.hbm, 337, rfl⟩
abbrev main_v196 : Ref sig .tc := ⟨.hbm, 338, rfl⟩
abbrev main_v197 : Ref sig .tc := ⟨.hbm, 339, rfl⟩
abbrev main_v198 : Ref sig .tc := ⟨.hbm, 340, rfl⟩
abbrev main_v199 : Ref sig .tc := ⟨.hbm, 341, rfl⟩
abbrev main_v200 : Ref sig .tc := ⟨.hbm, 342, rfl⟩
abbrev main_v201 : Ref sig .tc := ⟨.hbm, 343, rfl⟩
abbrev main_v202 : Ref sig .tc := ⟨.hbm, 344, rfl⟩
abbrev main_v203 : Ref sig .tc := ⟨.hbm, 345, rfl⟩
abbrev main_v204 : Ref sig .tc := ⟨.hbm, 346, rfl⟩
abbrev main_v205 : Ref sig .tc := ⟨.hbm, 347, rfl⟩
abbrev main_v206 : Ref sig .tc := ⟨.hbm, 348, rfl⟩
abbrev main_call8_cst : Ref sig .tc := ⟨.hbm, 349, rfl⟩
abbrev main_call8_v0 : Ref sig .tc := ⟨.hbm, 350, rfl⟩
abbrev main_v207 : Ref sig .tc := ⟨.hbm, 351, rfl⟩
abbrev main_cst_35 : Ref sig .tc := ⟨.hbm, 352, rfl⟩
abbrev main_v208 : Ref sig .tc := ⟨.hbm, 353, rfl⟩
abbrev main_cst_36 : Ref sig .tc := ⟨.hbm, 354, rfl⟩
abbrev main_v209 : Ref sig .tc := ⟨.hbm, 355, rfl⟩
abbrev main_v210 : Ref sig .tc := ⟨.hbm, 356, rfl⟩
abbrev main_v211 : Ref sig .tc := ⟨.hbm, 357, rfl⟩
abbrev main_cst_37 : Ref sig .tc := ⟨.hbm, 358, rfl⟩
abbrev main_v212 : Ref sig .tc := ⟨.hbm, 359, rfl⟩
abbrev main_v213 : Ref sig .tc := ⟨.hbm, 360, rfl⟩
abbrev main_v214 : Ref sig .tc := ⟨.hbm, 361, rfl⟩
abbrev main_cst_38 : Ref sig .tc := ⟨.hbm, 362, rfl⟩
abbrev main_v215 : Ref sig .tc := ⟨.hbm, 363, rfl⟩
abbrev main_v216 : Ref sig .tc := ⟨.hbm, 364, rfl⟩
abbrev main_v217 : Ref sig .tc := ⟨.hbm, 365, rfl⟩
abbrev main_v218 : Ref sig .tc := ⟨.hbm, 366, rfl⟩
abbrev main_v219 : Ref sig .tc := ⟨.hbm, 367, rfl⟩
abbrev main_v220 : Ref sig .tc := ⟨.hbm, 368, rfl⟩
abbrev main_v221 : Ref sig .tc := ⟨.hbm, 369, rfl⟩
abbrev main_v222 : Ref sig .tc := ⟨.hbm, 370, rfl⟩
abbrev main_v223 : Ref sig .tc := ⟨.hbm, 371, rfl⟩
abbrev main_cst_39 : Ref sig .tc := ⟨.hbm, 372, rfl⟩
abbrev main_v224 : Ref sig .tc := ⟨.hbm, 373, rfl⟩
abbrev main_cst_40 : Ref sig .tc := ⟨.hbm, 374, rfl⟩
abbrev main_v225 : Ref sig .tc := ⟨.hbm, 375, rfl⟩
abbrev main_v226 : Ref sig .tc := ⟨.hbm, 376, rfl⟩
abbrev main_c_41 : Ref sig .tc := ⟨.hbm, 377, rfl⟩
abbrev main_call9_cst : Ref sig .tc := ⟨.hbm, 378, rfl⟩
abbrev main_call9_v0 : Ref sig .tc := ⟨.hbm, 379, rfl⟩
abbrev main_call9_v1 : Ref sig .tc := ⟨.hbm, 380, rfl⟩
abbrev main_call9_cst_0 : Ref sig .tc := ⟨.hbm, 381, rfl⟩
abbrev main_call9_v2 : Ref sig .tc := ⟨.hbm, 382, rfl⟩
abbrev main_call9_v3 : Ref sig .tc := ⟨.hbm, 383, rfl⟩
abbrev main_call9_v4 : Ref sig .tc := ⟨.hbm, 384, rfl⟩
abbrev main_call9_v5 : Ref sig .tc := ⟨.hbm, 385, rfl⟩
abbrev main_call9_v6 : Ref sig .tc := ⟨.hbm, 386, rfl⟩
abbrev main_call9_v7 : Ref sig .tc := ⟨.hbm, 387, rfl⟩
abbrev main_call9_cst_1 : Ref sig .tc := ⟨.hbm, 388, rfl⟩
abbrev main_call9_v8 : Ref sig .tc := ⟨.hbm, 389, rfl⟩
abbrev main_call9_cst_2 : Ref sig .tc := ⟨.hbm, 390, rfl⟩
abbrev main_call9_v9 : Ref sig .tc := ⟨.hbm, 391, rfl⟩
abbrev main_call9_v10 : Ref sig .tc := ⟨.hbm, 392, rfl⟩
abbrev main_call9_v11 : Ref sig .tc := ⟨.hbm, 393, rfl⟩
abbrev main_call9_cst_3 : Ref sig .tc := ⟨.hbm, 394, rfl⟩
abbrev main_call9_v12 : Ref sig .tc := ⟨.hbm, 395, rfl⟩
abbrev main_call9_cst_4 : Ref sig .tc := ⟨.hbm, 396, rfl⟩
abbrev main_call9_call0_v0 : Ref sig .tc := ⟨.hbm, 397, rfl⟩
abbrev main_call9_call0_v1 : Ref sig .tc := ⟨.hbm, 398, rfl⟩
abbrev main_v227 : Ref sig .tc := ⟨.hbm, 399, rfl⟩
abbrev main_v228 : Ref sig .tc := ⟨.hbm, 400, rfl⟩
abbrev main_v229 : Ref sig .tc := ⟨.hbm, 401, rfl⟩
abbrev main_v230 : Ref sig .tc := ⟨.hbm, 402, rfl⟩
abbrev main_cst_42 : Ref sig .tc := ⟨.hbm, 403, rfl⟩
abbrev main_v231 : Ref sig .tc := ⟨.hbm, 404, rfl⟩
abbrev main_v232 : Ref sig .tc := ⟨.hbm, 405, rfl⟩
abbrev main_v233 : Ref sig .tc := ⟨.hbm, 406, rfl⟩
abbrev main_v234 : Ref sig .tc := ⟨.hbm, 407, rfl⟩
abbrev main_v235 : Ref sig .tc := ⟨.hbm, 408, rfl⟩
abbrev main_v236 : Ref sig .tc := ⟨.hbm, 409, rfl⟩
abbrev main_v237 : Ref sig .tc := ⟨.hbm, 410, rfl⟩
abbrev main_v238 : Ref sig .tc := ⟨.hbm, 411, rfl⟩
abbrev main_v239 : Ref sig .tc := ⟨.hbm, 412, rfl⟩
abbrev main_v240 : Ref sig .tc := ⟨.hbm, 413, rfl⟩
abbrev main_v241 : Ref sig .tc := ⟨.hbm, 414, rfl⟩
abbrev main_v242 : Ref sig .tc := ⟨.hbm, 415, rfl⟩
abbrev main_v243 : Ref sig .tc := ⟨.hbm, 416, rfl⟩
abbrev main_v244 : Ref sig .tc := ⟨.hbm, 417, rfl⟩
abbrev main_v245 : Ref sig .tc := ⟨.hbm, 418, rfl⟩
abbrev main_v246 : Ref sig .tc := ⟨.hbm, 419, rfl⟩
abbrev main_v247 : Ref sig .tc := ⟨.hbm, 420, rfl⟩
abbrev main_v248 : Ref sig .tc := ⟨.hbm, 421, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S2048x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2048x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

class Facts₀ : Prop where
  slices_S2x150000_S1x150000_0_0 : S2x150000.Slices ![0, 0] S1x150000
  shapeCasts_S1x150000_S150000 : S1x150000.ShapeCasts S150000
  concatenates_S150000_S50000_S200000_d0 : Shape.Concatenates [S150000, S50000] S200000 0
  slices_S2x150000_S1x150000_1_0 : S2x150000.Slices ![1, 0] S1x150000
  bcast_S_S200000 : S_.BroadcastsInDim S200000 (![] : Fin 0 → Fin S200000.rank)
  bcast_S_S50000 : S_.BroadcastsInDim S50000 (![] : Fin 0 → Fin S50000.rank)
  bcast_S200000_S200000x1_0 : S200000.BroadcastsInDim S200000x1 (![0] : Fin 1 → Fin S200000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S2000x512_S2000x512_0_0 : ∀ a, (![0, 0] : Fin 2 → Nat) a + S2000x512.size a ≤ S2000x512.size a
  h_S2000x512 : 0 < S2000x512.numel
  bcast_S200000x1_S200000x512_0_1 : S200000x1.BroadcastsInDim S200000x512 (![0, 1] : Fin 2 → Fin S200000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  slices_S5x512_S1x512_0_0 : S5x512.Slices ![0, 0] S1x512
  shapeCasts_S1x512_S512 : S1x512.ShapeCasts S512
  reducesTo_S50000x512_S512_d0 : S50000x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S5x512_S1x512_1_0 : S5x512.Slices ![1, 0] S1x512
  slices_S3x512x512_S1x512x512_1_0_0 : S3x512x512.Slices ![1, 0, 0] S1x512x512
  slices_S3x512_S1x512_1_0 : S3x512.Slices ![1, 0] S1x512
  slices_S5x512_S1x512_2_0 : S5x512.Slices ![2, 0] S1x512
  slices_S3x512x512_S1x512x512_2_0_0 : S3x512x512.Slices ![2, 0, 0] S1x512x512
  slices_S3x512_S1x512_2_0 : S3x512.Slices ![2, 0] S1x512
  slices_S5x512_S1x512_3_0 : S5x512.Slices ![3, 0] S1x512
  bcast_S_S2048 : S_.BroadcastsInDim S2048 (![] : Fin 0 → Fin S2048.rank)
  bcast_S50000_S50000x1_0 : S50000.BroadcastsInDim S50000x1 (![0] : Fin 1 → Fin S50000x1.rank)
  bcast_S_S2048x512 : S_.BroadcastsInDim S2048x512 (![] : Fin 0 → Fin S2048x512.rank)
  bcast_S2048_S2048x1_0 : S2048.BroadcastsInDim S2048x1 (![0] : Fin 1 → Fin S2048x1.rank)
  bcast_S2048x1_S2048x512_0_1 : S2048x1.BroadcastsInDim S2048x512 (![0, 1] : Fin 2 → Fin S2048x512.rank)
  slices_S5x512_S1x512_4_0 : S5x512.Slices ![4, 0] S1x512
  reducesTo_S2048x512_S512_d0 : S2048x512.ReducesTo [0] S512
  bcast_S1x512_S2048x512_0_1 : S1x512.BroadcastsInDim S2048x512 (![0, 1] : Fin 2 → Fin S2048x512.rank)
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  scatter_S50000_S200000x1_S200000_n_0_0_1_wf : ScatterDims.WF S50000 S200000x1 S200000 [] [0] [0] 1
  gather_S50000_S200000x1_S200000_n_0_n_n_0_1_1_wf : GatherDims.WF S50000 S200000x1 S200000 [] [0] [] [0] [] 1 ![1]
  dot_S2000x128_S128x512_S2000x512_1_0_0_1_n_n_wf : DotDims.WF S2000x128 S128x512 S2000x512 [1] [0] [0] [1] [] []
  gather_S50000x512_S200000x1_S200000x512_1_0_n_n_0_1_1512_wf : GatherDims.WF S50000x512 S200000x1 S200000x512 [1] [0] [] [0] [] 1 ![1, 512]
  scatter_S50000x512_S200000x1_S200000x512_1_0_0_1_wf : ScatterDims.WF S50000x512 S200000x1 S200000x512 [1] [0] [0] 1
  dot_S2000x512_S512x512_S2000x512_1_0_0_1_n_n_wf : DotDims.WF S2000x512 S512x512 S2000x512 [1] [0] [0] [1] [] []
  scatter_S2048_S50000x1_S50000_n_0_0_1_wf : ScatterDims.WF S2048 S50000x1 S50000 [] [0] [0] 1
  scatter_S2048x512_S50000x1_S50000x512_1_0_0_1_wf : ScatterDims.WF S2048x512 S50000x1 S50000x512 [1] [0] [0] 1
  dot_S2048x512_S512x512_S2048x512_1_0_0_1_n_n_wf : DotDims.WF S2048x512 S512x512 S2048x512 [1] [0] [0] [1] [] []
  dot_S2048x512_S512x1_S2048x1_1_0_0_1_n_n_wf : DotDims.WF S2048x512 S512x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S50000x512.size a
  hwx1_2 : ∀ i : grid1.Coords, EltTy.bits .f32 = 32 ∨ (Rect.block (s := S50000x512) S2000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x512.size a ≤ S50000x512.size a
  hwx2_2 : ∀ i : grid2.Coords, EltTy.bits .f32 = 32 ∨ (Rect.block (s := S50000x512) S2000x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S50000x512.size a
  hwx3_0 : ∀ i : grid3.Coords, EltTy.bits .f32 = 32 ∨ (Rect.block (s := S50000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .f32 = 32 ∨ (Rect.block (s := S512x512) S512x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x512.size a ≤ S50000x512.size a
  hwx3_2 : ∀ i : grid3.Coords, EltTy.bits .f32 = 32 ∨ (Rect.block (s := S50000x512) S2000x512.size (cc3_transform_2 i) (hinb3_2 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S2048x512.size a ≤ S2048x512.size a
  hwx4_0 : ∀ i : grid4.Coords, EltTy.bits .f32 = 32 ∨ (Rect.block (s := S2048x512) S2048x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S2048x512.size a ≤ S2048x512.size a
  hwx4_3 : ∀ i : grid4.Coords, EltTy.bits .f32 = 32 ∨ (Rect.block (s := S2048x512) S2048x512.size (cc4_transform_3 i) (hinb4_3 i)).WholeWords (EltTy.packing .f32)

variable [Facts₀]

def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def gather_S50000_S200000x1_S200000_n_0_n_n_0_1_1 : GatherDims S50000 S200000x1 S200000 where
  offsetDims := []
  collapsedSliceDims := [0]
  operandBatchingDims := []
  startIndicesBatchingDims := []
  startIndexMap := [0]
  indexVectorDim := 1
  sliceSizes := ![1]
  wf := gather_S50000_S200000x1_S200000_n_0_n_n_0_1_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf
def scatter_S50000x512_S200000x1_S200000x512_1_0_0_1 : ScatterDims S50000x512 S200000x1 S200000x512 where
  updateWindowDims := [1]
  insertedWindowDims := [0]
  scatterDimsToOperandDims := [0]
  indexVectorDim := 1
  wf := scatter_S50000x512_S200000x1_S200000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def scatter_S2048x512_S50000x1_S50000x512_1_0_0_1 : ScatterDims S2048x512 S50000x1 S50000x512 where
  updateWindowDims := [1]
  insertedWindowDims := [0]
  scatterDimsToOperandDims := [0]
  indexVectorDim := 1
  wf := scatter_S2048x512_S50000x1_S50000x512_1_0_0_1_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v72) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v74) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v77) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v117) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v119) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v122) S2000x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v162) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v164) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v167) S2000x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v242) S2048x512.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v243) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v244) S2048x512.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x150000 : Shape := ⟨2, ![2, 150000]⟩
abbrev S50000 : Shape := ⟨1, ![50000]⟩
abbrev S128x512 : Shape := ⟨2, ![128, 512]⟩
abbrev S512 : Shape := ⟨1, ![512]⟩
abbrev S3x512x512 : Shape := ⟨3, ![3, 512, 512]⟩
abbrev S3x512 : Shape := ⟨2, ![3, 512]⟩
abbrev S5x512 : Shape := ⟨2, ![5, 512]⟩
abbrev S512x512 : Shape := ⟨2, ![512, 512]⟩
abbrev S512x1 : Shape := ⟨2, ![512, 1]⟩
abbrev S1 : Shape := ⟨1, ![1]⟩
abbrev S1x150000 : Shape := ⟨2, ![1, 150000]⟩
abbrev S150000 : Shape := ⟨1, ![150000]⟩
abbrev S200000 : Shape := ⟨1, ![200000]⟩
abbrev S_ : Shape := ⟨0, ![]⟩
abbrev S200000x1 : Shape := ⟨2, ![200000, 1]⟩
abbrev S50000x512 : Shape := ⟨2, ![50000, 512]⟩
abbrev S200000x512 : Shape := ⟨2, ![200000, 512]⟩
abbrev S1x512 : Shape := ⟨2, ![1, 512]⟩
abbrev S1x512x512 : Shape := ⟨3, ![1, 512, 512]⟩
abbrev S2048 : Shape := ⟨1, ![2048]⟩
abbrev S50000x1 : Shape := ⟨2, ![50000, 1]⟩
abbrev S2048x512 : Shape := ⟨2, ![2048, 512]⟩
abbrev S2048x1 : Shape := ⟨2, ![2048, 1]⟩
abbrev S1x1 : Shape := ⟨2, ![1, 1]⟩

abbrev nBuf : Space → Nat
  | .hbm => 427
  | .vmem => 0
  | .smem => 0
  | _ => 0

abbrev hbmTy0_0 (i : Nat) : BufTy := match i % 128 with
  | 0 => ⟨S50000x128, .f32⟩
  | 1 => ⟨S2x150000, .i32⟩
  | 2 => ⟨S50000, .i32⟩
  | 3 => ⟨S128x512, .f32⟩
  | 4 => ⟨S512, .f32⟩
  | 5 => ⟨S3x512x512, .f32⟩
  | 6 => ⟨S3x512, .f32⟩
  | 7 => ⟨S5x512, .f32⟩
  | 8 => ⟨S5x512, .f32⟩
  | 9 => ⟨S512x512, .f32⟩
  | 10 => ⟨S512, .f32⟩
  | 11 => ⟨S512x1, .f32⟩
  | 12 => ⟨S1, .f32⟩
  | 13 => ⟨S50000, .i32⟩
  | 14 => ⟨S1x150000, .i32⟩
  | 15 => ⟨S150000, .i32⟩
  | 16 => ⟨S200000, .i32⟩
  | 17 => ⟨S1x150000, .i32⟩
  | 18 => ⟨S150000, .i32⟩
  | 19 => ⟨S200000, .i32⟩
  | 20 => ⟨S_, .f32⟩
  | 21 => ⟨S200000, .f32⟩
  | 22 => ⟨S_, .f32⟩
  | 23 => ⟨S50000, .f32⟩
  | 24 => ⟨S200000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S200000, .i32⟩
  | 39 => ⟨S200000, .i1⟩
  | 40 => ⟨S_, .i32⟩
  | 41 => ⟨S200000, .i32⟩
  | 42 => ⟨S200000, .i32⟩
  | 43 => ⟨S200000, .i32⟩
  | 44 => ⟨S200000x1, .i32⟩
  | 45 => ⟨S200000, .f32⟩
  | 46 => ⟨S_, .i32⟩
  | 47 => ⟨S200000, .i32⟩
  | 48 => ⟨S200000, .i1⟩
  | 49 => ⟨S_, .i32⟩
  | 50 => ⟨S200000, .i32⟩
  | 51 => ⟨S200000, .i32⟩
  | 52 => ⟨S200000, .i32⟩
  | 53 => ⟨S200000x1, .i32⟩
  | 54 => ⟨S200000, .f32⟩
  | 55 => ⟨S200000, .f32⟩
  | 56 => ⟨S50000x512, .f32⟩
  | 57 => ⟨S_, .i32⟩
  | 58 => ⟨S200000, .i32⟩
  | 59 => ⟨S200000, .i1⟩
  | 60 => ⟨S_, .i32⟩
  | 61 => ⟨S200000, .i32⟩
  | 62 => ⟨S200000, .i32⟩
  | 63 => ⟨S200000, .i32⟩
  | 64 => ⟨S200000x1, .i32⟩
  | 65 => ⟨S200000x512, .f32⟩
  | 66 => ⟨S200000x1, .f32⟩
  | 67 => ⟨S200000x512, .f32⟩
  | 68 => ⟨S200000x512, .f32⟩
  | 69 => ⟨S_, .f32⟩
  | 70 => ⟨S50000x512, .f32⟩
  | 71 => ⟨S200000x1, .i32⟩
  | 72 => ⟨S50000x512, .f32⟩
  | 73 => ⟨S1x512, .f32⟩
  | 74 => ⟨S50000x512, .f32⟩
  | 75 => ⟨S50000x512, .f32⟩
  | 76 => ⟨S1x512, .f32⟩
  | 77 => ⟨S512, .f32⟩
  | 78 => ⟨S1x512, .f32⟩
  | 79 => ⟨S512, .f32⟩
  | 80 => ⟨S_, .f32⟩
  | 81 => ⟨S512, .f32⟩
  | 82 => ⟨S_, .f32⟩
  | 83 => ⟨S512, .f32⟩
  | 84 => ⟨S512, .f32⟩
  | 85 => ⟨S_, .i32⟩
  | 86 => ⟨S_, .f32⟩
  | 87 => ⟨S512, .f32⟩
  | 88 => ⟨S1x512, .f32⟩
  | 89 => ⟨S_, .f32⟩
  | 90 => ⟨S1x512, .f32⟩
  | 91 => ⟨S1x512, .f32⟩
  | 92 => ⟨S50000x512, .f32⟩
  | 93 => ⟨S50000x512, .f32⟩
  | 94 => ⟨S50000x512, .f32⟩
  | 95 => ⟨S_, .f32⟩
  | 96 => ⟨S_, .f32⟩
  | 97 => ⟨S_, .f32⟩
  | 98 => ⟨S_, .f32⟩
  | 99 => ⟨S512, .f32⟩
  | 100 => ⟨S512, .f32⟩
  | 101 => ⟨S512, .f32⟩
  | 102 => ⟨S_, .f32⟩
  | 103 => ⟨S_, .i1⟩
  | 104 => ⟨S_, .f32⟩
  | 105 => ⟨S_, .f32⟩
  | 106 => ⟨S512, .f32⟩
  | 107 => ⟨S512, .f32⟩
  | 108 => ⟨S1x512, .f32⟩
  | 109 => ⟨S50000x512, .f32⟩
  | 110 => ⟨S50000x512, .f32⟩
  | 111 => ⟨S_, .f32⟩
  | 112 => ⟨S512, .f32⟩
  | 113 => ⟨S512, .f32⟩
  | 114 => ⟨S512, .f32⟩
  | 115 => ⟨S1x512, .f32⟩
  | 116 => ⟨S50000x512, .f32⟩
  | 117 => ⟨S50000x512, .f32⟩
  | 118 => ⟨S1x512, .f32⟩
  | 119 => ⟨S50000x512, .f32⟩
  | 120 => ⟨S50000x512, .f32⟩
  | 121 => ⟨S1x512, .f32⟩
  | 122 => ⟨S50000x512, .f32⟩
  | 123 => ⟨S50000x512, .f32⟩
  | 124 => ⟨S_, .f32⟩
  | 125 => ⟨S50000x512, .f32⟩
  | 126 => ⟨S50000x512, .f32⟩
  | 127 => ⟨S1x512x512, .f32⟩
  | _ => ⟨S50000x128, .f32⟩

abbrev hbmTy0_1 (i : Nat) : BufTy := match i % 128 with
  | 0 => ⟨S512x512, .f32⟩
  | 1 => ⟨S1x512, .f32⟩
  | 2 => ⟨S512, .f32⟩
  | 3 => ⟨S50000x512, .f32⟩
  | 4 => ⟨S_, .i32⟩
  | 5 => ⟨S200000, .i32⟩
  | 6 => ⟨S200000, .i1⟩
  | 7 => ⟨S_, .i32⟩
  | 8 => ⟨S200000, .i32⟩
  | 9 => ⟨S200000, .i32⟩
  | 10 => ⟨S200000, .i32⟩
  | 11 => ⟨S200000x1, .i32⟩
  | 12 => ⟨S200000x512, .f32⟩
  | 13 => ⟨S200000x1, .f32⟩
  | 14 => ⟨S200000x512, .f32⟩
  | 15 => ⟨S200000x512, .f32⟩
  | 16 => ⟨S_, .f32⟩
  | 17 => ⟨S50000x512, .f32⟩
  | 18 => ⟨S200000x1, .i32⟩
  | 19 => ⟨S50000x512, .f32⟩
  | 20 => ⟨S1x512, .f32⟩
  | 21 => ⟨S50000x512, .f32⟩
  | 22 => ⟨S50000x512, .f32⟩
  | 23 => ⟨S1x512, .f32⟩
  | 24 => ⟨S512, .f32⟩
  | 25 => ⟨S1x512, .f32⟩
  | 26 => ⟨S512, .f32⟩
  | 27 => ⟨S_, .f32⟩
  | 28 => ⟨S512, .f32⟩
  | 29 => ⟨S_, .f32⟩
  | 30 => ⟨S512, .f32⟩
  | 31 => ⟨S512, .f32⟩
  | 32 => ⟨S_, .i32⟩
  | 33 => ⟨S_, .f32⟩
  | 34 => ⟨S512, .f32⟩
  | 35 => ⟨S1x512, .f32⟩
  | 36 => ⟨S_, .f32⟩
  | 37 => ⟨S1x512, .f32⟩
  | 38 => ⟨S1x512, .f32⟩
  | 39 => ⟨S50000x512, .f32⟩
  | 40 => ⟨S50000x512, .f32⟩
  | 41 => ⟨S50000x512, .f32⟩
  | 42 => ⟨S_, .f32⟩
  | 43 => ⟨S_, .f32⟩
  | 44 => ⟨S_, .f32⟩
  | 45 => ⟨S_, .f32⟩
  | 46 => ⟨S512, .f32⟩
  | 47 => ⟨S512, .f32⟩
  | 48 => ⟨S512, .f32⟩
  | 49 => ⟨S_, .f32⟩
  | 50 => ⟨S_, .i1⟩
  | 51 => ⟨S_, .f32⟩
  | 52 => ⟨S_, .f32⟩
  | 53 => ⟨S512, .f32⟩
  | 54 => ⟨S512, .f32⟩
  | 55 => ⟨S1x512, .f32⟩
  | 56 => ⟨S50000x512, .f32⟩
  | 57 => ⟨S50000x512, .f32⟩
  | 58 => ⟨S_, .f32⟩
  | 59 => ⟨S512, .f32⟩
  | 60 => ⟨S512, .f32⟩
  | 61 => ⟨S512, .f32⟩
  | 62 => ⟨S1x512, .f32⟩
  | 63 => ⟨S50000x512, .f32⟩
  | 64 => ⟨S50000x512, .f32⟩
  | 65 => ⟨S1x512, .f32⟩
  | 66 => ⟨S50000x512, .f32⟩
  | 67 => ⟨S50000x512, .f32⟩
  | 68 => ⟨S1x512, .f32⟩
  | 69 => ⟨S50000x512, .f32⟩
  | 70 => ⟨S50000x512, .f32⟩
  | 71 => ⟨S_, .f32⟩
  | 72 => ⟨S50000x512, .f32⟩
  | 73 => ⟨S50000x512, .f32⟩
  | 74 => ⟨S1x512x512, .f32⟩
  | 75 => ⟨S512x512, .f32⟩
  | 76 => ⟨S1x512, .f32⟩
  | 77 => ⟨S512, .f32⟩
  | 78 => ⟨S50000x512, .f32⟩
  | 79 => ⟨S_, .i32⟩
  | 80 => ⟨S200000, .i32⟩
  | 81 => ⟨S200000, .i1⟩
  | 82 => ⟨S_, .i32⟩
  | 83 => ⟨S200000, .i32⟩
  | 84 => ⟨S200000, .i32⟩
  | 85 => ⟨S200000, .i32⟩
  | 86 => ⟨S200000x1, .i32⟩
  | 87 => ⟨S200000x512, .f32⟩
  | 88 => ⟨S200000x1, .f32⟩
  | 89 => ⟨S200000x512, .f32⟩
  | 90 => ⟨S200000x512, .f32⟩
  | 91 => ⟨S_, .f32⟩
  | 92 => ⟨S50000x512, .f32⟩
  | 93 => ⟨S200000x1, .i32⟩
  | 94 => ⟨S50000x512, .f32⟩
  | 95 => ⟨S1x512, .f32⟩
  | 96 => ⟨S50000x512, .f32⟩
  | 97 => ⟨S50000x512, .f32⟩
  | 98 => ⟨S1x512, .f32⟩
  | 99 => ⟨S512, .f32⟩
  | 100 => ⟨S1x512, .f32⟩
  | 101 => ⟨S512, .f32⟩
  | 102 => ⟨S_, .f32⟩
  | 103 => ⟨S512, .f32⟩
  | 104 => ⟨S_, .f32⟩
  | 105 => ⟨S512, .f32⟩
  | 106 => ⟨S512, .f32⟩
  | 107 => ⟨S_, .i32⟩
  | 108 => ⟨S_, .f32⟩
  | 109 => ⟨S512, .f32⟩
  | 110 => ⟨S1x512, .f32⟩
  | 111 => ⟨S_, .f32⟩
  | 112 => ⟨S1x512, .f32⟩
  | 113 => ⟨S1x512, .f32⟩
  | 114 => ⟨S50000x512, .f32⟩
  | 115 => ⟨S50000x512, .f32⟩
  | 116 => ⟨S50000x512, .f32⟩
  | 117 => ⟨S_, .f32⟩
  | 118 => ⟨S_, .f32⟩
  | 119 => ⟨S_, .f32⟩
  | 120 => ⟨S_, .f32⟩
  | 121 => ⟨S512, .f32⟩
  | 122 => ⟨S512, .f32⟩
  | 123 => ⟨S512, .f32⟩
  | 124 => ⟨S_, .f32⟩
  | 125 => ⟨S_, .i1⟩
  | 126 => ⟨S_, .f32⟩
  | 127 => ⟨S_, .f32⟩
  | _ => ⟨S50000x128, .f32⟩

abbrev hbmTy0_2 (i : Nat) : BufTy := match i % 128 with
  | 0 => ⟨S512, .f32⟩
  | 1 => ⟨S512, .f32⟩
  | 2 => ⟨S1x512, .f32⟩
  | 3 => ⟨S50000x512, .f32⟩
  | 4 => ⟨S50000x512, .f32⟩
  | 5 => ⟨S_, .f32⟩
  | 6 => ⟨S512, .f32⟩
  | 7 => ⟨S512, .f32⟩
  | 8 => ⟨S512, .f32⟩
  | 9 => ⟨S1x512, .f32⟩
  | 10 => ⟨S50000x512, .f32⟩
  | 11 => ⟨S50000x512, .f32⟩
  | 12 => ⟨S1x512, .f32⟩
  | 13 => ⟨S50000x512, .f32⟩
  | 14 => ⟨S50000x512, .f32⟩
  | 15 => ⟨S1x512, .f32⟩
  | 16 => ⟨S50000x512, .f32⟩
  | 17 => ⟨S50000x512, .f32⟩
  | 18 => ⟨S_, .f32⟩
  | 19 => ⟨S50000x512, .f32⟩
  | 20 => ⟨S50000x512, .f32⟩
  | 21 => ⟨S1x512x512, .f32⟩
  | 22 => ⟨S512x512, .f32⟩
  | 23 => ⟨S1x512, .f32⟩
  | 24 => ⟨S512, .f32⟩
  | 25 => ⟨S50000x512, .f32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S200000x512, .f32⟩
  | 35 => ⟨S200000x1, .f32⟩
  | 36 => ⟨S200000x512, .f32⟩
  | 37 => ⟨S200000x512, .f32⟩
  | 38 => ⟨S_, .f32⟩
  | 39 => ⟨S50000x512, .f32⟩
  | 40 => ⟨S200000x1, .i32⟩
  | 41 => ⟨S50000x512, .f32⟩
  | 42 => ⟨S1x512, .f32⟩
  | 43 => ⟨S50000x512, .f32⟩
  | 44 => ⟨S50000x512, .f32⟩
  | 45 => ⟨S1x512, .f32⟩
  | 46 => ⟨S512, .f32⟩
  | 47 => ⟨S1x512, .f32⟩
  | 48 => ⟨S512, .f32⟩
  | 49 => ⟨S_, .f32⟩
  | 50 => ⟨S512, .f32⟩
  | 51 => ⟨S_, .f32⟩
  | 52 => ⟨S512, .f32⟩
  | 53 => ⟨S512, .f32⟩
  | 54 => ⟨S_, .i32⟩
  | 55 => ⟨S_, .f32⟩
  | 56 => ⟨S512, .f32⟩
  | 57 => ⟨S1x512, .f32⟩
  | 58 => ⟨S_, .f32⟩
  | 59 => ⟨S1x512, .f32⟩
  | 60 => ⟨S1x512, .f32⟩
  | 61 => ⟨S50000x512, .f32⟩
  | 62 => ⟨S50000x512, .f32⟩
  | 63 => ⟨S50000x512, .f32⟩
  | 64 => ⟨S_, .f32⟩
  | 65 => ⟨S_, .f32⟩
  | 66 => ⟨S_, .f32⟩
  | 67 => ⟨S_, .f32⟩
  | 68 => ⟨S512, .f32⟩
  | 69 => ⟨S512, .f32⟩
  | 70 => ⟨S512, .f32⟩
  | 71 => ⟨S_, .f32⟩
  | 72 => ⟨S_, .i1⟩
  | 73 => ⟨S_, .f32⟩
  | 74 => ⟨S_, .f32⟩
  | 75 => ⟨S512, .f32⟩
  | 76 => ⟨S512, .f32⟩
  | 77 => ⟨S1x512, .f32⟩
  | 78 => ⟨S50000x512, .f32⟩
  | 79 => ⟨S50000x512, .f32⟩
  | 80 => ⟨S_, .f32⟩
  | 81 => ⟨S512, .f32⟩
  | 82 => ⟨S512, .f32⟩
  | 83 => ⟨S512, .f32⟩
  | 84 => ⟨S1x512, .f32⟩
  | 85 => ⟨S50000x512, .f32⟩
  | 86 => ⟨S50000x512, .f32⟩
  | 87 => ⟨S1x512, .f32⟩
  | 88 => ⟨S50000x512, .f32⟩
  | 89 => ⟨S50000x512, .f32⟩
  | 90 => ⟨S1x512, .f32⟩
  | 91 => ⟨S50000x512, .f32⟩
  | 92 => ⟨S50000x512, .f32⟩
  | 93 => ⟨S_, .f32⟩
  | 94 => ⟨S50000x512, .f32⟩
  | 95 => ⟨S50000x512, .f32⟩
  | 96 => ⟨S_, .f32⟩
  | 97 => ⟨S50000, .f32⟩
  | 98 => ⟨S_, .f32⟩
  | 99 => ⟨S2048, .f32⟩
  | 100 => ⟨S50000x1, .i32⟩
  | 101 => ⟨S2048, .f32⟩
  | 102 => ⟨S_, .f32⟩
  | 103 => ⟨S2048x512, .f32⟩
  | 104 => ⟨S50000x1, .i32⟩
  | 105 => ⟨S2048x512, .f32⟩
  | 106 => ⟨S_, .f32⟩
  | 107 => ⟨S2048, .f32⟩
  | 108 => ⟨S2048, .f32⟩
  | 109 => ⟨S2048x1, .f32⟩
  | 110 => ⟨S2048x512, .f32⟩
  | 111 => ⟨S2048x512, .f32⟩
  | 112 => ⟨S1x512, .f32⟩
  | 113 => ⟨S512, .f32⟩
  | 114 => ⟨S1x512, .f32⟩
  | 115 => ⟨S512, .f32⟩
  | 116 => ⟨S_, .f32⟩
  | 117 => ⟨S512, .f32⟩
  | 118 => ⟨S_, .f32⟩
  | 119 => ⟨S512, .f32⟩
  | 120 => ⟨S512, .f32⟩
  | 121 => ⟨S_, .i32⟩
  | 122 => ⟨S_, .f32⟩
  | 123 => ⟨S512, .f32⟩
  | 124 => ⟨S1x512, .f32⟩
  | 125 => ⟨S_, .f32⟩
  | 126 => ⟨S1x512, .f32⟩
  | 127 => ⟨S1x512, .f32⟩
  | _ => ⟨S50000x128, .f32⟩

abbrev hbmTy0_3 (i : Nat) : BufTy := match i % 128 with
  | 0 => ⟨S2048x512, .f32⟩
  | 1 => ⟨S2048x512, .f32⟩
  | 2 => ⟨S2048x512, .f32⟩
  | 3 => ⟨S_, .f32⟩
  | 4 => ⟨S_, .f32⟩
  | 5 => ⟨S_, .f32⟩
  | 6 => ⟨S_, .f32⟩
  | 7 => ⟨S512, .f32⟩
  | 8 => ⟨S512, .f32⟩
  | 9 => ⟨S512, .f32⟩
  | 10 => ⟨S_, .f32⟩
  | 11 => ⟨S_, .i1⟩
  | 12 => ⟨S_, .f32⟩
  | 13 => ⟨S_, .f32⟩
  | 14 => ⟨S512, .f32⟩
  | 15 => ⟨S512, .f32⟩
  | 16 => ⟨S1x512, .f32⟩
  | 17 => ⟨S2048x512, .f32⟩
  | 18 => ⟨S2048x512, .f32⟩
  | 19 => ⟨S_, .f32⟩
  | 20 => ⟨S512, .f32⟩
  | 21 => ⟨S512, .f32⟩
  | 22 => ⟨S512, .f32⟩
  | 23 => ⟨S1x512, .f32⟩
  | 24 => ⟨S2048x512, .f32⟩
  | 25 => ⟨S2048x512, .f32⟩
  | 26 => ⟨S1x512, .f32⟩
  | 27 => ⟨S2048x512, .f32⟩
  | 28 => ⟨S2048x512, .f32⟩
  | 29 => ⟨S1x512, .f32⟩
  | 30 => ⟨S2048x512, .f32⟩
  | 31 => ⟨S2048x512, .f32⟩
  | 32 => ⟨S2048x512, .f32⟩
  | 33 => ⟨S1x512, .f32⟩
  | 34 => ⟨S2048x512, .f32⟩
  | 35 => ⟨S2048x512, .f32⟩
  | 36 => ⟨S_, .f32⟩
  | 37 => ⟨S2048x512, .f32⟩
  | 38 => ⟨S2048x512, .f32⟩
  | 39 => ⟨S2048x1, .f32⟩
  | 40 => ⟨S1x1, .f32⟩
  | 41 => ⟨S2048x1, .f32⟩
  | 42 => ⟨S2048x1, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_v55 : Ref sig .tc := ⟨.hbm, 84, rfl⟩
abbrev main_c_12 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_cst_0 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_call1_v6 : Ref sig .tc := ⟨.hbm, 94, rfl⟩
abbrev main_call1_v7 : Ref sig .tc := ⟨.hbm, 95, rfl⟩
abbrev main_call1_cst_1 : Ref sig .tc := ⟨.hbm, 96, rfl⟩
abbrev main_call1_v8 : Ref sig .tc := ⟨.hbm, 97, rfl⟩
abbrev main_call1_cst_2 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_cst_3 : Ref sig .tc := ⟨.hbm, 102, rfl⟩
abbrev main_call1_v12 : Ref sig .tc := ⟨.hbm, 103, rfl⟩
abbrev main_call1_cst_4 : Ref sig .tc := ⟨.hbm, 104, rfl⟩
abbrev main_call1_call0_v0 : Ref sig .tc := ⟨.hbm, 105, rfl⟩
abbrev main_call1_call0_v1 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst_13 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_call2_cst : Ref sig .tc := ⟨.hbm, 124, rfl⟩
abbrev main_call2_v0 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_c_14 : Ref sig .tc := ⟨.hbm, 132, rfl⟩
abbrev main_v78 : Ref sig .tc := ⟨.hbm, 133, rfl⟩
abbrev main_v79 : Ref sig .tc := ⟨.hbm, 134, rfl⟩
abbrev main_c_15 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_16 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_cst_17 : Ref sig .tc := ⟨.hbm, 155, rfl⟩
abbrev main_v98 : Ref sig .tc := ⟨.hbm, 156, rfl⟩
abbrev main_cst_18 : Ref sig .tc := ⟨.hbm, 157, rfl⟩
abbrev main_v99 : Ref sig .tc := ⟨.hbm, 158, rfl⟩
abbrev main_v100 : Ref sig .tc := ⟨.hbm, 159, rfl⟩
abbrev main_c_19 : Ref sig .tc := ⟨.hbm, 160, rfl⟩
abbrev main_call3_cst : Ref sig .tc := ⟨.hbm, 161, rfl⟩
abbrev main_call3_v0 : Ref sig .tc := ⟨.hbm, 162, rfl⟩
abbrev main_call3_v1 : Ref sig .tc := ⟨.hbm, 163, rfl⟩
abbrev main_call3_cst_0 : Ref sig .tc := ⟨.hbm, 164, rfl⟩
abbrev main_call3_v2 : Ref sig .tc := ⟨.hbm, 165, rfl⟩
abbrev main_call3_v3 : Ref sig .tc := ⟨.hbm, 166, rfl⟩
abbrev main_call3_v4 : Ref sig .tc := ⟨.hbm, 167, rfl⟩
abbrev main_call3_v5 : Ref sig .tc := ⟨.hbm, 168, rfl⟩
abbrev main_call3_v6 : Ref sig .tc := ⟨.hbm, 169, rfl⟩
abbrev main_call3_v7 : Ref sig .tc := ⟨.hbm, 170, rfl⟩
abbrev main_call3_cst_1 : Ref sig .tc := ⟨.hbm, 171, rfl⟩
abbrev main_call3_v8 : Ref sig .tc := ⟨.hbm, 172, rfl⟩
abbrev main_call3_cst_2 : Ref sig .tc := ⟨.hbm, 173, rfl⟩
abbrev main_call3_v9 : Ref sig .tc := ⟨.hbm, 174, rfl⟩
abbrev main_call3_v10 : Ref sig .tc := ⟨.hbm, 175, rfl⟩
abbrev main_call3_v11 : Ref sig .tc := ⟨.hbm, 176, rfl⟩
abbrev main_call3_cst_3 : Ref sig .tc := ⟨.hbm, 177, rfl⟩
abbrev main_call3_v12 : Ref sig .tc := ⟨.hbm, 178, rfl⟩
abbrev main_call3_cst_4 : Ref sig .tc := ⟨.hbm, 179, rfl⟩
abbrev main_call3_call0_v0 : Ref sig .tc := ⟨.hbm, 180, rfl⟩
abbrev main_call3_call0_v1 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_cst_20 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_call4_cst : Ref sig .tc := ⟨.hbm, 199, rfl⟩
abbrev main_call4_v0 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_c_21 : Ref sig .tc := ⟨.hbm, 207, rfl⟩
abbrev main_v123 : Ref sig .tc := ⟨.hbm, 208, rfl⟩
abbrev main_v124 : Ref sig .tc := ⟨.hbm, 209, rfl⟩
abbrev main_c_22 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_cst_23 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_cst_24 : Ref sig .tc := ⟨.hbm, 230, rfl⟩
abbrev main_v143 : Ref sig .tc := ⟨.hbm, 231, rfl⟩
abbrev main_cst_25 : Ref sig .tc := ⟨.hbm, 232, rfl⟩
abbrev main_v144 : Ref sig .tc := ⟨.hbm, 233, rfl⟩
abbrev main_v145 : Ref sig .tc := ⟨.hbm, 234, rfl⟩
abbrev main_c_26 : Ref sig .tc := ⟨.hbm, 235, rfl⟩
abbrev main_call5_cst : Ref sig .tc := ⟨.hbm, 236, rfl⟩
abbrev main_call5_v0 : Ref sig .tc := ⟨.hbm, 237, rfl⟩
abbrev main_call5_v1 : Ref sig .tc := ⟨.hbm, 238, rfl⟩
abbrev main_call5_cst_0 : Ref sig .tc := ⟨.hbm, 239, rfl⟩
abbrev main_call5_v2 : Ref sig .tc := ⟨.hbm, 240, rfl⟩
abbrev main_call5_v3 : Ref sig .tc := ⟨.hbm, 241, rfl⟩
abbrev main_call5_v4 : Ref sig .tc := ⟨.hbm, 242, rfl⟩
abbrev main_call5_v5 : Ref sig .tc := ⟨.hbm, 243, rfl⟩
abbrev main_call5_v6 : Ref sig .tc := ⟨.hbm, 244, rfl⟩
abbrev main_call5_v7 : Ref sig .tc := ⟨.hbm, 245, rfl⟩
abbrev main_call5_cst_1 : Ref sig .tc := ⟨.hbm, 246, rfl⟩
abbrev main_call5_v8 : Ref sig .tc := ⟨.hbm, 247, rfl⟩
abbrev main_call5_cst_2 : Ref sig .tc := ⟨.hbm, 248, rfl⟩
abbrev main_call5_v9 : Ref sig .tc := ⟨.hbm, 249, rfl⟩
abbrev main_call5_v10 : Ref sig .tc := ⟨.hbm, 250, rfl⟩
abbrev main_call5_v11 : Ref sig .tc := ⟨.hbm, 251, rfl⟩
abbrev main_call5_cst_3 : Ref sig .tc := ⟨.hbm, 252, rfl⟩
abbrev main_call5_v12 : Ref sig .tc := ⟨.hbm, 253, rfl⟩
abbrev main_call5_cst_4 : Ref sig .tc := ⟨.hbm, 254, rfl⟩
abbrev main_call5_call0_v0 : Ref sig .tc := ⟨.hbm, 255, rfl⟩
abbrev main_call5_call0_v1 : Ref sig .tc := ⟨.hbm, 256, rfl⟩
abbrev main_v146 : Ref sig .tc := ⟨.hbm, 257, rfl⟩
abbrev main_v147 : Ref sig .tc := ⟨.hbm, 258, rfl⟩
abbrev main_v148 : Ref sig .tc := ⟨.hbm, 259, rfl⟩
abbrev main_v149 : Ref sig .tc := ⟨.hbm, 260, rfl⟩
abbrev main_cst_27 : Ref sig .tc := ⟨.hbm, 261, rfl⟩
abbrev main_v150 : Ref sig .tc := ⟨.hbm, 262, rfl⟩
abbrev main_v151 : Ref sig .tc := ⟨.hbm, 263, rfl⟩
abbrev main_v152 : Ref sig .tc := ⟨.hbm, 264, rfl⟩
abbrev main_v153 : Ref sig .tc := ⟨.hbm, 265, rfl⟩
abbrev main_v154 : Ref sig .tc := ⟨.hbm, 266, rfl⟩
abbrev main_v155 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_v160 : Ref sig .tc := ⟨.hbm, 272, rfl⟩
abbrev main_v161 : Ref sig .tc := ⟨.hbm, 273, rfl⟩
abbrev main_call6_cst : Ref sig .tc := ⟨.hbm, 274, rfl⟩
abbrev main_call6_v0 : Ref sig .tc := ⟨.hbm, 275, rfl⟩
abbrev main_v162 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_v167 : Ref sig .tc := ⟨.hbm, 281, rfl⟩
abbrev main_c_28 : Ref sig .tc := ⟨.hbm, 282, rfl⟩
abbrev main_v168 : Ref sig .tc := ⟨.hbm, 283, rfl⟩
abbrev main_v169 : Ref sig .tc := ⟨.hbm, 284, rfl⟩
abbrev main_c_29 : Ref sig .tc := ⟨.hbm, 285, rfl⟩
abbrev main_v170 : Ref sig .tc := ⟨.hbm, 286, rfl⟩
abbrev main_v171 : Ref sig .tc := ⟨.hbm, 287, rfl⟩
abbrev main_v172 : Ref sig .tc := ⟨.hbm, 288, rfl⟩
abbrev main_v173 : Ref sig .tc := ⟨.hbm, 289, rfl⟩
abbrev main_v174 : Ref sig .tc := ⟨.hbm, 290, rfl⟩
abbrev main_v175 : Ref sig .tc := ⟨.hbm, 291, rfl⟩
abbrev main_v176 : Ref sig .tc := ⟨.hbm, 292, rfl⟩
abbrev main_v177 : Ref sig .tc := ⟨.hbm, 293, rfl⟩
abbrev main_cst_30 : Ref sig .tc := ⟨.hbm, 294, rfl⟩
abbrev main_v178 : Ref sig .tc := ⟨.hbm, 295, rfl⟩
abbrev main_v179 : Ref sig .tc := ⟨.hbm, 296, rfl⟩
abbrev main_v180 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_v184 : Ref sig .tc := ⟨.hbm, 301, rfl⟩
abbrev main_v185 : Ref sig .tc := ⟨.hbm, 302, rfl⟩
abbrev main_v186 : Ref sig .tc := ⟨.hbm, 303, rfl⟩
abbrev main_v187 : Ref sig .tc := ⟨.hbm, 304, rfl⟩
abbrev main_cst_31 : Ref sig .tc := ⟨.hbm, 305, rfl⟩
abbrev main_v188 : Ref sig .tc := ⟨.hbm, 306, rfl⟩
abbrev main_cst_32 : Ref sig .tc := ⟨.hbm, 307, rfl⟩
abbrev main_v189 : Ref sig .tc := ⟨.hbm, 308, rfl⟩
abbrev main_v190 : Ref sig .tc := ⟨.hbm, 309, rfl⟩
abbrev main_c_33 : Ref sig .tc := ⟨.hbm, 310, rfl⟩
abbrev main_call7_cst : Ref sig .tc := ⟨.hbm, 311, rfl⟩
abbrev main_call7_v0 : Ref sig .tc := ⟨.hbm, 312, rfl⟩
abbrev main_call7_v1 : Ref sig .tc := ⟨.hbm, 313, rfl⟩
abbrev main_call7_cst_0 : Ref sig .tc := ⟨.hbm, 314, rfl⟩
abbrev main_call7_v2 : Ref sig .tc := ⟨.hbm, 315, rfl⟩
abbrev main_call7_v3 : Ref sig .tc := ⟨.hbm, 316, rfl⟩
abbrev main_call7_v4 : Ref sig .tc := ⟨.hbm, 317, rfl⟩
abbrev main_call7_v5 : Ref sig .tc := ⟨.hbm, 318, rfl⟩
abbrev main_call7_v6 : Ref sig .tc := ⟨.hbm, 319, rfl⟩
abbrev main_call7_v7 : Ref sig .tc := ⟨.hbm, 320, rfl⟩
abbrev main_call7_cst_1 : Ref sig .tc := ⟨.hbm, 321, rfl⟩
abbrev main_call7_v8 : Ref sig .tc := ⟨.hbm, 322, rfl⟩
abbrev main_call7_cst_2 : Ref sig .tc := ⟨.hbm, 323, rfl⟩
abbrev main_call7_v9 : Ref sig .tc := ⟨.hbm, 324, rfl⟩
abbrev main_call7_v10 : Ref sig .tc := ⟨.hbm, 325, rfl⟩
abbrev main_call7_v11 : Ref sig .tc := ⟨.hbm, 326, rfl⟩
abbrev main_call7_cst_3 : Ref sig .tc := ⟨.hbm, 327, rfl⟩
abbrev main_call7_v12 : Ref sig .tc := ⟨.hbm, 328, rfl⟩
abbrev main_call7_cst_4 : Ref sig .tc := ⟨.hbm, 329, rfl⟩
abbrev main_call7_call0_v0 : Ref sig .tc := ⟨.hbm, 330, rfl⟩
abbrev main_call7_call0_v1 : Ref sig .tc := ⟨.hbm, 331, rfl⟩
abbrev main_v191 : Ref sig .tc := ⟨.hbm, 332, rfl⟩
abbrev main_v192 : Ref sig .tc := ⟨.hbm, 333, rfl⟩
abbrev main_v193 : Ref sig .tc := ⟨.hbm, 334, rfl⟩
abbrev main_v194 : Ref sig .tc := ⟨.hbm, 335, rfl⟩
abbrev main_cst_34 : Ref sig .tc := ⟨.hbm, 336, rfl⟩
abbrev main_v195 : Ref sig .tc := ⟨.hbm, 337, rfl⟩
abbrev main_v196 : Ref sig .tc := ⟨.hbm, 338, rfl⟩
abbrev main_v197 : Ref sig .tc := ⟨.hbm, 339, rfl⟩
abbrev main_v198 : Ref sig .tc := ⟨.hbm, 340, rfl⟩
abbrev main_v199 : Ref sig .tc := ⟨.hbm, 341, rfl⟩
abbrev main_v200 : Ref sig .tc := ⟨.hbm, 342, rfl⟩
abbrev main_v201 : Ref sig .tc := ⟨.hbm, 343, rfl⟩
abbrev main_v202 : Ref sig .tc := ⟨.hbm, 344, rfl⟩
abbrev main_v203 : Ref sig .tc := ⟨.hbm, 345, rfl⟩
abbrev main_v204 : Ref sig .tc := ⟨.hbm, 346, rfl⟩
abbrev main_v205 : Ref sig .tc := ⟨.hbm, 347, rfl⟩
abbrev main_v206 : Ref sig .tc := ⟨.hbm, 348, rfl⟩
abbrev main_call8_cst : Ref sig .tc := ⟨.hbm, 349, rfl⟩
abbrev main_call8_v0 : Ref sig .tc := ⟨.hbm, 350, rfl⟩
abbrev main_v207 : Ref sig .tc := ⟨.hbm, 351, rfl⟩
abbrev main_cst_35 : Ref sig .tc := ⟨.hbm, 352, rfl⟩
abbrev main_v208 : Ref sig .tc := ⟨.hbm, 353, rfl⟩
abbrev main_cst_36 : Ref sig .tc := ⟨.hbm, 354, rfl⟩
abbrev main_v209 : Ref sig .tc := ⟨.hbm, 355, rfl⟩
abbrev main_v210 : Ref sig .tc := ⟨.hbm, 356, rfl⟩
abbrev main_v211 : Ref sig .tc := ⟨.hbm, 357, rfl⟩
abbrev main_cst_37 : Ref sig .tc := ⟨.hbm, 358, rfl⟩
abbrev main_v212 : Ref sig .tc := ⟨.hbm, 359, rfl⟩
abbrev main_v213 : Ref sig .tc := ⟨.hbm, 360, rfl⟩
abbrev main_v214 : Ref sig .tc := ⟨.hbm, 361, rfl⟩
abbrev main_cst_38 : Ref sig .tc := ⟨.hbm, 362, rfl⟩
abbrev main_v215 : Ref sig .tc := ⟨.hbm, 363, rfl⟩
abbrev main_v216 : Ref sig .tc := ⟨.hbm, 364, rfl⟩
abbrev main_v217 : Ref sig .tc := ⟨.hbm, 365, rfl⟩
abbrev main_v218 : Ref sig .tc := ⟨.hbm, 366, rfl⟩
abbrev main_v219 : Ref sig .tc := ⟨.hbm, 367, rfl⟩
abbrev main_v220 : Ref sig .tc := ⟨.hbm, 368, rfl⟩
abbrev main_v221 : Ref sig .tc := ⟨.hbm, 369, rfl⟩
abbrev main_v222 : Ref sig .tc := ⟨.hbm, 370, rfl⟩
abbrev main_v223 : Ref sig .tc := ⟨.hbm, 371, rfl⟩
abbrev main_cst_39 : Ref sig .tc := ⟨.hbm, 372, rfl⟩
abbrev main_v224 : Ref sig .tc := ⟨.hbm, 373, rfl⟩
abbrev main_cst_40 : Ref sig .tc := ⟨.hbm, 374, rfl⟩
abbrev main_v225 : Ref sig .tc := ⟨.hbm, 375, rfl⟩
abbrev main_v226 : Ref sig .tc := ⟨.hbm, 376, rfl⟩
abbrev main_c_41 : Ref sig .tc := ⟨.hbm, 377, rfl⟩
abbrev main_call9_cst : Ref sig .tc := ⟨.hbm, 378, rfl⟩
abbrev main_call9_v0 : Ref sig .tc := ⟨.hbm, 379, rfl⟩
abbrev main_call9_v1 : Ref sig .tc := ⟨.hbm, 380, rfl⟩
abbrev main_call9_cst_0 : Ref sig .tc := ⟨.hbm, 381, rfl⟩
abbrev main_call9_v2 : Ref sig .tc := ⟨.hbm, 382, rfl⟩
abbrev main_call9_v3 : Ref sig .tc := ⟨.hbm, 383, rfl⟩
abbrev main_call9_v4 : Ref sig .tc := ⟨.hbm, 384, rfl⟩
abbrev main_call9_v5 : Ref sig .tc := ⟨.hbm, 385, rfl⟩
abbrev main_call9_v6 : Ref sig .tc := ⟨.hbm, 386, rfl⟩
abbrev main_call9_v7 : Ref sig .tc := ⟨.hbm, 387, rfl⟩
abbrev main_call9_cst_1 : Ref sig .tc := ⟨.hbm, 388, rfl⟩
abbrev main_call9_v8 : Ref sig .tc := ⟨.hbm, 389, rfl⟩
abbrev main_call9_cst_2 : Ref sig .tc := ⟨.hbm, 390, rfl⟩
abbrev main_call9_v9 : Ref sig .tc := ⟨.hbm, 391, rfl⟩
abbrev main_call9_v10 : Ref sig .tc := ⟨.hbm, 392, rfl⟩
abbrev main_call9_v11 : Ref sig .tc := ⟨.hbm, 393, rfl⟩
abbrev main_call9_cst_3 : Ref sig .tc := ⟨.hbm, 394, rfl⟩
abbrev main_call9_v12 : Ref sig .tc := ⟨.hbm, 395, rfl⟩
abbrev main_call9_cst_4 : Ref sig .tc := ⟨.hbm, 396, rfl⟩
abbrev main_call9_call0_v0 : Ref sig .tc := ⟨.hbm, 397, rfl⟩
abbrev main_call9_call0_v1 : Ref sig .tc := ⟨.hbm, 398, rfl⟩
abbrev main_v227 : Ref sig .tc := ⟨.hbm, 399, rfl⟩
abbrev main_v228 : Ref sig .tc := ⟨.hbm, 400, rfl⟩
abbrev main_v229 : Ref sig .tc := ⟨.hbm, 401, rfl⟩
abbrev main_v230 : Ref sig .tc := ⟨.hbm, 402, rfl⟩
abbrev main_cst_42 : Ref sig .tc := ⟨.hbm, 403, rfl⟩
abbrev main_v231 : Ref sig .tc := ⟨.hbm, 404, rfl⟩
abbrev main_v232 : Ref sig .tc := ⟨.hbm, 405, rfl⟩
abbrev main_v233 : Ref sig .tc := ⟨.hbm, 406, rfl⟩
abbrev main_v234 : Ref sig .tc := ⟨.hbm, 407, rfl⟩
abbrev main_v235 : Ref sig .tc := ⟨.hbm, 408, rfl⟩
abbrev main_v236 : Ref sig .tc := ⟨.hbm, 409, rfl⟩
abbrev main_v237 : Ref sig .tc := ⟨.hbm, 410, rfl⟩
abbrev main_v238 : Ref sig .tc := ⟨.hbm, 411, rfl⟩
abbrev main_v239 : Ref sig .tc := ⟨.hbm, 412, rfl⟩
abbrev main_v240 : Ref sig .tc := ⟨.hbm, 413, rfl⟩
abbrev main_v241 : Ref sig .tc := ⟨.hbm, 414, rfl⟩
abbrev main_v242 : Ref sig .tc := ⟨.hbm, 415, rfl⟩
abbrev main_v243 : Ref sig .tc := ⟨.hbm, 416, rfl⟩
abbrev main_v244 : Ref sig .tc := ⟨.hbm, 417, rfl⟩
abbrev main_v245 : Ref sig .tc := ⟨.hbm, 418, rfl⟩
abbrev main_v246 : Ref sig .tc := ⟨.hbm, 419, rfl⟩
abbrev main_call10_cst : Ref sig .tc := ⟨.hbm, 420, rfl⟩
abbrev main_call10_v0 : Ref sig .tc := ⟨.hbm, 421, rfl⟩
abbrev main_v247 : Ref sig .tc := ⟨.hbm, 422, rfl⟩
abbrev main_v248 : Ref sig .tc := ⟨.hbm, 423, rfl⟩
abbrev main_v249 : Ref sig .tc := ⟨.hbm, 424, rfl⟩
abbrev main_v250 : Ref sig .tc := ⟨.hbm, 425, rfl⟩
abbrev main_v251 : Ref sig .tc := ⟨.hbm, 426, rfl⟩

abbrev nD : Nat := 1
abbrev τ : Topo := Topo.v7x

variable {F : FTy → Type} [FloatOps F]

class Facts₀ : Prop where
  slices_S2x150000_S1x150000_0_0 : S2x150000.Slices ![0, 0] S1x150000
  shapeCasts_S1x150000_S150000 : S1x150000.ShapeCasts S150000
  concatenates_S150000_S50000_S200000_d0 : Shape.Concatenates [S150000, S50000] S200000 0
  slices_S2x150000_S1x150000_1_0 : S2x150000.Slices ![1, 0] S1x150000
  bcast_S_S200000 : S_.BroadcastsInDim S200000 (![] : Fin 0 → Fin S200000.rank)
  bcast_S_S50000 : S_.BroadcastsInDim S50000 (![] : Fin 0 → Fin S50000.rank)
  bcast_S200000_S200000x1_0 : S200000.BroadcastsInDim S200000x1 (![0] : Fin 1 → Fin S200000x1.rank)
  bcast_S200000x1_S200000x512_0_1 : S200000x1.BroadcastsInDim S200000x512 (![0, 1] : Fin 2 → Fin S200000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  slices_S5x512_S1x512_0_0 : S5x512.Slices ![0, 0] S1x512
  shapeCasts_S1x512_S512 : S1x512.ShapeCasts S512
  reducesTo_S50000x512_S512_d0 : S50000x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  slices_S5x512_S1x512_1_0 : S5x512.Slices ![1, 0] S1x512
  slices_S3x512x512_S1x512x512_1_0_0 : S3x512x512.Slices ![1, 0, 0] S1x512x512
  slices_S3x512_S1x512_1_0 : S3x512.Slices ![1, 0] S1x512
  slices_S5x512_S1x512_2_0 : S5x512.Slices ![2, 0] S1x512
  slices_S3x512x512_S1x512x512_2_0_0 : S3x512x512.Slices ![2, 0, 0] S1x512x512
  slices_S3x512_S1x512_2_0 : S3x512.Slices ![2, 0] S1x512
  slices_S5x512_S1x512_3_0 : S5x512.Slices ![3, 0] S1x512
  bcast_S_S2048 : S_.BroadcastsInDim S2048 (![] : Fin 0 → Fin S2048.rank)
  bcast_S50000_S50000x1_0 : S50000.BroadcastsInDim S50000x1 (![0] : Fin 1 → Fin S50000x1.rank)
  bcast_S_S2048x512 : S_.BroadcastsInDim S2048x512 (![] : Fin 0 → Fin S2048x512.rank)
  bcast_S2048_S2048x1_0 : S2048.BroadcastsInDim S2048x1 (![0] : Fin 1 → Fin S2048x1.rank)
  bcast_S2048x1_S2048x512_0_1 : S2048x1.BroadcastsInDim S2048x512 (![0, 1] : Fin 2 → Fin S2048x512.rank)
  slices_S5x512_S1x512_4_0 : S5x512.Slices ![4, 0] S1x512
  reducesTo_S2048x512_S512_d0 : S2048x512.ReducesTo [0] S512
  bcast_S1x512_S2048x512_0_1 : S1x512.BroadcastsInDim S2048x512 (![0, 1] : Fin 2 → Fin S2048x512.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  scatter_S50000_S200000x1_S200000_n_0_0_1_wf : ScatterDims.WF S50000 S200000x1 S200000 [] [0] [0] 1
  gather_S50000_S200000x1_S200000_n_0_n_n_0_1_1_wf : GatherDims.WF S50000 S200000x1 S200000 [] [0] [] [0] [] 1 ![1]
  dot_S50000x128_S128x512_S50000x512_1_0_0_1_n_n_wf : DotDims.WF S50000x128 S128x512 S50000x512 [1] [0] [0] [1] [] []
  gather_S50000x512_S200000x1_S200000x512_1_0_n_n_0_1_1512_wf : GatherDims.WF S50000x512 S200000x1 S200000x512 [1] [0] [] [0] [] 1 ![1, 512]
  scatter_S50000x512_S200000x1_S200000x512_1_0_0_1_wf : ScatterDims.WF S50000x512 S200000x1 S200000x512 [1] [0] [0] 1
  dot_S50000x512_S512x512_S50000x512_1_0_0_1_n_n_wf : DotDims.WF S50000x512 S512x512 S50000x512 [1] [0] [0] [1] [] []
  scatter_S2048_S50000x1_S50000_n_0_0_1_wf : ScatterDims.WF S2048 S50000x1 S50000 [] [0] [0] 1
  scatter_S2048x512_S50000x1_S50000x512_1_0_0_1_wf : ScatterDims.WF S2048x512 S50000x1 S50000x512 [1] [0] [0] 1
  dot_S2048x512_S512x512_S2048x512_1_0_0_1_n_n_wf : DotDims.WF S2048x512 S512x512 S2048x512 [1] [0] [0] [1] [] []
  dot_S2048x512_S512x1_S2048x1_1_0_0_1_n_n_wf : DotDims.WF S2048x512 S512x1 S2048x1 [1] [0] [0] [1] [] []

variable [Facts₀]

def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def gather_S50000_S200000x1_S200000_n_0_n_n_0_1_1 : GatherDims S50000 S200000x1 S200000 where
  offsetDims := []
  collapsedSliceDims := [0]
  operandBatchingDims := []
  startIndicesBatchingDims := []
  startIndexMap := [0]
  indexVectorDim := 1
  sliceSizes := ![1]
  wf := gather_S50000_S200000x1_S200000_n_0_n_n_0_1_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf
def scatter_S50000x512_S200000x1_S200000x512_1_0_0_1 : ScatterDims S50000x512 S200000x1 S200000x512 where
  updateWindowDims := [1]
  insertedWindowDims := [0]
  scatterDimsToOperandDims := [0]
  indexVectorDim := 1
  wf := scatter_S50000x512_S200000x1_S200000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def scatter_S2048x512_S50000x1_S50000x512_1_0_0_1 : ScatterDims S2048x512 S50000x1 S50000x512 where
  updateWindowDims := [1]
  insertedWindowDims := [0]
  scatterDimsToOperandDims := [0]
  indexVectorDim := 1
  wf := scatter_S2048x512_S50000x1_S50000x512_1_0_0_1_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf

class Facts : Prop extends Facts₀ where

variable [Facts]
-- ==== Proof.KernelRun.lean ====
/-
  The kernel program's run, ending with its buffers named.

  The generated frame theorem says of a final state only that the argument arrays are as launched. Here the same
  run is taken to the end with the whole last boundary read off: in every final state each unscoped buffer of each
  core holds the contents `Gen.W31 m ρ c` of the last segment boundary (`run_all`), and in particular the
  result buffer `main_v248` does, the thirteen argument arrays being unchanged (`run`).

  The run is the library's launch of a segment list (`Pipeline.θ_run_regions_kit`) at the generated segments:
  the per-core thread states are "every unscoped buffer held whole at the boundary's contents, the generator
  register at some state, nothing owed", each segment leaving exactly what the next is entered from.
-/
import proofs.«157516_j44770739094124_1_alg».proof.Proof.Gen.KernelIdeal.Frame

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two ends of the chain of thread states -/

/-- The first thread state of core `c`: every unscoped buffer at the launch contents `W0`, beside the generator
    register and the empty debt. -/
abbrev First (c : Dev nD) : sProp 𝕄 :=
  iprop(StableHlo.held (c : Thread nD τ) (Pipeline.ucRefs τ sig) (W0 m ρ c) ∗ R c)

/-- What a final memory must satisfy on core `c`: each unscoped buffer holds the last boundary's contents. -/
def AtEnd (c : Dev nD) (s : MemSt nD τ sig (Elt F)) : Prop :=
  ∀ b ∈ Pipeline.ucRefs τ sig, s.mem (((c : Thread nD τ)).1, b) = W31 m ρ c b

/-! ## The launch element -/

/-- The launch element is the rounds schedule of all five pipelines' staging cells; beside it each core is dealt
    no further ghost resource. -/
theorem launch_elt :
    (ownU (initOf (Pipeline.cells cfgs cellOf_inj) (Pipeline.launchToks cfgs cellOf_inj)) : sProp 𝕄)
      ⊢ |={Set.univ}=> iprop(BI.own (emb₁ (initOf (Pipeline.cells (Pipeline.pin (pcfgs (F := F)) adm) cellOf_inj)
            (Pipeline.launchToks (Pipeline.pin (pcfgs (F := F)) adm) cellOf_inj)))
          ∗ bigSep Finset.univ fun _ : Dev nD => (BI.emp : sProp 𝕄)) := by
  -- owning the launch element is owning its image under the embedding, by definition
  have hown : (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) := .rfl
  rw [BI.bigSep_emp_const]
  iintro Hu
  imodintro
  isplitl [Hu]
  · iapply hown; iexact Hu
  · iempintro

/-! ## The thread states chain -/

/-- Each of the 31 segments is entered from the state its predecessor leaves, the first from `First`; the last
    leaves the buffers at `W31`, and the register and the empty debt regroup (associativity of `∗`) into the form
    the launch theorem ends its chain at. -/
theorem chains : Pipeline.Seg.Chains (First m ρ) (segs m ρ)
    (fun c => iprop(Tₙ m ρ c ∗ ∃ W, owes (c : Thread nD τ) (0 : CellTallies nD τ sig Unit) W)) := by
  iterate 31 refine ⟨fun _ => .rfl, ?_⟩
  intro c
  exact sep_assoc'

/-! ## The first state from what the launch deals -/

/-- On one core: the launch's unscoped buffers are the held set at `W0`; the register and the empty debt are kept;
    whatever else the launch deals (`A`, `B`, `C`, `D`: zeroed semaphores, credit, level facts) is not needed. -/
theorem first_state (c : Dev nD) (A B C D : sProp 𝕄) :
    iprop((unscopedBufs c (fun b => m ((c : Thread nD τ).loc b)) ∗ A
          ∗ owes (c : Thread nD τ) (0 : CellTallies nD τ sig Unit) ∅ ∗ B ∗ prngReg c (ρ c) ∗ C) ∗ D)
      ⊢ |={Set.univ}=> First m ρ c := by
  rw [show unscopedBufs c (fun b => m ((c : Thread nD τ).loc b))
        = StableHlo.held (c : Thread nD τ) (Pipeline.ucRefs τ sig) (W0 m ρ c) from Pipeline.unscopedBufs_held c (W0 m ρ c)]
  iintro ⟨⟨Hbufs, -, Howes, -, Hreg, -⟩, -⟩
  imodintro
  isplitl [Hbufs]
  · iexact Hbufs
  isplitl [Hreg]
  · iexists (ρ c); iexact Hreg
  · iexists ∅; iexact Howes

/-! ## The last state read against a final state -/

/-- The held buffers of the last thread state, beside the state interpretation of a final state, say what that
    state's memory holds at each of them. -/
theorem read_end (c : Dev nD) (s' : Phys nD τ sig (Elt F)) :
    iprop(Tₙ m ρ c ∗ SI s') ⊢ |={Set.univ}=> iprop(⌜AtEnd m ρ c s'.mem⌝ ∗ SI s') := by
  have hread := pointsTo_read_all (Ix := Unit) (Name := ℕ) (U := UR sig nD τ) (Lvl := ℕ)
    (Pipeline.ucRefs τ sig) (fun b => (((c : Thread nD τ)).1, b)) (W31 m ρ c) s'
  unfold AtEnd
  iintro ⟨⟨Hheld, -⟩, HSI⟩
  unfold StableHlo.held
  imodintro
  iapply hread
  isplitl [Hheld]
  · iexact Hheld
  · iexact HSI

/-! ## The run -/

/-- Every weakly fair execution of the kernel program from memory `m`, counters at zero, terminates, and in every
    final state each unscoped buffer of each core holds `Gen.W31 m ρ c`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Gen.W31 m ρ c b) :=
  Pipeline.θ_run_regions_kit (pcfgs (F := F)) adm (pdats m ρ) () cellOf_inj emb₁ defs₀ 𝒱₀ L lv m ρ main (segs m ρ)
    (hmain := fun c Q => Entails.of_eq (by rw [main_run m ρ c]))
    (hnd := by
      simp only [segs, Pipeline.Seg.pipes_host, Pipeline.Seg.pipes_region, Pipeline.Seg.pipes_nil]
      decide)
    (O₀ := 0) (hL := fun _ _ => rfl) (G := fun _ => iprop(emp))
    (u₀ := initOf (Pipeline.cells cfgs cellOf_inj) (Pipeline.launchToks cfgs cellOf_inj))
    (hu₀ := launch_elt)
    (T₀ := First m ρ) (Tₙ := Tₙ m ρ) (hch := chains m ρ)
    (hinit := Pipeline.initEach L lv fun c => first_state m ρ c _ _ _ _)
    (QY := AtEnd m ρ) (hfin := read_end m ρ)
    (hQ := fun _ h => h)

/-- The run with the result buffer named: in every final state `main_v248` holds the last boundary's contents at
    it, and the thirteen argument arrays are as launched (no host operation and no region writes them). -/
theorem run : θ_run defs (onTc (τ := τ) (main (F := F))) ⟨m, fun _ => 0, ρ⟩ (fun r => ∀ c : Dev nD,
      r.2.mem ((c.tc : Thread nD τ).loc main_v248) = Gen.W31 m ρ c (Proc.devRef .tc main_v248)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    have at_arg (b : Ref sig .tc) (hb : ¬ (Proc.devRef .tc b : DevRef τ sig).isScoped) :
        r.2.mem ((c.tc : Thread nD τ).loc b) = Gen.W31 m ρ c (Proc.devRef .tc b) := h c _ (mem_uc b hb)
    ⟨at_arg main_v248 (by decide),
     (at_arg main_arg0 (by decide)).trans (W31_main_arg0 m ρ c),
     (at_arg main_arg1 (by decide)).trans (W31_main_arg1 m ρ c),
     (at_arg main_arg2 (by decide)).trans (W31_main_arg2 m ρ c),
     (at_arg main_arg3 (by decide)).trans (W31_main_arg3 m ρ c),
     (at_arg main_arg4 (by decide)).trans (W31_main_arg4 m ρ c),
     (at_arg main_arg5 (by decide)).trans (W31_main_arg5 m ρ c),
     (at_arg main_arg6 (by decide)).trans (W31_main_arg6 m ρ c),
     (at_arg main_arg7 (by decide)).trans (W31_main_arg7 m ρ c),
     (at_arg main_arg8 (by decide)).trans (W31_main_arg8 m ρ c),
     (at_arg main_arg9 (by decide)).trans (W31_main_arg9 m ρ c),
     (at_arg main_arg10 (by decide)).trans (W31_main_arg10 m ρ c),
     (at_arg main_arg11 (by decide)).trans (W31_main_arg11 m ρ c),
     (at_arg main_arg12 (by decide)).trans (W31_main_arg12 m ρ c)⟩)
    (run_all m ρ)

end Cert.KernelIdeal.ValueRun

end
-- ==== Proof.RefOps.lean ====
/- Each list is the statements of the printed program in order, an outlined function's statements standing at its call
   over that call's buffers; the lists are cut where the program forms a dense product. -/
import proofs.«157516_j44770739094124_1_alg».proof.Proof.Gen.ReferenceIdeal
import Idealize.ShloMosaic.Lib.StableHlo.Run

set_option maxRecDepth 16384

noncomputable section

namespace Cert.ReferenceIdeal.RefOps

open Cert.ReferenceIdeal Cert.ReferenceIdeal.Gen Idealize.ShloMosaic Idealize.ShloMosaic.TcCoe Idealize.SL.Sem

variable {F : FTy → Type} [FloatOps F]

/-- 43 operations. -/
abbrev host0 : List (HloOp τ sig (Elt F)) :=
  [ StableHlo.nullary main_v0 (iotaInDim S50000 32 0),
    StableHlo.unary main_arg1 main_v1 ((extractStridedSlice S1x150000 ![0, 0] · slices_S2x150000_S1x150000_0_0) : (⟨S2x150000, .i32⟩ : BufTy).Contents (Elt F) → (⟨S1x150000, .i32⟩ : BufTy).Contents (Elt F)),
    StableHlo.reshape main_v1 main_v2 rfl shapeCasts_S1x150000_S150000,
    StableHlo.binary main_v2 main_v0 main_v3 ((fun a b => concatenate S200000 0 [⟨S150000, a⟩, ⟨S50000, b⟩] concatenates_S150000_S50000_S200000_d0) : (⟨S150000, .i32⟩ : BufTy).Contents (Elt F) → (⟨S50000, .i32⟩ : BufTy).Contents (Elt F) → (⟨S200000, .i32⟩ : BufTy).Contents (Elt F)),
    StableHlo.unary main_arg1 main_v4 ((extractStridedSlice S1x150000 ![1, 0] · slices_S2x150000_S1x150000_1_0) : (⟨S2x150000, .i32⟩ : BufTy).Contents (Elt F) → (⟨S1x150000, .i32⟩ : BufTy).Contents (Elt F)),
    StableHlo.reshape main_v4 main_v5 rfl shapeCasts_S1x150000_S150000,
    StableHlo.binary main_v5 main_v0 main_v6 ((fun a b => concatenate S200000 0 [⟨S150000, a⟩, ⟨S50000, b⟩] concatenates_S150000_S50000_S200000_d0) : (⟨S150000, .i32⟩ : BufTy).Contents (Elt F) → (⟨S50000, .i32⟩ : BufTy).Contents (Elt F) → (⟨S200000, .i32⟩ : BufTy).Contents (Elt F)),
    StableHlo.nullary main_cst (constant S_ .f32 0x3F800000#32),
    StableHlo.unary main_cst main_v7 (broadcastInDim S200000 ![] bcast_S_S200000 : (⟨S_, .f32⟩ : BufTy).Contents (Elt F) → (⟨S200000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S200000x1 ![0] bcast_S200000_S200000x1_0 : (⟨S200000, .i32⟩ : BufTy).Contents (Elt F) → (⟨S200000x1, .i32⟩ : BufTy).Contents (Elt F)),
    StableHlo.ternary main_v8 main_v9 main_v7 main_v10 ((fun x i u => Host.scatterAdd scatter_S50000_S200000x1_S200000_n_0_0_1 x i u) : (⟨S50000, .f32⟩ : BufTy).Contents (Elt F) → (⟨S200000x1, .i32⟩ : BufTy).Contents (Elt F) → (⟨S200000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v10 main_v13 main_v14 (maximumf : (⟨S50000, .f32⟩ : BufTy).Contents (Elt F) → (⟨S50000, .f32⟩ : BufTy).Contents (Elt F) → (⟨S50000, .f32⟩ : BufTy).Contents (Elt F)),
    StableHlo.unary main_v14 main_v15 (Host.rsqrt : (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v15 : StableHlo.TRef sig ⟨S50000, .f32⟩) (.of main_call0_v1 : StableHlo.TRef sig ⟨S50000, .f32⟩) (.of main_v16 : StableHlo.TRef sig ⟨S50000, .f32⟩) select,
    StableHlo.nullary main_c (constantI S_ 32 0#32),
    StableHlo.unary main_c main_v17 (broadcastInDim S200000 ![] bcast_S_S200000 : (⟨S_, .i32⟩ : BufTy).Contents (Elt F) → (⟨S200000, .i32⟩ : BufTy).Contents (Elt F)),
    StableHlo.binary main_v3 main_v17 main_v18 (cmpi .slt : (⟨S200000, .i32⟩ : BufTy).Contents (Elt F) → (⟨S200000, .i32⟩ : BufTy).Contents (Elt F) → (⟨S200000, .i1⟩ : BufTy).Contents (Elt F)),
    StableHlo.nullary main_c_4 (constantI S_ 32 50000#32),
    StableHlo.unary main_c_4 main_v19 (broadcastInDim S200000 ![] bcast_S_S200000 : (⟨S_, .i32⟩ : BufTy).Contents (Elt F) → (⟨S200000, .i32⟩ : BufTy).Contents (Elt F)),
    StableHlo.binary main_v3 main_v19 main_v20 (addi : (⟨S200000, .i32⟩ : BufTy).Contents (Elt F) → (⟨S200000, .i32⟩ : BufTy).Contents (Elt F) → (⟨S200000, .i32⟩ : BufTy).Contents (Elt F)),
    StableHlo.ternary main_v18 main_v20 main_v3 main_v21 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v21 main_v22 (broadcastInDim S200000x1 ![0] bcast_S200000_S200000x1_0 : (⟨S200000, .i32⟩ : BufTy).Contents (Elt F) → (⟨S200000x1, .i32⟩ : BufTy).Contents (Elt F)),
    StableHlo.binary main_v16 main_v22 main_v23 ((fun x i => Host.gather gather_S50000_S200000x1_S200000_n_0_n_n_0_1_1 x i) : (⟨S50000, .f32⟩ : BufTy).Contents (Elt F) → (⟨S200000x1, .i32⟩ : BufTy).Contents (Elt F) → (⟨S200000, .f32⟩ : BufTy).Contents (Elt F)),
    StableHlo.nullary main_c_5 (constantI S_ 32 0#32),
    StableHlo.unary main_c_5 main_v24 (broadcastInDim S200000 ![] bcast_S_S200000 : (⟨S_, .i32⟩ : BufTy).Contents (Elt F) → (⟨S200000, .i32⟩ : BufTy).Contents (Elt F)),
    StableHlo.binary main_v6 main_v24 main_v25 (cmpi .slt : (⟨S200000, .i32⟩ : BufTy).Contents (Elt F) → (⟨S200000, .i32⟩ : BufTy).Contents (Elt F) → (⟨S200000, .i1⟩ : BufTy).Contents (Elt F)),
    StableHlo.nullary main_c_6 (constantI S_ 32 50000#32),
    StableHlo.unary main_c_6 main_v26 (broadcastInDim S200000 ![] bcast_S_S200000 : (⟨S_, .i32⟩ : BufTy).Contents (Elt F) → (⟨S200000, .i32⟩ : BufTy).Contents (Elt F)),
    StableHlo.binary main_v6 main_v26 main_v27 (addi : (⟨S200000, .i32⟩ : BufTy).Contents (Elt F) → (⟨S200000, .i32⟩ : BufTy).Contents (Elt F) → (⟨S200000, .i32⟩ : BufTy).Contents (Elt F)),
    StableHlo.ternary main_v25 main_v27 main_v6 main_v28 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v28 main_v29 (broadcastInDim S200000x1 ![0] bcast_S200000_S200000x1_0 : (⟨S200000, .i32⟩ : BufTy).Contents (Elt F) → (⟨S200000x1, .i32⟩ : BufTy).Contents (Elt F)),
    StableHlo.binary main_v16 main_v29 main_v30 ((fun x i => Host.gather gather_S50000_S200000x1_S200000_n_0_n_n_0_1_1 x i) : (⟨S50000, .f32⟩ : BufTy).Contents (Elt F) → (⟨S200000x1, .i32⟩ : BufTy).Contents (Elt F) → (⟨S200000, .f32⟩ : BufTy).Contents (Elt F)),
    StableHlo.binary main_v23 main_v30 main_v31 (mulf : (⟨S200000, .f32⟩ : BufTy).Contents (Elt F) → (⟨S200000, .f32⟩ : BufTy).Contents (Elt F) → (⟨S200000, .f32⟩ : BufTy).Contents (Elt F)) ]
theorem host0_sub : (host0 : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

/-- 1 operations. -/
abbrev prod0 : List (HloOp τ sig (Elt F)) :=
  [ StableHlo.binary main_arg0 main_arg3 main_v32 ((fun l r => Host.dotGeneral dot_S50000x128_S128x512_S50000x512_1_0_0_1_n_n none l r) : (⟨S50000x128, .f32⟩ : BufTy).Contents (Elt F) → (⟨S128x512, .f32⟩ : BufTy).Contents (Elt F) → (⟨S50000x512, .f32⟩ : BufTy).Contents (Elt F)) ]
theorem prod0_sub : (prod0 : List (HloOp τ sig (Elt F))).Forall fun op => op.bufs ⊆ StableHlo.tcRefs τ sig :=
  StableHlo.binary_bufs_sub ..

/-- 74 operations. -/
abbrev host1 : List (HloOp τ sig (Elt F)) :=
  [ StableHlo.nullary main_c_7 (constantI S_ 32 0#32),
    StableHlo.unary main_c_7 main_v33 (broadcastInDim S200000 ![] bcast_S_S200000 : (⟨S_, .i32⟩ : BufTy).Contents (Elt F) → (⟨S200000, .i32⟩ : BufTy).Contents (Elt F)),
    StableHlo.binary main_v3 main_v33 main_v34 (cmpi .slt : (⟨S200000, .i32⟩ : BufTy).Contents (Elt F) → (⟨S200000, .i32⟩ : BufTy).Contents (Elt F) → (⟨S200000, .i1⟩ : BufTy).Contents (Elt F)),
    StableHlo.nullary main_c_8 (constantI S_ 32 50000#32),
    StableHlo.unary main_c_8 main_v35 (broadcastInDim S200000 ![] bcast_S_S200000 : (⟨S_, .i32⟩ : BufTy).Contents (Elt F) → (⟨S200000, .i32⟩ : BufTy).Contents (Elt F)),
    StableHlo.binary main_v3 main_v35 main_v36 (addi : (⟨S200000, .i32⟩ : BufTy).Contents (Elt F) → (⟨S200000, .i32⟩ : BufTy).Contents (Elt F) → (⟨S200000, .i32⟩ : BufTy).Contents (Elt F)),
    StableHlo.ternary main_v34 main_v36 main_v3 main_v37 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v37 main_v38 (broadcastInDim S200000x1 ![0] bcast_S200000_S200000x1_0 : (⟨S200000, .i32⟩ : BufTy).Contents (Elt F) → (⟨S200000x1, .i32⟩ : BufTy).Contents (Elt F)),
    StableHlo.binary main_v32 main_v38 main_v39 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F)),
    StableHlo.unary main_v31 main_v40 (broadcastInDim S200000x1 ![0] bcast_S200000_S200000x1_0 : (⟨S200000, .f32⟩ : BufTy).Contents (Elt F) → (⟨S200000x1, .f32⟩ : BufTy).Contents (Elt F)),
    StableHlo.unary main_v40 main_v41 (broadcastInDim S200000x512 ![0, 1] bcast_S200000x1_S200000x512_0_1 : (⟨S200000x1, .f32⟩ : BufTy).Contents (Elt F) → (⟨S200000x512, .f32⟩ : BufTy).Contents (Elt F)),
    StableHlo.binary main_v39 main_v41 main_v42 (mulf : (⟨S200000x512, .f32⟩ : BufTy).Contents (Elt F) → (⟨S200000x512, .f32⟩ : BufTy).Contents (Elt F) → (⟨S200000x512, .f32⟩ : BufTy).Contents (Elt F)),
    StableHlo.nullary main_cst_9 (constant S_ .f32 0x00000000#32),
    StableHlo.unary main_cst_9 main_v43 (broadcastInDim S50000x512 ![] bcast_S_S50000x512 : (⟨S_, .f32⟩ : BufTy).Contents (Elt F) → (⟨S50000x512, .f32⟩ : BufTy).Contents (Elt F)),
    StableHlo.unary main_v6 main_v44 (broadcastInDim S200000x1 ![0] bcast_S200000_S200000x1_0 : (⟨S200000, .i32⟩ : BufTy).Contents (Elt F) → (⟨S200000x1, .i32⟩ : BufTy).Contents (Elt F)),
    StableHlo.ternary main_v43 main_v44 main_v42 main_v45 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F)),
    StableHlo.unary main_arg4 main_v46 (broadcastInDim S1x512 ![1] bcast_S512_S1x512_1 : (⟨S512, .f32⟩ : BufTy).Contents (Elt F) → (⟨S1x512, .f32⟩ : BufTy).Contents (Elt F)),
    StableHlo.unary main_v46 main_v47 (broadcastInDim S50000x512 ![0, 1] bcast_S1x512_S50000x512_0_1 : (⟨S1x512, .f32⟩ : BufTy).Contents (Elt F) → (⟨S50000x512, .f32⟩ : BufTy).Contents (Elt F)),
    StableHlo.binary main_v45 main_v47 main_v48 (addf : (⟨S50000x512, .f32⟩ : BufTy).Contents (Elt F) → (⟨S50000x512, .f32⟩ : BufTy).Contents (Elt F) → (⟨S50000x512, .f32⟩ : BufTy).Contents (Elt F)),
    StableHlo.unary main_arg7 main_v49 ((extractStridedSlice S1x512 ![0, 0] · slices_S5x512_S1x512_0_0) : (⟨S5x512, .f32⟩ : BufTy).Contents (Elt F) → (⟨S1x512, .f32⟩ : BufTy).Contents (Elt F)),
    StableHlo.reshape main_v49 main_v50 rfl shapeCasts_S1x512_S512,
    StableHlo.unary main_arg8 main_v51 ((extractStridedSlice S1x512 ![0, 0] · slices_S5x512_S1x512_0_0) : (⟨S5x512, .f32⟩ : BufTy).Contents (Elt F) → (⟨S1x512, .f32⟩ : BufTy).Contents (Elt F)),
    StableHlo.reshape main_v51 main_v52 rfl shapeCasts_S1x512_S512,
    StableHlo.nullary main_cst_10 (constant S_ .f32 0x00000000#32),
    StableHlo.binary main_v48 main_cst_10 main_v53 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_11 (constant S_ .f32 0x47435000#32),
    StableHlo.unary main_cst_11 main_v54 (broadcastInDim S512 ![] bcast_S_S512 : (⟨S_, .f32⟩ : BufTy).Contents (Elt F) → (⟨S512, .f32⟩ : BufTy).Contents (Elt F)),
    StableHlo.binary main_v53 main_v54 main_v55 (Host.divf : (⟨S512, .f32⟩ : BufTy).Contents (Elt F) → (⟨S512, .f32⟩ : BufTy).Contents (Elt F) → (⟨S512, .f32⟩ : BufTy).Contents (Elt F)),
    StableHlo.nullary main_c_12 (constantI S_ 32 0#32),
    StableHlo.TRef.nullary (.of main_call1_cst : StableHlo.TRef sig ⟨S_, .f32⟩) (constant S_ .f32 0x00000000#32),
    StableHlo.TRef.binary (.of main_v48 : StableHlo.TRef sig ⟨S50000x512, .f32⟩) (.of main_call1_cst : StableHlo.TRef sig ⟨S_, .f32⟩) (.of main_call1_v0 : StableHlo.TRef sig ⟨S512, .f32⟩) (fun x v => Host.reduceAdd x v reducesTo_S50000x512_S512_d0 h_S_),
    StableHlo.TRef.unary (.of main_call1_v0 : StableHlo.TRef sig ⟨S512, .f32⟩) (.of main_call1_v1 : StableHlo.TRef sig ⟨S1x512, .f32⟩) (broadcastInDim S1x512 ![1] bcast_S512_S1x512_1),
    StableHlo.TRef.nullary (.of main_call1_cst_0 : StableHlo.TRef sig ⟨S_, .f32⟩) (constant S_ .f32 0x47435000#32),
    StableHlo.TRef.unary (.of main_call1_cst_0 : StableHlo.TRef sig ⟨S_, .f32⟩) (.of main_call1_v2 : StableHlo.TRef sig ⟨S1x512, .f32⟩) (broadcastInDim S1x512 ![] bcast_S_S1x512),
    StableHlo.TRef.binary (.of main_call1_v1 : StableHlo.TRef sig ⟨S1x512, .f32⟩) (.of main_call1_v2 : StableHlo.TRef sig ⟨S1x512, .f32⟩) (.of main_call1_v3 : StableHlo.TRef sig ⟨S1x512, .f32⟩) Host.divf,
    StableHlo.TRef.unary (.of main_call1_v3 : StableHlo.TRef sig ⟨S1x512, .f32⟩) (.of main_call1_v4 : StableHlo.TRef sig ⟨S50000x512, .f32⟩) (broadcastInDim S50000x512 ![0, 1] bcast_S1x512_S50000x512_0_1),
    StableHlo.TRef.binary (.of main_v48 : StableHlo.TRef sig ⟨S50000x512, .f32⟩) (.of main_call1_v4 : StableHlo.TRef sig ⟨S50000x512, .f32⟩) (.of main_call1_v5 : StableHlo.TRef sig ⟨S50000x512, .f32⟩) subf,
    StableHlo.TRef.binary (.of main_call1_v5 : StableHlo.TRef sig ⟨S50000x512, .f32⟩) (.of main_call1_v5 : StableHlo.TRef sig ⟨S50000x512, .f32⟩) (.of main_call1_v6 : StableHlo.TRef sig ⟨S50000x512, .f32⟩) mulf,
    StableHlo.TRef.unary (.of main_c_12 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47435000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S50000x512, .f32⟩) (.of main_call1_cst_2 : StableHlo.TRef sig ⟨S_, .f32⟩) (.of main_call1_v9 : StableHlo.TRef sig ⟨S512, .f32⟩) (fun x v => Host.reduceAdd x v reducesTo_S50000x512_S512_d0 h_S_),
    StableHlo.TRef.unary (.of main_call1_v8 : StableHlo.TRef sig ⟨S_, .f32⟩) (.of main_call1_v10 : StableHlo.TRef sig ⟨S512, .f32⟩) (broadcastInDim S512 ![] bcast_S_S512),
    StableHlo.TRef.binary (.of main_call1_v9 : StableHlo.TRef sig ⟨S512, .f32⟩) (.of main_call1_v10 : StableHlo.TRef sig ⟨S512, .f32⟩) (.of main_call1_v11 : StableHlo.TRef sig ⟨S512, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S512, .f32⟩) (broadcastInDim S512 ![] bcast_S_S512),
    StableHlo.TRef.ternary (.of main_call1_v12 : StableHlo.TRef sig ⟨S_, .i1⟩) (.of main_call1_v11 : StableHlo.TRef sig ⟨S512, .f32⟩) (.of main_call1_call0_v1 : StableHlo.TRef sig ⟨S512, .f32⟩) (.of main_v56 : StableHlo.TRef sig ⟨S512, .f32⟩) (fun p a b => select (broadcastInDim S512 ![] bcast_S_S512 p) a b),
    StableHlo.unary main_v55 main_v57 (broadcastInDim S1x512 ![1] bcast_S512_S1x512_1 : (⟨S512, .f32⟩ : BufTy).Contents (Elt F) → (⟨S1x512, .f32⟩ : BufTy).Contents (Elt F)),
    StableHlo.unary main_v57 main_v58 (broadcastInDim S50000x512 ![0, 1] bcast_S1x512_S50000x512_0_1 : (⟨S1x512, .f32⟩ : BufTy).Contents (Elt F) → (⟨S50000x512, .f32⟩ : BufTy).Contents (Elt F)),
    StableHlo.binary main_v48 main_v58 main_v59 (subf : (⟨S50000x512, .f32⟩ : BufTy).Contents (Elt F) → (⟨S50000x512, .f32⟩ : BufTy).Contents (Elt F) → (⟨S50000x512, .f32⟩ : BufTy).Contents (Elt F)),
    StableHlo.nullary main_cst_13 (constant S_ .f32 0x3727C5AC#32),
    StableHlo.unary main_cst_13 main_v60 (broadcastInDim S512 ![] bcast_S_S512 : (⟨S_, .f32⟩ : BufTy).Contents (Elt F) → (⟨S512, .f32⟩ : BufTy).Contents (Elt F)),
    StableHlo.binary main_v56 main_v60 main_v61 (addf : (⟨S512, .f32⟩ : BufTy).Contents (Elt F) → (⟨S512, .f32⟩ : BufTy).Contents (Elt F) → (⟨S512, .f32⟩ : BufTy).Contents (Elt F)),
    StableHlo.unary main_v61 main_v62 (Host.rsqrt : (⟨S512, .f32⟩ : BufTy).Contents (Elt F) → (⟨S512, .f32⟩ : BufTy).Contents (Elt F)),
    StableHlo.unary main_v62 main_v63 (broadcastInDim S1x512 ![1] bcast_S512_S1x512_1 : (⟨S512, .f32⟩ : BufTy).Contents (Elt F) → (⟨S1x512, .f32⟩ : BufTy).Contents (Elt F)),
    StableHlo.unary main_v63 main_v64 (broadcastInDim S50000x512 ![0, 1] bcast_S1x512_S50000x512_0_1 : (⟨S1x512, .f32⟩ : BufTy).Contents (Elt F) → (⟨S50000x512, .f32⟩ : BufTy).Contents (Elt F)),
    StableHlo.binary main_v59 main_v64 main_v65 (mulf : (⟨S50000x512, .f32⟩ : BufTy).Contents (Elt F) → (⟨S50000x512, .f32⟩ : BufTy).Contents (Elt F) → (⟨S50000x512, .f32⟩ : BufTy).Contents (Elt F)),
    StableHlo.unary main_v50 main_v66 (broadcastInDim S1x512 ![1] bcast_S512_S1x512_1 : (⟨S512, .f32⟩ : BufTy).Contents (Elt F) → (⟨S1x512, .f32⟩ : BufTy).Contents (Elt F)),
    StableHlo.unary main_v66 main_v67 (broadcastInDim S50000x512 ![0, 1] bcast_S1x512_S50000x512_0_1 : (⟨S1x512, .f32⟩ : BufTy).Contents (Elt F) → (⟨S50000x512, .f32⟩ : BufTy).Contents (Elt F)),
    StableHlo.binary main_v65 main_v67 main_v68 (mulf : (⟨S50000x512, .f32⟩ : BufTy).Contents (Elt F) → (⟨S50000x512, .f32⟩ : BufTy).Contents (Elt F) → (⟨S50000x512, .f32⟩ : BufTy).Contents (Elt F)),
    StableHlo.unary main_v52 main_v69 (broadcastInDim S1x512 ![1] bcast_S512_S1x512_1 : (⟨S512, .f32⟩ : BufTy).Contents (Elt F) → (⟨S1x512, .f32⟩ : BufTy).Contents (Elt F)),
    StableHlo.unary main_v69 main_v70 (broadcastInDim S50000x512 ![0, 1] bcast_S1x512_S50000x512_0_1 : (⟨S1x512, .f32⟩ : BufTy).Contents (Elt F) → (⟨S50000x512, .f32⟩ : BufTy).Contents (Elt F)),
    StableHlo.binary main_v68 main_v70 main_v71 (addf : (⟨S50000x512, .f32⟩ : BufTy).Contents (Elt F) → (⟨S50000x512, .f32⟩ : BufTy).Contents (Elt F) → (⟨S50000x512, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x512, .f32⟩) (broadcastInDim S50000x512 ![] bcast_S_S50000x512),
    StableHlo.TRef.binary (.of main_v71 : StableHlo.TRef sig ⟨S50000x512, .f32⟩) (.of main_call2_v0 : StableHlo.TRef sig ⟨S50000x512, .f32⟩) (.of main_v72 : StableHlo.TRef sig ⟨S50000x512, .f32⟩) maximumf,
    StableHlo.unary main_arg5 main_v73 ((extractStridedSlice S1x512x512 ![0, 0, 0] · slices_S3x512x512_S1x512x512_0_0_0) : (⟨S3x512x512, .f32⟩ : BufTy).Contents (Elt F) → (⟨S1x512x512, .f32⟩ : BufTy).Contents (Elt F)),
    StableHlo.reshape main_v73 main_v74 rfl shapeCasts_S1x512x512_S512x512,
    StableHlo.unary main_arg6 main_v75 ((extractStridedSlice S1x512 ![0, 0] · slices_S3x512_S1x512_0_0) : (⟨S3x512, .f32⟩ : BufTy).Contents (Elt F) → (⟨S1x512, .f32⟩ : BufTy).Contents (Elt F)),
    StableHlo.reshape main_v75 main_v76 rfl shapeCasts_S1x512_S512 ]
theorem host1_sub : (host1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub ..⟩

/-- 1 operations. -/
abbrev prod1 : List (HloOp τ sig (Elt F)) :=
  [ StableHlo.binary main_v72 main_v74 main_v77 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)) ]
theorem prod1_sub : (prod1 : List (HloOp τ sig (Elt F))).Forall fun op => op.bufs ⊆ StableHlo.tcRefs τ sig :=
  StableHlo.binary_bufs_sub ..

/-- 74 operations. -/
abbrev host2 : List (HloOp τ sig (Elt F)) :=
  [ StableHlo.nullary main_c_14 (constantI S_ 32 0#32),
    StableHlo.unary main_c_14 main_v78 (broadcastInDim S200000 ![] bcast_S_S200000 : (⟨S_, .i32⟩ : BufTy).Contents (Elt F) → (⟨S200000, .i32⟩ : BufTy).Contents (Elt F)),
    StableHlo.binary main_v3 main_v78 main_v79 (cmpi .slt : (⟨S200000, .i32⟩ : BufTy).Contents (Elt F) → (⟨S200000, .i32⟩ : BufTy).Contents (Elt F) → (⟨S200000, .i1⟩ : BufTy).Contents (Elt F)),
    StableHlo.nullary main_c_15 (constantI S_ 32 50000#32),
    StableHlo.unary main_c_15 main_v80 (broadcastInDim S200000 ![] bcast_S_S200000 : (⟨S_, .i32⟩ : BufTy).Contents (Elt F) → (⟨S200000, .i32⟩ : BufTy).Contents (Elt F)),
    StableHlo.binary main_v3 main_v80 main_v81 (addi : (⟨S200000, .i32⟩ : BufTy).Contents (Elt F) → (⟨S200000, .i32⟩ : BufTy).Contents (Elt F) → (⟨S200000, .i32⟩ : BufTy).Contents (Elt F)),
    StableHlo.ternary main_v79 main_v81 main_v3 main_v82 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v82 main_v83 (broadcastInDim S200000x1 ![0] bcast_S200000_S200000x1_0 : (⟨S200000, .i32⟩ : BufTy).Contents (Elt F) → (⟨S200000x1, .i32⟩ : BufTy).Contents (Elt F)),
    StableHlo.binary main_v77 main_v83 main_v84 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F)),
    StableHlo.unary main_v31 main_v85 (broadcastInDim S200000x1 ![0] bcast_S200000_S200000x1_0 : (⟨S200000, .f32⟩ : BufTy).Contents (Elt F) → (⟨S200000x1, .f32⟩ : BufTy).Contents (Elt F)),
    StableHlo.unary main_v85 main_v86 (broadcastInDim S200000x512 ![0, 1] bcast_S200000x1_S200000x512_0_1 : (⟨S200000x1, .f32⟩ : BufTy).Contents (Elt F) → (⟨S200000x512, .f32⟩ : BufTy).Contents (Elt F)),
    StableHlo.binary main_v84 main_v86 main_v87 (mulf : (⟨S200000x512, .f32⟩ : BufTy).Contents (Elt F) → (⟨S200000x512, .f32⟩ : BufTy).Contents (Elt F) → (⟨S200000x512, .f32⟩ : BufTy).Contents (Elt F)),
    StableHlo.nullary main_cst_16 (constant S_ .f32 0x00000000#32),
    StableHlo.unary main_cst_16 main_v88 (broadcastInDim S50000x512 ![] bcast_S_S50000x512 : (⟨S_, .f32⟩ : BufTy).Contents (Elt F) → (⟨S50000x512, .f32⟩ : BufTy).Contents (Elt F)),
    StableHlo.unary main_v6 main_v89 (broadcastInDim S200000x1 ![0] bcast_S200000_S200000x1_0 : (⟨S200000, .i32⟩ : BufTy).Contents (Elt F) → (⟨S200000x1, .i32⟩ : BufTy).Contents (Elt F)),
    StableHlo.ternary main_v88 main_v89 main_v87 main_v90 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F)),
    StableHlo.unary main_v76 main_v91 (broadcastInDim S1x512 ![1] bcast_S512_S1x512_1 : (⟨S512, .f32⟩ : BufTy).Contents (Elt F) → (⟨S1x512, .f32⟩ : BufTy).Contents (Elt F)),
    StableHlo.unary main_v91 main_v92 (broadcastInDim S50000x512 ![0, 1] bcast_S1x512_S50000x512_0_1 : (⟨S1x512, .f32⟩ : BufTy).Contents (Elt F) → (⟨S50000x512, .f32⟩ : BufTy).Contents (Elt F)),
    StableHlo.binary main_v90 main_v92 main_v93 (addf : (⟨S50000x512, .f32⟩ : BufTy).Contents (Elt F) → (⟨S50000x512, .f32⟩ : BufTy).Contents (Elt F) → (⟨S50000x512, .f32⟩ : BufTy).Contents (Elt F)),
    StableHlo.unary main_arg7 main_v94 ((extractStridedSlice S1x512 ![1, 0] · slices_S5x512_S1x512_1_0) : (⟨S5x512, .f32⟩ : BufTy).Contents (Elt F) → (⟨S1x512, .f32⟩ : BufTy).Contents (Elt F)),
    StableHlo.reshape main_v94 main_v95 rfl shapeCasts_S1x512_S512,
    StableHlo.unary main_arg8 main_v96 ((extractStridedSlice S1x512 ![1, 0] · slices_S5x512_S1x512_1_0) : (⟨S5x512, .f32⟩ : BufTy).Contents (Elt F) → (⟨S1x512, .f32⟩ : BufTy).Contents (Elt F)),
    StableHlo.reshape main_v96 main_v97 rfl shapeCasts_S1x512_S512,
    StableHlo.nullary main_cst_17 (constant S_ .f32 0x00000000#32),
    StableHlo.binary main_v93 main_cst_17 main_v98 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_18 (constant S_ .f32 0x47435000#32),
    StableHlo.unary main_cst_18 main_v99 (broadcastInDim S512 ![] bcast_S_S512 : (⟨S_, .f32⟩ : BufTy).Contents (Elt F) → (⟨S512, .f32⟩ : BufTy).Contents (Elt F)),
    StableHlo.binary main_v98 main_v99 main_v100 (Host.divf : (⟨S512, .f32⟩ : BufTy).Contents (Elt F) → (⟨S512, .f32⟩ : BufTy).Contents (Elt F) → (⟨S512, .f32⟩ : BufTy).Contents (Elt F)),
    StableHlo.nullary main_c_19 (constantI S_ 32 0#32),
    StableHlo.TRef.nullary (.of main_call3_cst : StableHlo.TRef sig ⟨S_, .f32⟩) (constant S_ .f32 0x00000000#32),
    StableHlo.TRef.binary (.of main_v93 : StableHlo.TRef sig ⟨S50000x512, .f32⟩) (.of main_call3_cst : StableHlo.TRef sig ⟨S_, .f32⟩) (.of main_call3_v0 : StableHlo.TRef sig ⟨S512, .f32⟩) (fun x v => Host.reduceAdd x v reducesTo_S50000x512_S512_d0 h_S_),
    StableHlo.TRef.unary (.of main_call3_v0 : StableHlo.TRef sig ⟨S512, .f32⟩) (.of main_call3_v1 : StableHlo.TRef sig ⟨S1x512, .f32⟩) (broadcastInDim S1x512 ![1] bcast_S512_S1x512_1),
    StableHlo.TRef.nullary (.of main_call3_cst_0 : StableHlo.TRef sig ⟨S_, .f32⟩) (constant S_ .f32 0x47435000#32),
    StableHlo.TRef.unary (.of main_call3_cst_0 : StableHlo.TRef sig ⟨S_, .f32⟩) (.of main_call3_v2 : StableHlo.TRef sig ⟨S1x512, .f32⟩) (broadcastInDim S1x512 ![] bcast_S_S1x512),
    StableHlo.TRef.binary (.of main_call3_v1 : StableHlo.TRef sig ⟨S1x512, .f32⟩) (.of main_call3_v2 : StableHlo.TRef sig ⟨S1x512, .f32⟩) (.of main_call3_v3 : StableHlo.TRef sig ⟨S1x512, .f32⟩) Host.divf,
    StableHlo.TRef.unary (.of main_call3_v3 : StableHlo.TRef sig ⟨S1x512, .f32⟩) (.of main_call3_v4 : StableHlo.TRef sig ⟨S50000x512, .f32⟩) (broadcastInDim S50000x512 ![0, 1] bcast_S1x512_S50000x512_0_1),
    StableHlo.TRef.binary (.of main_v93 : StableHlo.TRef sig ⟨S50000x512, .f32⟩) (.of main_call3_v4 : StableHlo.TRef sig ⟨S50000x512, .f32⟩) (.of main_call3_v5 : StableHlo.TRef sig ⟨S50000x512, .f32⟩) subf,
    StableHlo.TRef.binary (.of main_call3_v5 : StableHlo.TRef sig ⟨S50000x512, .f32⟩) (.of main_call3_v5 : StableHlo.TRef sig ⟨S50000x512, .f32⟩) (.of main_call3_v6 : StableHlo.TRef sig ⟨S50000x512, .f32⟩) mulf,
    StableHlo.TRef.unary (.of main_c_19 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x47435000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S50000x512, .f32⟩) (.of main_call3_cst_2 : StableHlo.TRef sig ⟨S_, .f32⟩) (.of main_call3_v9 : StableHlo.TRef sig ⟨S512, .f32⟩) (fun x v => Host.reduceAdd x v reducesTo_S50000x512_S512_d0 h_S_),
    StableHlo.TRef.unary (.of main_call3_v8 : StableHlo.TRef sig ⟨S_, .f32⟩) (.of main_call3_v10 : StableHlo.TRef sig ⟨S512, .f32⟩) (broadcastInDim S512 ![] bcast_S_S512),
    StableHlo.TRef.binary (.of main_call3_v9 : StableHlo.TRef sig ⟨S512, .f32⟩) (.of main_call3_v10 : StableHlo.TRef sig ⟨S512, .f32⟩) (.of main_call3_v11 : StableHlo.TRef sig ⟨S512, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S512, .f32⟩) (broadcastInDim S512 ![] bcast_S_S512),
    StableHlo.TRef.ternary (.of main_call3_v12 : StableHlo.TRef sig ⟨S_, .i1⟩) (.of main_call3_v11 : StableHlo.TRef sig ⟨S512, .f32⟩) (.of main_call3_call0_v1 : StableHlo.TRef sig ⟨S512, .f32⟩) (.of main_v101 : StableHlo.TRef sig ⟨S512, .f32⟩) (fun p a b => select (broadcastInDim S512 ![] bcast_S_S512 p) a b),
    StableHlo.unary main_v100 main_v102 (broadcastInDim S1x512 ![1] bcast_S512_S1x512_1 : (⟨S512, .f32⟩ : BufTy).Contents (Elt F) → (⟨S1x512, .f32⟩ : BufTy).Contents (Elt F)),
    StableHlo.unary main_v102 main_v103 (broadcastInDim S50000x512 ![0, 1] bcast_S1x512_S50000x512_0_1 : (⟨S1x512, .f32⟩ : BufTy).Contents (Elt F) → (⟨S50000x512, .f32⟩ : BufTy).Contents (Elt F)),
    StableHlo.binary main_v93 main_v103 main_v104 (subf : (⟨S50000x512, .f32⟩ : BufTy).Contents (Elt F) → (⟨S50000x512, .f32⟩ : BufTy).Contents (Elt F) → (⟨S50000x512, .f32⟩ : BufTy).Contents (Elt F)),
    StableHlo.nullary main_cst_20 (constant S_ .f32 0x3727C5AC#32),
    StableHlo.unary main_cst_20 main_v105 (broadcastInDim S512 ![] bcast_S_S512 : (⟨S_, .f32⟩ : BufTy).Contents (Elt F) → (⟨S512, .f32⟩ : BufTy).Contents (Elt F)),
    StableHlo.binary main_v101 main_v105 main_v106 (addf : (⟨S512, .f32⟩ : BufTy).Contents (Elt F) → (⟨S512, .f32⟩ : BufTy).Contents (Elt F) → (⟨S512, .f32⟩ : BufTy).Contents (Elt F)),
    StableHlo.unary main_v106 main_v107 (Host.rsqrt : (⟨S512, .f32⟩ : BufTy).Contents (Elt F) → (⟨S512, .f32⟩ : BufTy).Contents (Elt F)),
    StableHlo.unary main_v107 main_v108 (broadcastInDim S1x512 ![1] bcast_S512_S1x512_1 : (⟨S512, .f32⟩ : BufTy).Contents (Elt F) → (⟨S1x512, .f32⟩ : BufTy).Contents (Elt F)),
    StableHlo.unary main_v108 main_v109 (broadcastInDim S50000x512 ![0, 1] bcast_S1x512_S50000x512_0_1 : (⟨S1x512, .f32⟩ : BufTy).Contents (Elt F) → (⟨S50000x512, .f32⟩ : BufTy).Contents (Elt F)),
    StableHlo.binary main_v104 main_v109 main_v110 (mulf : (⟨S50000x512, .f32⟩ : BufTy).Contents (Elt F) → (⟨S50000x512, .f32⟩ : BufTy).Contents (Elt F) → (⟨S50000x512, .f32⟩ : BufTy).Contents (Elt F)),
    StableHlo.unary main_v95 main_v111 (broadcastInDim S1x512 ![1] bcast_S512_S1x512_1 : (⟨S512, .f32⟩ : BufTy).Contents (Elt F) → (⟨S1x512, .f32⟩ : BufTy).Contents (Elt F)),
    StableHlo.unary main_v111 main_v112 (broadcastInDim S50000x512 ![0, 1] bcast_S1x512_S50000x512_0_1 : (⟨S1x512, .f32⟩ : BufTy).Contents (Elt F) → (⟨S50000x512, .f32⟩ : BufTy).Contents (Elt F)),
    StableHlo.binary main_v110 main_v112 main_v113 (mulf : (⟨S50000x512, .f32⟩ : BufTy).Contents (Elt F) → (⟨S50000x512, .f32⟩ : BufTy).Contents (Elt F) → (⟨S50000x512, .f32⟩ : BufTy).Contents (Elt F)),
    StableHlo.unary main_v97 main_v114 (broadcastInDim S1x512 ![1] bcast_S512_S1x512_1 : (⟨S512, .f32⟩ : BufTy).Contents (Elt F) → (⟨S1x512, .f32⟩ : BufTy).Contents (Elt F)),
    StableHlo.unary main_v114 main_v115 (broadcastInDim S50000x512 ![0, 1] bcast_S1x512_S50000x512_0_1 : (⟨S1x512, .f32⟩ : BufTy).Contents (Elt F) → (⟨S50000x512, .f32⟩ : BufTy).Contents (Elt F)),
    StableHlo.binary main_v113 main_v115 main_v116 (addf : (⟨S50000x512, .f32⟩ : BufTy).Contents (Elt F) → (⟨S50000x512, .f32⟩ : BufTy).Contents (Elt F) → (⟨S50000x512, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S50000x512, .f32⟩) (broadcastInDim S50000x512 ![] bcast_S_S50000x512),
    StableHlo.TRef.binary (.of main_v116 : StableHlo.TRef sig ⟨S50000x512, .f32⟩) (.of main_call4_v0 : StableHlo.TRef sig ⟨S50000x512, .f32⟩) (.of main_v117 : StableHlo.TRef sig ⟨S50000x512, .f32⟩) maximumf,
    StableHlo.unary main_arg5 main_v118 ((extractStridedSlice S1x512x512 ![1, 0, 0] · slices_S3x512x512_S1x512x512_1_0_0) : (⟨S3x512x512, .f32⟩ : BufTy).Contents (Elt F) → (⟨S1x512x512, .f32⟩ : BufTy).Contents (Elt F)),
    StableHlo.reshape main_v118 main_v119 rfl shapeCasts_S1x512x512_S512x512,
    StableHlo.unary main_arg6 main_v120 ((extractStridedSlice S1x512 ![1, 0] · slices_S3x512_S1x512_1_0) : (⟨S3x512, .f32⟩ : BufTy).Contents (Elt F) → (⟨S1x512, .f32⟩ : BufTy).Contents (Elt F)),
    StableHlo.reshape main_v120 main_v121 rfl shapeCasts_S1x512_S512 ]
theorem host2_sub : (host2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub ..⟩

/-- 1 operations. -/
abbrev prod2 : List (HloOp τ sig (Elt F)) :=
  [ StableHlo.binary main_v117 main_v119 main_v122 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)) ]
theorem prod2_sub : (prod2 : List (HloOp τ sig (Elt F))).Forall fun op => op.bufs ⊆ StableHlo.tcRefs τ sig :=
  StableHlo.binary_bufs_sub ..

/-- 74 operations. -/
abbrev host3 : List (HloOp τ sig (Elt F)) :=
  [ StableHlo.nullary main_c_21 (constantI S_ 32 0#32),
    StableHlo.unary main_c_21 main_v123 (broadcastInDim S200000 ![] bcast_S_S200000 : (⟨S_, .i32⟩ : BufTy).Contents (Elt F) → (⟨S200000, .i32⟩ : BufTy).Contents (Elt F)),
    StableHlo.binary main_v3 main_v123 main_v124 (cmpi .slt : (⟨S200000, .i32⟩ : BufTy).Contents (Elt F) → (⟨S200000, .i32⟩ : BufTy).Contents (Elt F) → (⟨S200000, .i1⟩ : BufTy).Contents (Elt F)),
    StableHlo.nullary main_c_22 (constantI S_ 32 50000#32),
    StableHlo.unary main_c_22 main_v125 (broadcastInDim S200000 ![] bcast_S_S200000 : (⟨S_, .i32⟩ : BufTy).Contents (Elt F) → (⟨S200000, .i32⟩ : BufTy).Contents (Elt F)),
    StableHlo.binary main_v3 main_v125 main_v126 (addi : (⟨S200000, .i32⟩ : BufTy).Contents (Elt F) → (⟨S200000, .i32⟩ : BufTy).Contents (Elt F) → (⟨S200000, .i32⟩ : BufTy).Contents (Elt F)),
    StableHlo.ternary main_v124 main_v126 main_v3 main_v127 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v127 main_v128 (broadcastInDim S200000x1 ![0] bcast_S200000_S200000x1_0 : (⟨S200000, .i32⟩ : BufTy).Contents (Elt F) → (⟨S200000x1, .i32⟩ : BufTy).Contents (Elt F)),
    StableHlo.binary main_v122 main_v128 main_v129 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F)),
    StableHlo.unary main_v31 main_v130 (broadcastInDim S200000x1 ![0] bcast_S200000_S200000x1_0 : (⟨S200000, .f32⟩ : BufTy).Contents (Elt F) → (⟨S200000x1, .f32⟩ : BufTy).Contents (Elt F)),
    StableHlo.unary main_v130 main_v131 (broadcastInDim S200000x512 ![0, 1] bcast_S200000x1_S200000x512_0_1 : (⟨S200000x1, .f32⟩ : BufTy).Contents (Elt F) → (⟨S200000x512, .f32⟩ : BufTy).Contents (Elt F)),
    StableHlo.binary main_v129 main_v131 main_v132 (mulf : (⟨S200000x512, .f32⟩ : BufTy).Contents (Elt F) → (⟨S200000x512, .f32⟩ : BufTy).Contents (Elt F) → (⟨S200000x512, .f32⟩ : BufTy).Contents (Elt F)),
    StableHlo.nullary main_cst_23 (constant S_ .f32 0x00000000#32),
    StableHlo.unary main_cst_23 main_v133 (broadcastInDim S50000x512 ![] bcast_S_S50000x512 : (⟨S_, .f32⟩ : BufTy).Contents (Elt F) → (⟨S50000x512, .f32⟩ : BufTy).Contents (Elt F)),
    StableHlo.unary main_v6 main_v134 (broadcastInDim S200000x1 ![0] bcast_S200000_S200000x1_0 : (⟨S200000, .i32⟩ : BufTy).Contents (Elt F) → (⟨S200000x1, .i32⟩ : BufTy).Contents (Elt F)),
    StableHlo.ternary main_v133 main_v134 main_v132 main_v135 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F)),
    StableHlo.unary main_v121 main_v136 (broadcastInDim S1x512 ![1] bcast_S512_S1x512_1 : (⟨S512, .f32⟩ : BufTy).Contents (Elt F) → (⟨S1x512, .f32⟩ : BufTy).Contents (Elt F)),
    StableHlo.unary main_v136 main_v137 (broadcastInDim S50000x512 ![0, 1] bcast_S1x512_S50000x512_0_1 : (⟨S1x512, .f32⟩ : BufTy).Contents (Elt F) → (⟨S50000x512, .f32⟩ : BufTy).Contents (Elt F)),
    StableHlo.binary main_v135 main_v137 main_v138 (addf : (⟨S50000x512, .f32⟩ : BufTy).Contents (Elt F) → (⟨S50000x512, .f32⟩ : BufTy).Contents (Elt F) → (⟨S50000x512, .f32⟩ : BufTy).Contents (Elt F)),
    StableHlo.unary main_arg7 main_v139 ((extractStridedSlice S1x512 ![2, 0] · slices_S5x512_S1x512_2_0) : (⟨S5x512, .f32⟩ : BufTy).Contents (Elt F) → (⟨S1x512, .f32⟩ : BufTy).Contents (Elt F)),
    StableHlo.reshape main_v139 main_v140 rfl shapeCasts_S1x512_S512,
    StableHlo.unary main_arg8 main_v141 ((extractStridedSlice S1x512 ![2, 0] · slices_S5x512_S1x512_2_0) : (⟨S5x512, .f32⟩ : BufTy).Contents (Elt F) → (⟨S1x512, .f32⟩ : BufTy).Contents (Elt F)),
    StableHlo.reshape main_v141 main_v142 rfl shapeCasts_S1x512_S512,
    StableHlo.nullary main_cst_24 (constant S_ .f32 0x00000000#32),
    StableHlo.binary main_v138 main_cst_24 main_v143 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_25 (constant S_ .f32 0x47435000#32),
    StableHlo.unary main_cst_25 main_v144 (broadcastInDim S512 ![] bcast_S_S512 : (⟨S_, .f32⟩ : BufTy).Contents (Elt F) → (⟨S512, .f32⟩ : BufTy).Contents (Elt F)),
    StableHlo.binary main_v143 main_v144 main_v145 (Host.divf : (⟨S512, .f32⟩ : BufTy).Contents (Elt F) → (⟨S512, .f32⟩ : BufTy).Contents (Elt F) → (⟨S512, .f32⟩ : BufTy).Contents (Elt F)),
    StableHlo.nullary main_c_26 (constantI S_ 32 0#32),
    StableHlo.TRef.nullary (.of main_call5_cst : StableHlo.TRef sig ⟨S_, .f32⟩) (constant S_ .f32 0x00000000#32),
    StableHlo.TRef.binary (.of main_v138 : StableHlo.TRef sig ⟨S50000x512, .f32⟩) (.of main_call5_cst : StableHlo.TRef sig ⟨S_, .f32⟩) (.of main_call5_v0 : StableHlo.TRef sig ⟨S512, .f32⟩) (fun x v => Host.reduceAdd x v reducesTo_S50000x512_S512_d0 h_S_),
    StableHlo.TRef.unary (.of main_call5_v0 : StableHlo.TRef sig ⟨S512, .f32⟩) (.of main_call5_v1 : StableHlo.TRef sig ⟨S1x512, .f32⟩) (broadcastInDim S1x512 ![1] bcast_S512_S1x512_1),
    StableHlo.TRef.nullary (.of main_call5_cst_0 : StableHlo.TRef sig ⟨S_, .f32⟩) (constant S_ .f32 0x47435000#32),
    StableHlo.TRef.unary (.of main_call5_cst_0 : StableHlo.TRef sig ⟨S_, .f32⟩) (.of main_call5_v2 : StableHlo.TRef sig ⟨S1x512, .f32⟩) (broadcastInDim S1x512 ![] bcast_S_S1x512),
    StableHlo.TRef.binary (.of main_call5_v1 : StableHlo.TRef sig ⟨S1x512, .f32⟩) (.of main_call5_v2 : StableHlo.TRef sig ⟨S1x512, .f32⟩) (.of main_call5_v3 : StableHlo.TRef sig ⟨S1x512, .f32⟩) Host.divf,
    StableHlo.TRef.unary (.of main_call5_v3 : StableHlo.TRef sig ⟨S1x512, .f32⟩) (.of main_call5_v4 : StableHlo.TRef sig ⟨S50000x512, .f32⟩) (broadcastInDim S50000x512 ![0, 1] bcast_S1x512_S50000x512_0_1),
    StableHlo.TRef.binary (.of main_v138 : StableHlo.TRef sig ⟨S50000x512, .f32⟩) (.of main_call5_v4 : StableHlo.TRef sig ⟨S50000x512, .f32⟩) (.of main_call5_v5 : StableHlo.TRef sig ⟨S50000x512, .f32⟩) subf,
    StableHlo.TRef.binary (.of main_call5_v5 : StableHlo.TRef sig ⟨S50000x512, .f32⟩) (.of main_call5_v5 : StableHlo.TRef sig ⟨S50000x512, .f32⟩) (.of main_call5_v6 : StableHlo.TRef sig ⟨S50000x512, .f32⟩) mulf,
    StableHlo.TRef.unary (.of main_c_26 : StableHlo.TRef sig ⟨S_, .i32⟩) (.of main_call5_v7 : StableHlo.TRef sig ⟨S_, .f32⟩) (sitofp .f32),
    StableHlo.TRef.nullary (.of main_call5_cst_1 : StableHlo.TRef sig ⟨S_, .f32⟩) (constant S_ .f32 0x47435000#32),
    StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf,
    StableHlo.TRef.nullary (.of main_call5_cst_2 : StableHlo.TRef sig ⟨S_, .f32⟩) (constant S_ .f32 0x00000000#32),
    StableHlo.TRef.binary (.of main_call5_v6 : StableHlo.TRef sig ⟨S50000x512, .f32⟩) (.of main_call5_cst_2 : StableHlo.TRef sig ⟨S_, .f32⟩) (.of main_call5_v9 : StableHlo.TRef sig ⟨S512, .f32⟩) (fun x v => Host.reduceAdd x v reducesTo_S50000x512_S512_d0 h_S_),
    StableHlo.TRef.unary (.of main_call5_v8 : StableHlo.TRef sig ⟨S_, .f32⟩) (.of main_call5_v10 : StableHlo.TRef sig ⟨S512, .f32⟩) (broadcastInDim S512 ![] bcast_S_S512),
    StableHlo.TRef.binary (.of main_call5_v9 : StableHlo.TRef sig ⟨S512, .f32⟩) (.of main_call5_v10 : StableHlo.TRef sig ⟨S512, .f32⟩) (.of main_call5_v11 : StableHlo.TRef sig ⟨S512, .f32⟩) Host.divf,
    StableHlo.TRef.nullary (.of main_call5_cst_3 : StableHlo.TRef sig ⟨S_, .f32⟩) (constant S_ .f32 0x00000000#32),
    StableHlo.TRef.binary (.of main_call5_v8 : StableHlo.TRef sig ⟨S_, .f32⟩) (.of main_call5_cst_3 : StableHlo.TRef sig ⟨S_, .f32⟩) (.of main_call5_v12 : StableHlo.TRef sig ⟨S_, .i1⟩) (cmpf .ogt),
    StableHlo.TRef.nullary (.of main_call5_cst_4 : StableHlo.TRef sig ⟨S_, .f32⟩) (constant S_ .f32 0x7FC00000#32),
    StableHlo.TRef.unary (.of main_call5_cst_4 : StableHlo.TRef sig ⟨S_, .f32⟩) (.of main_call5_call0_v0 : StableHlo.TRef sig ⟨S_, .f32⟩) id,
    StableHlo.TRef.unary (.of main_call5_call0_v0 : StableHlo.TRef sig ⟨S_, .f32⟩) (.of main_call5_call0_v1 : StableHlo.TRef sig ⟨S512, .f32⟩) (broadcastInDim S512 ![] bcast_S_S512),
    StableHlo.TRef.ternary (.of main_call5_v12 : StableHlo.TRef sig ⟨S_, .i1⟩) (.of main_call5_v11 : StableHlo.TRef sig ⟨S512, .f32⟩) (.of main_call5_call0_v1 : StableHlo.TRef sig ⟨S512, .f32⟩) (.of main_v146 : StableHlo.TRef sig ⟨S512, .f32⟩) (fun p a b => select (broadcastInDim S512 ![] bcast_S_S512 p) a b),
    StableHlo.unary main_v145 main_v147 (broadcastInDim S1x512 ![1] bcast_S512_S1x512_1 : (⟨S512, .f32⟩ : BufTy).Contents (Elt F) → (⟨S1x512, .f32⟩ : BufTy).Contents (Elt F)),
    StableHlo.unary main_v147 main_v148 (broadcastInDim S50000x512 ![0, 1] bcast_S1x512_S50000x512_0_1 : (⟨S1x512, .f32⟩ : BufTy).Contents (Elt F) → (⟨S50000x512, .f32⟩ : BufTy).Contents (Elt F)),
    StableHlo.binary main_v138 main_v148 main_v149 (subf : (⟨S50000x512, .f32⟩ : BufTy).Contents (Elt F) → (⟨S50000x512, .f32⟩ : BufTy).Contents (Elt F) → (⟨S50000x512, .f32⟩ : BufTy).Contents (Elt F)),
    StableHlo.nullary main_cst_27 (constant S_ .f32 0x3727C5AC#32),
    StableHlo.unary main_cst_27 main_v150 (broadcastInDim S512 ![] bcast_S_S512 : (⟨S_, .f32⟩ : BufTy).Contents (Elt F) → (⟨S512, .f32⟩ : BufTy).Contents (Elt F)),
    StableHlo.binary main_v146 main_v150 main_v151 (addf : (⟨S512, .f32⟩ : BufTy).Contents (Elt F) → (⟨S512, .f32⟩ : BufTy).Contents (Elt F) → (⟨S512, .f32⟩ : BufTy).Contents (Elt F)),
    StableHlo.unary main_v151 main_v152 (Host.rsqrt : (⟨S512, .f32⟩ : BufTy).Contents (Elt F) → (⟨S512, .f32⟩ : BufTy).Contents (Elt F)),
    StableHlo.unary main_v152 main_v153 (broadcastInDim S1x512 ![1] bcast_S512_S1x512_1 : (⟨S512, .f32⟩ : BufTy).Contents (Elt F) → (⟨S1x512, .f32⟩ : BufTy).Contents (Elt F)),
    StableHlo.unary main_v153 main_v154 (broadcastInDim S50000x512 ![0, 1] bcast_S1x512_S50000x512_0_1 : (⟨S1x512, .f32⟩ : BufTy).Contents (Elt F) → (⟨S50000x512, .f32⟩ : BufTy).Contents (Elt F)),
    StableHlo.binary main_v149 main_v154 main_v155 (mulf : (⟨S50000x512, .f32⟩ : BufTy).Contents (Elt F) → (⟨S50000x512, .f32⟩ : BufTy).Contents (Elt F) → (⟨S50000x512, .f32⟩ : BufTy).Contents (Elt F)),
    StableHlo.unary main_v140 main_v156 (broadcastInDim S1x512 ![1] bcast_S512_S1x512_1 : (⟨S512, .f32⟩ : BufTy).Contents (Elt F) → (⟨S1x512, .f32⟩ : BufTy).Contents (Elt F)),
    StableHlo.unary main_v156 main_v157 (broadcastInDim S50000x512 ![0, 1] bcast_S1x512_S50000x512_0_1 : (⟨S1x512, .f32⟩ : BufTy).Contents (Elt F) → (⟨S50000x512, .f32⟩ : BufTy).Contents (Elt F)),
    StableHlo.binary main_v155 main_v157 main_v158 (mulf : (⟨S50000x512, .f32⟩ : BufTy).Contents (Elt F) → (⟨S50000x512, .f32⟩ : BufTy).Contents (Elt F) → (⟨S50000x512, .f32⟩ : BufTy).Contents (Elt F)),
    StableHlo.unary main_v142 main_v159 (broadcastInDim S1x512 ![1] bcast_S512_S1x512_1 : (⟨S512, .f32⟩ : BufTy).Contents (Elt F) → (⟨S1x512, .f32⟩ : BufTy).Contents (Elt F)),
    StableHlo.unary main_v159 main_v160 (broadcastInDim S50000x512 ![0, 1] bcast_S1x512_S50000x512_0_1 : (⟨S1x512, .f32⟩ : BufTy).Contents (Elt F) → (⟨S50000x512, .f32⟩ : BufTy).Contents (Elt F)),
    StableHlo.binary main_v158 main_v160 main_v161 (addf : (⟨S50000x512, .f32⟩ : BufTy).Contents (Elt F) → (⟨S50000x512, .f32⟩ : BufTy).Contents (Elt F) → (⟨S50000x512, .f32⟩ : BufTy).Contents (Elt F)),
    StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S50000x512, .f32⟩) (broadcastInDim S50000x512 ![] bcast_S_S50000x512),
    StableHlo.TRef.binary (.of main_v161 : StableHlo.TRef sig ⟨S50000x512, .f32⟩) (.of main_call6_v0 : StableHlo.TRef sig ⟨S50000x512, .f32⟩) (.of main_v162 : StableHlo.TRef sig ⟨S50000x512, .f32⟩) maximumf,
    StableHlo.unary main_arg5 main_v163 ((extractStridedSlice S1x512x512 ![2, 0, 0] · slices_S3x512x512_S1x512x512_2_0_0) : (⟨S3x512x512, .f32⟩ : BufTy).Contents (Elt F) → (⟨S1x512x512, .f32⟩ : BufTy).Contents (Elt F)),
    StableHlo.reshape main_v163 main_v164 rfl shapeCasts_S1x512x512_S512x512,
    StableHlo.unary main_arg6 main_v165 ((extractStridedSlice S1x512 ![2, 0] · slices_S3x512_S1x512_2_0) : (⟨S3x512, .f32⟩ : BufTy).Contents (Elt F) → (⟨S1x512, .f32⟩ : BufTy).Contents (Elt F)),
    StableHlo.reshape main_v165 main_v166 rfl shapeCasts_S1x512_S512 ]
theorem host3_sub : (host3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub ..⟩

/-- 1 operations. -/
abbrev prod3 : List (HloOp τ sig (Elt F)) :=
  [ StableHlo.binary main_v162 main_v164 main_v167 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)) ]
theorem prod3_sub : (prod3 : List (HloOp τ sig (Elt F))).Forall fun op => op.bufs ⊆ StableHlo.tcRefs τ sig :=
  StableHlo.binary_bufs_sub ..

/-- 134 operations. -/
abbrev host4 : List (HloOp τ sig (Elt F)) :=
  [ StableHlo.nullary main_c_28 (constantI S_ 32 0#32),
    StableHlo.unary main_c_28 main_v168 (broadcastInDim S200000 ![] bcast_S_S200000 : (⟨S_, .i32⟩ : BufTy).Contents (Elt F) → (⟨S200000, .i32⟩ : BufTy).Contents (Elt F)),
    StableHlo.binary main_v3 main_v168 main_v169 (cmpi .slt : (⟨S200000, .i32⟩ : BufTy).Contents (Elt F) → (⟨S200000, .i32⟩ : BufTy).Contents (Elt F) → (⟨S200000, .i1⟩ : BufTy).Contents (Elt F)),
    StableHlo.nullary main_c_29 (constantI S_ 32 50000#32),
    StableHlo.unary main_c_29 main_v170 (broadcastInDim S200000 ![] bcast_S_S200000 : (⟨S_, .i32⟩ : BufTy).Contents (Elt F) → (⟨S200000, .i32⟩ : BufTy).Contents (Elt F)),
    StableHlo.binary main_v3 main_v170 main_v171 (addi : (⟨S200000, .i32⟩ : BufTy).Contents (Elt F) → (⟨S200000, .i32⟩ : BufTy).Contents (Elt F) → (⟨S200000, .i32⟩ : BufTy).Contents (Elt F)),
    StableHlo.ternary main_v169 main_v171 main_v3 main_v172 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v172 main_v173 (broadcastInDim S200000x1 ![0] bcast_S200000_S200000x1_0 : (⟨S200000, .i32⟩ : BufTy).Contents (Elt F) → (⟨S200000x1, .i32⟩ : BufTy).Contents (Elt F)),
    StableHlo.binary main_v167 main_v173 main_v174 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F)),
    StableHlo.unary main_v31 main_v175 (broadcastInDim S200000x1 ![0] bcast_S200000_S200000x1_0 : (⟨S200000, .f32⟩ : BufTy).Contents (Elt F) → (⟨S200000x1, .f32⟩ : BufTy).Contents (Elt F)),
    StableHlo.unary main_v175 main_v176 (broadcastInDim S200000x512 ![0, 1] bcast_S200000x1_S200000x512_0_1 : (⟨S200000x1, .f32⟩ : BufTy).Contents (Elt F) → (⟨S200000x512, .f32⟩ : BufTy).Contents (Elt F)),
    StableHlo.binary main_v174 main_v176 main_v177 (mulf : (⟨S200000x512, .f32⟩ : BufTy).Contents (Elt F) → (⟨S200000x512, .f32⟩ : BufTy).Contents (Elt F) → (⟨S200000x512, .f32⟩ : BufTy).Contents (Elt F)),
    StableHlo.nullary main_cst_30 (constant S_ .f32 0x00000000#32),
    StableHlo.unary main_cst_30 main_v178 (broadcastInDim S50000x512 ![] bcast_S_S50000x512 : (⟨S_, .f32⟩ : BufTy).Contents (Elt F) → (⟨S50000x512, .f32⟩ : BufTy).Contents (Elt F)),
    StableHlo.unary main_v6 main_v179 (broadcastInDim S200000x1 ![0] bcast_S200000_S200000x1_0 : (⟨S200000, .i32⟩ : BufTy).Contents (Elt F) → (⟨S200000x1, .i32⟩ : BufTy).Contents (Elt F)),
    StableHlo.ternary main_v178 main_v179 main_v177 main_v180 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F)),
    StableHlo.unary main_v166 main_v181 (broadcastInDim S1x512 ![1] bcast_S512_S1x512_1 : (⟨S512, .f32⟩ : BufTy).Contents (Elt F) → (⟨S1x512, .f32⟩ : BufTy).Contents (Elt F)),
    StableHlo.unary main_v181 main_v182 (broadcastInDim S50000x512 ![0, 1] bcast_S1x512_S50000x512_0_1 : (⟨S1x512, .f32⟩ : BufTy).Contents (Elt F) → (⟨S50000x512, .f32⟩ : BufTy).Contents (Elt F)),
    StableHlo.binary main_v180 main_v182 main_v183 (addf : (⟨S50000x512, .f32⟩ : BufTy).Contents (Elt F) → (⟨S50000x512, .f32⟩ : BufTy).Contents (Elt F) → (⟨S50000x512, .f32⟩ : BufTy).Contents (Elt F)),
    StableHlo.unary main_arg7 main_v184 ((extractStridedSlice S1x512 ![3, 0] · slices_S5x512_S1x512_3_0) : (⟨S5x512, .f32⟩ : BufTy).Contents (Elt F) → (⟨S1x512, .f32⟩ : BufTy).Contents (Elt F)),
    StableHlo.reshape main_v184 main_v185 rfl shapeCasts_S1x512_S512,
    StableHlo.unary main_arg8 main_v186 ((extractStridedSlice S1x512 ![3, 0] · slices_S5x512_S1x512_3_0) : (⟨S5x512, .f32⟩ : BufTy).Contents (Elt F) → (⟨S1x512, .f32⟩ : BufTy).Contents (Elt F)),
    StableHlo.reshape main_v186 main_v187 rfl shapeCasts_S1x512_S512,
    StableHlo.nullary main_cst_31 (constant S_ .f32 0x00000000#32),
    StableHlo.binary main_v183 main_cst_31 main_v188 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_32 (constant S_ .f32 0x47435000#32),
    StableHlo.unary main_cst_32 main_v189 (broadcastInDim S512 ![] bcast_S_S512 : (⟨S_, .f32⟩ : BufTy).Contents (Elt F) → (⟨S512, .f32⟩ : BufTy).Contents (Elt F)),
    StableHlo.binary main_v188 main_v189 main_v190 (Host.divf : (⟨S512, .f32⟩ : BufTy).Contents (Elt F) → (⟨S512, .f32⟩ : BufTy).Contents (Elt F) → (⟨S512, .f32⟩ : BufTy).Contents (Elt F)),
    StableHlo.nullary main_c_33 (constantI S_ 32 0#32),
    StableHlo.TRef.nullary (.of main_call7_cst : StableHlo.TRef sig ⟨S_, .f32⟩) (constant S_ .f32 0x00000000#32),
    StableHlo.TRef.binary (.of main_v183 : StableHlo.TRef sig ⟨S50000x512, .f32⟩) (.of main_call7_cst : StableHlo.TRef sig ⟨S_, .f32⟩) (.of main_call7_v0 : StableHlo.TRef sig ⟨S512, .f32⟩) (fun x v => Host.reduceAdd x v reducesTo_S50000x512_S512_d0 h_S_),
    StableHlo.TRef.unary (.of main_call7_v0 : StableHlo.TRef sig ⟨S512, .f32⟩) (.of main_call7_v1 : StableHlo.TRef sig ⟨S1x512, .f32⟩) (broadcastInDim S1x512 ![1] bcast_S512_S1x512_1),
    StableHlo.TRef.nullary (.of main_call7_cst_0 : StableHlo.TRef sig ⟨S_, .f32⟩) (constant S_ .f32 0x47435000#32),
    StableHlo.TRef.unary (.of main_call7_cst_0 : StableHlo.TRef sig ⟨S_, .f32⟩) (.of main_call7_v2 : StableHlo.TRef sig ⟨S1x512, .f32⟩) (broadcastInDim S1x512 ![] bcast_S_S1x512),
    StableHlo.TRef.binary (.of main_call7_v1 : StableHlo.TRef sig ⟨S1x512, .f32⟩) (.of main_call7_v2 : StableHlo.TRef sig ⟨S1x512, .f32⟩) (.of main_call7_v3 : StableHlo.TRef sig ⟨S1x512, .f32⟩) Host.divf,
    StableHlo.TRef.unary (.of main_call7_v3 : StableHlo.TRef sig ⟨S1x512, .f32⟩) (.of main_call7_v4 : StableHlo.TRef sig ⟨S50000x512, .f32⟩) (broadcastInDim S50000x512 ![0, 1] bcast_S1x512_S50000x512_0_1),
    StableHlo.TRef.binary (.of main_v183 : StableHlo.TRef sig ⟨S50000x512, .f32⟩) (.of main_call7_v4 : StableHlo.TRef sig ⟨S50000x512, .f32⟩) (.of main_call7_v5 : StableHlo.TRef sig ⟨S50000x512, .f32⟩) subf,
    StableHlo.TRef.binary (.of main_call7_v5 : StableHlo.TRef sig ⟨S50000x512, .f32⟩) (.of main_call7_v5 : StableHlo.TRef sig ⟨S50000x512, .f32⟩) (.of main_call7_v6 : StableHlo.TRef sig ⟨S50000x512, .f32⟩) mulf,
    StableHlo.TRef.unary (.of main_c_33 : StableHlo.TRef sig ⟨S_, .i32⟩) (.of main_call7_v7 : StableHlo.TRef sig ⟨S_, .f32⟩) (sitofp .f32),
    StableHlo.TRef.nullary (.of main_call7_cst_1 : StableHlo.TRef sig ⟨S_, .f32⟩) (constant S_ .f32 0x47435000#32),
    StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf,
    StableHlo.TRef.nullary (.of main_call7_cst_2 : StableHlo.TRef sig ⟨S_, .f32⟩) (constant S_ .f32 0x00000000#32),
    StableHlo.TRef.binary (.of main_call7_v6 : StableHlo.TRef sig ⟨S50000x512, .f32⟩) (.of main_call7_cst_2 : StableHlo.TRef sig ⟨S_, .f32⟩) (.of main_call7_v9 : StableHlo.TRef sig ⟨S512, .f32⟩) (fun x v => Host.reduceAdd x v reducesTo_S50000x512_S512_d0 h_S_),
    StableHlo.TRef.unary (.of main_call7_v8 : StableHlo.TRef sig ⟨S_, .f32⟩) (.of main_call7_v10 : StableHlo.TRef sig ⟨S512, .f32⟩) (broadcastInDim S512 ![] bcast_S_S512),
    StableHlo.TRef.binary (.of main_call7_v9 : StableHlo.TRef sig ⟨S512, .f32⟩) (.of main_call7_v10 : StableHlo.TRef sig ⟨S512, .f32⟩) (.of main_call7_v11 : StableHlo.TRef sig ⟨S512, .f32⟩) Host.divf,
    StableHlo.TRef.nullary (.of main_call7_cst_3 : StableHlo.TRef sig ⟨S_, .f32⟩) (constant S_ .f32 0x00000000#32),
    StableHlo.TRef.binary (.of main_call7_v8 : StableHlo.TRef sig ⟨S_, .f32⟩) (.of main_call7_cst_3 : StableHlo.TRef sig ⟨S_, .f32⟩) (.of main_call7_v12 : StableHlo.TRef sig ⟨S_, .i1⟩) (cmpf .ogt),
    StableHlo.TRef.nullary (.of main_call7_cst_4 : StableHlo.TRef sig ⟨S_, .f32⟩) (constant S_ .f32 0x7FC00000#32),
    StableHlo.TRef.unary (.of main_call7_cst_4 : StableHlo.TRef sig ⟨S_, .f32⟩) (.of main_call7_call0_v0 : StableHlo.TRef sig ⟨S_, .f32⟩) id,
    StableHlo.TRef.unary (.of main_call7_call0_v0 : StableHlo.TRef sig ⟨S_, .f32⟩) (.of main_call7_call0_v1 : StableHlo.TRef sig ⟨S512, .f32⟩) (broadcastInDim S512 ![] bcast_S_S512),
    StableHlo.TRef.ternary (.of main_call7_v12 : StableHlo.TRef sig ⟨S_, .i1⟩) (.of main_call7_v11 : StableHlo.TRef sig ⟨S512, .f32⟩) (.of main_call7_call0_v1 : StableHlo.TRef sig ⟨S512, .f32⟩) (.of main_v191 : StableHlo.TRef sig ⟨S512, .f32⟩) (fun p a b => select (broadcastInDim S512 ![] bcast_S_S512 p) a b),
    StableHlo.unary main_v190 main_v192 (broadcastInDim S1x512 ![1] bcast_S512_S1x512_1 : (⟨S512, .f32⟩ : BufTy).Contents (Elt F) → (⟨S1x512, .f32⟩ : BufTy).Contents (Elt F)),
    StableHlo.unary main_v192 main_v193 (broadcastInDim S50000x512 ![0, 1] bcast_S1x512_S50000x512_0_1 : (⟨S1x512, .f32⟩ : BufTy).Contents (Elt F) → (⟨S50000x512, .f32⟩ : BufTy).Contents (Elt F)),
    StableHlo.binary main_v183 main_v193 main_v194 (subf : (⟨S50000x512, .f32⟩ : BufTy).Contents (Elt F) → (⟨S50000x512, .f32⟩ : BufTy).Contents (Elt F) → (⟨S50000x512, .f32⟩ : BufTy).Contents (Elt F)),
    StableHlo.nullary main_cst_34 (constant S_ .f32 0x3727C5AC#32),
    StableHlo.unary main_cst_34 main_v195 (broadcastInDim S512 ![] bcast_S_S512 : (⟨S_, .f32⟩ : BufTy).Contents (Elt F) → (⟨S512, .f32⟩ : BufTy).Contents (Elt F)),
    StableHlo.binary main_v191 main_v195 main_v196 (addf : (⟨S512, .f32⟩ : BufTy).Contents (Elt F) → (⟨S512, .f32⟩ : BufTy).Contents (Elt F) → (⟨S512, .f32⟩ : BufTy).Contents (Elt F)),
    StableHlo.unary main_v196 main_v197 (Host.rsqrt : (⟨S512, .f32⟩ : BufTy).Contents (Elt F) → (⟨S512, .f32⟩ : BufTy).Contents (Elt F)),
    StableHlo.unary main_v197 main_v198 (broadcastInDim S1x512 ![1] bcast_S512_S1x512_1 : (⟨S512, .f32⟩ : BufTy).Contents (Elt F) → (⟨S1x512, .f32⟩ : BufTy).Contents (Elt F)),
    StableHlo.unary main_v198 main_v199 (broadcastInDim S50000x512 ![0, 1] bcast_S1x512_S50000x512_0_1 : (⟨S1x512, .f32⟩ : BufTy).Contents (Elt F) → (⟨S50000x512, .f32⟩ : BufTy).Contents (Elt F)),
    StableHlo.binary main_v194 main_v199 main_v200 (mulf : (⟨S50000x512, .f32⟩ : BufTy).Contents (Elt F) → (⟨S50000x512, .f32⟩ : BufTy).Contents (Elt F) → (⟨S50000x512, .f32⟩ : BufTy).Contents (Elt F)),
    StableHlo.unary main_v185 main_v201 (broadcastInDim S1x512 ![1] bcast_S512_S1x512_1 : (⟨S512, .f32⟩ : BufTy).Contents (Elt F) → (⟨S1x512, .f32⟩ : BufTy).Contents (Elt F)),
    StableHlo.unary main_v201 main_v202 (broadcastInDim S50000x512 ![0, 1] bcast_S1x512_S50000x512_0_1 : (⟨S1x512, .f32⟩ : BufTy).Contents (Elt F) → (⟨S50000x512, .f32⟩ : BufTy).Contents (Elt F)),
    StableHlo.binary main_v200 main_v202 main_v203 (mulf : (⟨S50000x512, .f32⟩ : BufTy).Contents (Elt F) → (⟨S50000x512, .f32⟩ : BufTy).Contents (Elt F) → (⟨S50000x512, .f32⟩ : BufTy).Contents (Elt F)),
    StableHlo.unary main_v187 main_v204 (broadcastInDim S1x512 ![1] bcast_S512_S1x512_1 : (⟨S512, .f32⟩ : BufTy).Contents (Elt F) → (⟨S1x512, .f32⟩ : BufTy).Contents (Elt F)),
    StableHlo.unary main_v204 main_v205 (broadcastInDim S50000x512 ![0, 1] bcast_S1x512_S50000x512_0_1 : (⟨S1x512, .f32⟩ : BufTy).Contents (Elt F) → (⟨S50000x512, .f32⟩ : BufTy).Contents (Elt F)),
    StableHlo.binary main_v203 main_v205 main_v206 (addf : (⟨S50000x512, .f32⟩ : BufTy).Contents (Elt F) → (⟨S50000x512, .f32⟩ : BufTy).Contents (Elt F) → (⟨S50000x512, .f32⟩ : BufTy).Contents (Elt F)),
    StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S50000x512, .f32⟩) (broadcastInDim S50000x512 ![] bcast_S_S50000x512),
    StableHlo.TRef.binary (.of main_v206 : StableHlo.TRef sig ⟨S50000x512, .f32⟩) (.of main_call8_v0 : StableHlo.TRef sig ⟨S50000x512, .f32⟩) (.of main_v207 : StableHlo.TRef sig ⟨S50000x512, .f32⟩) maximumf,
    StableHlo.nullary main_cst_35 (constant S_ .f32 0x3F800000#32),
    StableHlo.unary main_cst_35 main_v208 (broadcastInDim S50000 ![] bcast_S_S50000 : (⟨S_, .f32⟩ : BufTy).Contents (Elt F) → (⟨S50000, .f32⟩ : BufTy).Contents (Elt F)),
    StableHlo.nullary main_cst_36 (constant S_ .f32 0x00000000#32),
    StableHlo.unary main_cst_36 main_v209 (broadcastInDim S2048 ![] bcast_S_S2048 : (⟨S_, .f32⟩ : BufTy).Contents (Elt F) → (⟨S2048, .f32⟩ : BufTy).Contents (Elt F)),
    StableHlo.unary main_arg2 main_v210 (broadcastInDim S50000x1 ![0] bcast_S50000_S50000x1_0 : (⟨S50000, .i32⟩ : BufTy).Contents (Elt F) → (⟨S50000x1, .i32⟩ : BufTy).Contents (Elt F)),
    StableHlo.ternary main_v209 main_v210 main_v208 main_v211 ((fun x i u => Host.scatterAdd scatter_S2048_S50000x1_S50000_n_0_0_1 x i u) : (⟨S2048, .f32⟩ : BufTy).Contents (Elt F) → (⟨S50000x1, .i32⟩ : BufTy).Contents (Elt F) → (⟨S50000, .f32⟩ : BufTy).Contents (Elt F) → (⟨S2048, .f32⟩ : BufTy).Contents (Elt F)),
    StableHlo.nullary main_cst_37 (constant S_ .f32 0x00000000#32),
    StableHlo.unary main_cst_37 main_v212 (broadcastInDim S2048x512 ![] bcast_S_S2048x512 : (⟨S_, .f32⟩ : BufTy).Contents (Elt F) → (⟨S2048x512, .f32⟩ : BufTy).Contents (Elt F)),
    StableHlo.unary main_arg2 main_v213 (broadcastInDim S50000x1 ![0] bcast_S50000_S50000x1_0 : (⟨S50000, .i32⟩ : BufTy).Contents (Elt F) → (⟨S50000x1, .i32⟩ : BufTy).Contents (Elt F)),
    StableHlo.ternary main_v212 main_v213 main_v207 main_v214 ((fun x i u => Host.scatterAdd scatter_S2048x512_S50000x1_S50000x512_1_0_0_1 x i u) : (⟨S2048x512, .f32⟩ : BufTy).Contents (Elt F) → (⟨S50000x1, .i32⟩ : BufTy).Contents (Elt F) → (⟨S50000x512, .f32⟩ : BufTy).Contents (Elt F) → (⟨S2048x512, .f32⟩ : BufTy).Contents (Elt F)),
    StableHlo.nullary main_cst_38 (constant S_ .f32 0x3F800000#32),
    StableHlo.unary main_cst_38 main_v215 (broadcastInDim S2048 ![] bcast_S_S2048 : (⟨S_, .f32⟩ : BufTy).Contents (Elt F) → (⟨S2048, .f32⟩ : BufTy).Contents (Elt F)),
    StableHlo.binary main_v211 main_v215 main_v216 (maximumf : (⟨S2048, .f32⟩ : BufTy).Contents (Elt F) → (⟨S2048, .f32⟩ : BufTy).Contents (Elt F) → (⟨S2048, .f32⟩ : BufTy).Contents (Elt F)),
    StableHlo.unary main_v216 main_v217 (broadcastInDim S2048x1 ![0] bcast_S2048_S2048x1_0 : (⟨S2048, .f32⟩ : BufTy).Contents (Elt F) → (⟨S2048x1, .f32⟩ : BufTy).Contents (Elt F)),
    StableHlo.unary main_v217 main_v218 (broadcastInDim S2048x512 ![0, 1] bcast_S2048x1_S2048x512_0_1 : (⟨S2048x1, .f32⟩ : BufTy).Contents (Elt F) → (⟨S2048x512, .f32⟩ : BufTy).Contents (Elt F)),
    StableHlo.binary main_v214 main_v218 main_v219 (Host.divf : (⟨S2048x512, .f32⟩ : BufTy).Contents (Elt F) → (⟨S2048x512, .f32⟩ : BufTy).Contents (Elt F) → (⟨S2048x512, .f32⟩ : BufTy).Contents (Elt F)),
    StableHlo.unary main_arg7 main_v220 ((extractStridedSlice S1x512 ![4, 0] · slices_S5x512_S1x512_4_0) : (⟨S5x512, .f32⟩ : BufTy).Contents (Elt F) → (⟨S1x512, .f32⟩ : BufTy).Contents (Elt F)),
    StableHlo.reshape main_v220 main_v221 rfl shapeCasts_S1x512_S512,
    StableHlo.unary main_arg8 main_v222 ((extractStridedSlice S1x512 ![4, 0] · slices_S5x512_S1x512_4_0) : (⟨S5x512, .f32⟩ : BufTy).Contents (Elt F) → (⟨S1x512, .f32⟩ : BufTy).Contents (Elt F)),
    StableHlo.reshape main_v222 main_v223 rfl shapeCasts_S1x512_S512,
    StableHlo.nullary main_cst_39 (constant S_ .f32 0x00000000#32),
    StableHlo.binary main_v219 main_cst_39 main_v224 ((fun x v => Host.reduceAdd x v reducesTo_S2048x512_S512_d0 h_S_) : (⟨S2048x512, .f32⟩ : BufTy).Contents (Elt F) → (⟨S_, .f32⟩ : BufTy).Contents (Elt F) → (⟨S512, .f32⟩ : BufTy).Contents (Elt F)),
    StableHlo.nullary main_cst_40 (constant S_ .f32 0x45000000#32),
    StableHlo.unary main_cst_40 main_v225 (broadcastInDim S512 ![] bcast_S_S512 : (⟨S_, .f32⟩ : BufTy).Contents (Elt F) → (⟨S512, .f32⟩ : BufTy).Contents (Elt F)),
    StableHlo.binary main_v224 main_v225 main_v226 (Host.divf : (⟨S512, .f32⟩ : BufTy).Contents (Elt F) → (⟨S512, .f32⟩ : BufTy).Contents (Elt F) → (⟨S512, .f32⟩ : BufTy).Contents (Elt F)),
    StableHlo.nullary main_c_41 (constantI S_ 32 0#32),
    StableHlo.TRef.nullary (.of main_call9_cst : StableHlo.TRef sig ⟨S_, .f32⟩) (constant S_ .f32 0x00000000#32),
    StableHlo.TRef.binary (.of main_v219 : StableHlo.TRef sig ⟨S2048x512, .f32⟩) (.of main_call9_cst : StableHlo.TRef sig ⟨S_, .f32⟩) (.of main_call9_v0 : StableHlo.TRef sig ⟨S512, .f32⟩) (fun x v => Host.reduceAdd x v reducesTo_S2048x512_S512_d0 h_S_),
    StableHlo.TRef.unary (.of main_call9_v0 : StableHlo.TRef sig ⟨S512, .f32⟩) (.of main_call9_v1 : StableHlo.TRef sig ⟨S1x512, .f32⟩) (broadcastInDim S1x512 ![1] bcast_S512_S1x512_1),
    StableHlo.TRef.nullary (.of main_call9_cst_0 : StableHlo.TRef sig ⟨S_, .f32⟩) (constant S_ .f32 0x45000000#32),
    StableHlo.TRef.unary (.of main_call9_cst_0 : StableHlo.TRef sig ⟨S_, .f32⟩) (.of main_call9_v2 : StableHlo.TRef sig ⟨S1x512, .f32⟩) (broadcastInDim S1x512 ![] bcast_S_S1x512),
    StableHlo.TRef.binary (.of main_call9_v1 : StableHlo.TRef sig ⟨S1x512, .f32⟩) (.of main_call9_v2 : StableHlo.TRef sig ⟨S1x512, .f32⟩) (.of main_call9_v3 : StableHlo.TRef sig ⟨S1x512, .f32⟩) Host.divf,
    StableHlo.TRef.unary (.of main_call9_v3 : StableHlo.TRef sig ⟨S1x512, .f32⟩) (.of main_call9_v4 : StableHlo.TRef sig ⟨S2048x512, .f32⟩) (broadcastInDim S2048x512 ![0, 1] bcast_S1x512_S2048x512_0_1),
    StableHlo.TRef.binary (.of main_v219 : StableHlo.TRef sig ⟨S2048x512, .f32⟩) (.of main_call9_v4 : StableHlo.TRef sig ⟨S2048x512, .f32⟩) (.of main_call9_v5 : StableHlo.TRef sig ⟨S2048x512, .f32⟩) subf,
    StableHlo.TRef.binary (.of main_call9_v5 : StableHlo.TRef sig ⟨S2048x512, .f32⟩) (.of main_call9_v5 : StableHlo.TRef sig ⟨S2048x512, .f32⟩) (.of main_call9_v6 : StableHlo.TRef sig ⟨S2048x512, .f32⟩) mulf,
    StableHlo.TRef.unary (.of main_c_41 : StableHlo.TRef sig ⟨S_, .i32⟩) (.of main_call9_v7 : StableHlo.TRef sig ⟨S_, .f32⟩) (sitofp .f32),
    StableHlo.TRef.nullary (.of main_call9_cst_1 : StableHlo.TRef sig ⟨S_, .f32⟩) (constant S_ .f32 0x45000000#32),
    StableHlo.TRef.binary (.of main_call9_cst_1 : StableHlo.TRef sig ⟨S_, .f32⟩) (.of main_call9_v7 : StableHlo.TRef sig ⟨S_, .f32⟩) (.of main_call9_v8 : StableHlo.TRef sig ⟨S_, .f32⟩) subf,
    StableHlo.TRef.nullary (.of main_call9_cst_2 : StableHlo.TRef sig ⟨S_, .f32⟩) (constant S_ .f32 0x00000000#32),
    StableHlo.TRef.binary (.of main_call9_v6 : StableHlo.TRef sig ⟨S2048x512, .f32⟩) (.of main_call9_cst_2 : StableHlo.TRef sig ⟨S_, .f32⟩) (.of main_call9_v9 : StableHlo.TRef sig ⟨S512, .f32⟩) (fun x v => Host.reduceAdd x v reducesTo_S2048x512_S512_d0 h_S_),
    StableHlo.TRef.unary (.of main_call9_v8 : StableHlo.TRef sig ⟨S_, .f32⟩) (.of main_call9_v10 : StableHlo.TRef sig ⟨S512, .f32⟩) (broadcastInDim S512 ![] bcast_S_S512),
    StableHlo.TRef.binary (.of main_call9_v9 : StableHlo.TRef sig ⟨S512, .f32⟩) (.of main_call9_v10 : StableHlo.TRef sig ⟨S512, .f32⟩) (.of main_call9_v11 : StableHlo.TRef sig ⟨S512, .f32⟩) Host.divf,
    StableHlo.TRef.nullary (.of main_call9_cst_3 : StableHlo.TRef sig ⟨S_, .f32⟩) (constant S_ .f32 0x00000000#32),
    StableHlo.TRef.binary (.of main_call9_v8 : StableHlo.TRef sig ⟨S_, .f32⟩) (.of main_call9_cst_3 : StableHlo.TRef sig ⟨S_, .f32⟩) (.of main_call9_v12 : StableHlo.TRef sig ⟨S_, .i1⟩) (cmpf .ogt),
    StableHlo.TRef.nullary (.of main_call9_cst_4 : StableHlo.TRef sig ⟨S_, .f32⟩) (constant S_ .f32 0x7FC00000#32),
    StableHlo.TRef.unary (.of main_call9_cst_4 : StableHlo.TRef sig ⟨S_, .f32⟩) (.of main_call9_call0_v0 : StableHlo.TRef sig ⟨S_, .f32⟩) id,
    StableHlo.TRef.unary (.of main_call9_call0_v0 : StableHlo.TRef sig ⟨S_, .f32⟩) (.of main_call9_call0_v1 : StableHlo.TRef sig ⟨S512, .f32⟩) (broadcastInDim S512 ![] bcast_S_S512),
    StableHlo.TRef.ternary (.of main_call9_v12 : StableHlo.TRef sig ⟨S_, .i1⟩) (.of main_call9_v11 : StableHlo.TRef sig ⟨S512, .f32⟩) (.of main_call9_call0_v1 : StableHlo.TRef sig ⟨S512, .f32⟩) (.of main_v227 : StableHlo.TRef sig ⟨S512, .f32⟩) (fun p a b => select (broadcastInDim S512 ![] bcast_S_S512 p) a b),
    StableHlo.unary main_v226 main_v228 (broadcastInDim S1x512 ![1] bcast_S512_S1x512_1 : (⟨S512, .f32⟩ : BufTy).Contents (Elt F) → (⟨S1x512, .f32⟩ : BufTy).Contents (Elt F)),
    StableHlo.unary main_v228 main_v229 (broadcastInDim S2048x512 ![0, 1] bcast_S1x512_S2048x512_0_1 : (⟨S1x512, .f32⟩ : BufTy).Contents (Elt F) → (⟨S2048x512, .f32⟩ : BufTy).Contents (Elt F)),
    StableHlo.binary main_v219 main_v229 main_v230 (subf : (⟨S2048x512, .f32⟩ : BufTy).Contents (Elt F) → (⟨S2048x512, .f32⟩ : BufTy).Contents (Elt F) → (⟨S2048x512, .f32⟩ : BufTy).Contents (Elt F)),
    StableHlo.nullary main_cst_42 (constant S_ .f32 0x3727C5AC#32),
    StableHlo.unary main_cst_42 main_v231 (broadcastInDim S512 ![] bcast_S_S512 : (⟨S_, .f32⟩ : BufTy).Contents (Elt F) → (⟨S512, .f32⟩ : BufTy).Contents (Elt F)),
    StableHlo.binary main_v227 main_v231 main_v232 (addf : (⟨S512, .f32⟩ : BufTy).Contents (Elt F) → (⟨S512, .f32⟩ : BufTy).Contents (Elt F) → (⟨S512, .f32⟩ : BufTy).Contents (Elt F)),
    StableHlo.unary main_v232 main_v233 (Host.rsqrt : (⟨S512, .f32⟩ : BufTy).Contents (Elt F) → (⟨S512, .f32⟩ : BufTy).Contents (Elt F)),
    StableHlo.unary main_v233 main_v234 (broadcastInDim S1x512 ![1] bcast_S512_S1x512_1 : (⟨S512, .f32⟩ : BufTy).Contents (Elt F) → (⟨S1x512, .f32⟩ : BufTy).Contents (Elt F)),
    StableHlo.unary main_v234 main_v235 (broadcastInDim S2048x512 ![0, 1] bcast_S1x512_S2048x512_0_1 : (⟨S1x512, .f32⟩ : BufTy).Contents (Elt F) → (⟨S2048x512, .f32⟩ : BufTy).Contents (Elt F)),
    StableHlo.binary main_v230 main_v235 main_v236 (mulf : (⟨S2048x512, .f32⟩ : BufTy).Contents (Elt F) → (⟨S2048x512, .f32⟩ : BufTy).Contents (Elt F) → (⟨S2048x512, .f32⟩ : BufTy).Contents (Elt F)),
    StableHlo.unary main_v221 main_v237 (broadcastInDim S1x512 ![1] bcast_S512_S1x512_1 : (⟨S512, .f32⟩ : BufTy).Contents (Elt F) → (⟨S1x512, .f32⟩ : BufTy).Contents (Elt F)),
    StableHlo.unary main_v237 main_v238 (broadcastInDim S2048x512 ![0, 1] bcast_S1x512_S2048x512_0_1 : (⟨S1x512, .f32⟩ : BufTy).Contents (Elt F) → (⟨S2048x512, .f32⟩ : BufTy).Contents (Elt F)),
    StableHlo.binary main_v236 main_v238 main_v239 (mulf : (⟨S2048x512, .f32⟩ : BufTy).Contents (Elt F) → (⟨S2048x512, .f32⟩ : BufTy).Contents (Elt F) → (⟨S2048x512, .f32⟩ : BufTy).Contents (Elt F)),
    StableHlo.unary main_v223 main_v240 (broadcastInDim S1x512 ![1] bcast_S512_S1x512_1 : (⟨S512, .f32⟩ : BufTy).Contents (Elt F) → (⟨S1x512, .f32⟩ : BufTy).Contents (Elt F)),
    StableHlo.unary main_v240 main_v241 (broadcastInDim S2048x512 ![0, 1] bcast_S1x512_S2048x512_0_1 : (⟨S1x512, .f32⟩ : BufTy).Contents (Elt F) → (⟨S2048x512, .f32⟩ : BufTy).Contents (Elt F)),
    StableHlo.binary main_v239 main_v241 main_v242 (addf : (⟨S2048x512, .f32⟩ : BufTy).Contents (Elt F) → (⟨S2048x512, .f32⟩ : BufTy).Contents (Elt F) → (⟨S2048x512, .f32⟩ : BufTy).Contents (Elt F)) ]
theorem host4_sub : (host4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- 7 operations. -/
abbrev prod4 : List (HloOp τ sig (Elt F)) :=
  [ StableHlo.binary main_v242 main_arg9 main_v243 ((fun l r => Host.dotGeneral dot_S2048x512_S512x512_S2048x512_1_0_0_1_n_n none l r) : (⟨S2048x512, .f32⟩ : BufTy).Contents (Elt F) → (⟨S512x512, .f32⟩ : BufTy).Contents (Elt F) → (⟨S2048x512, .f32⟩ : BufTy).Contents (Elt F)),
    StableHlo.unary main_arg10 main_v244 (broadcastInDim S1x512 ![1] bcast_S512_S1x512_1 : (⟨S512, .f32⟩ : BufTy).Contents (Elt F) → (⟨S1x512, .f32⟩ : BufTy).Contents (Elt F)),
    StableHlo.unary main_v244 main_v245 (broadcastInDim S2048x512 ![0, 1] bcast_S1x512_S2048x512_0_1 : (⟨S1x512, .f32⟩ : BufTy).Contents (Elt F) → (⟨S2048x512, .f32⟩ : BufTy).Contents (Elt F)),
    StableHlo.binary main_v243 main_v245 main_v246 (addf : (⟨S2048x512, .f32⟩ : BufTy).Contents (Elt F) → (⟨S2048x512, .f32⟩ : BufTy).Contents (Elt F) → (⟨S2048x512, .f32⟩ : BufTy).Contents (Elt F)),
    StableHlo.TRef.nullary (.of main_call10_cst : StableHlo.TRef sig ⟨S_, .f32⟩) (constant S_ .f32 0x00000000#32),
    StableHlo.TRef.unary (.of main_call10_cst : StableHlo.TRef sig ⟨S_, .f32⟩) (.of main_call10_v0 : StableHlo.TRef sig ⟨S2048x512, .f32⟩) (broadcastInDim S2048x512 ![] bcast_S_S2048x512),
    StableHlo.TRef.binary (.of main_v246 : StableHlo.TRef sig ⟨S2048x512, .f32⟩) (.of main_call10_v0 : StableHlo.TRef sig ⟨S2048x512, .f32⟩) (.of main_v247 : StableHlo.TRef sig ⟨S2048x512, .f32⟩) maximumf ]
theorem prod4_sub : (prod4 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- 4 operations. -/
abbrev host5 : List (HloOp τ sig (Elt F)) :=
  [ StableHlo.binary main_v247 main_arg11 main_v248 ((fun l r => Host.dotGeneral dot_S2048x512_S512x1_S2048x1_1_0_0_1_n_n none l r) : (⟨S2048x512, .f32⟩ : BufTy).Contents (Elt F) → (⟨S512x1, .f32⟩ : BufTy).Contents (Elt F) → (⟨S2048x1, .f32⟩ : BufTy).Contents (Elt F)),
    StableHlo.unary main_arg12 main_v249 (broadcastInDim S1x1 ![1] bcast_S1_S1x1_1 : (⟨S1, .f32⟩ : BufTy).Contents (Elt F) → (⟨S1x1, .f32⟩ : BufTy).Contents (Elt F)),
    StableHlo.unary main_v249 main_v250 (broadcastInDim S2048x1 ![0, 1] bcast_S1x1_S2048x1_0_1 : (⟨S1x1, .f32⟩ : BufTy).Contents (Elt F) → (⟨S2048x1, .f32⟩ : BufTy).Contents (Elt F)),
    StableHlo.binary main_v248 main_v250 main_v251 (addf : (⟨S2048x1, .f32⟩ : BufTy).Contents (Elt F) → (⟨S2048x1, .f32⟩ : BufTy).Contents (Elt F) → (⟨S2048x1, .f32⟩ : BufTy).Contents (Elt F)) ]
theorem host5_sub : (host5 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩

end Cert.ReferenceIdeal.RefOps

end
-- ==== Proof.RefRun.lean ====
/- The reference program's run: the program is one straight line of host operations, so every weakly fair execution
   terminates with each buffer at the fold of the operations' results over the launch contents; the fold splits at
   the dense products; and the thirteen arguments end as launched, since no operation writes them. -/
import proofs.«157516_j44770739094124_1_alg».proof.Proof.RefOps
import Idealize.ShloMosaic.Lib.StableHlo.Run
import Idealize.ShloMosaic.Lib.Pipeline.Regions

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-- The program's operations, in order: the host stretches and the dense products alternating. -/
abbrev ops : List (HloOp τ sig (Elt F)) := host0 ++ prod0 ++ host1 ++ prod1 ++ host2 ++ prod2 ++ host3 ++ prod3 ++ host4 ++ prod4 ++ host5

/-- The program is the straight line of its operations: its five windows in order, each outlined function's statements
    standing at its call over that call's buffers. Once the definitions are unfolded both sides are the same chain of
    steps, so the equation holds by reflexivity. -/
theorem main_eq (c : Dev nD) : main (F := F) c = seq ops := by chain_rfl

/-- No buffer of the program is scoped. -/
theorem scopedRefs_eq : (Finset.univ.filter fun b : Ref sig .tc => b.isScoped) = ∅ := by decide
/-- The program has no semaphore, so none is scoped. -/
theorem scopedSems_eq : (Finset.univ.filter fun sm : SemLoc sig => sm.isScoped .tc) = ∅ := by decide

/-- A property of every operation of two lists holds of every operation of their concatenation. -/
theorem forall_append {α : Type} {p : α → Prop} {l₁ l₂ : List α} (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

/-- Every operation touches TensorCore buffers only. -/
theorem ops_sub : (ops : List (HloOp τ sig (Elt F))).Forall fun op => op.bufs ⊆ tcRefs τ sig :=
  forall_append (forall_append (forall_append (forall_append (forall_append (forall_append (forall_append (forall_append
    (forall_append (forall_append host0_sub prod0_sub) host1_sub) prod1_sub) host2_sub) prod2_sub) host3_sub) prod3_sub)
    host4_sub) prod4_sub) host5_sub

/-! No operation allocates a buffer: each is one of the builders, whose set of fresh buffers is empty by definition. -/

theorem host0_fresh : (host0 : List (HloOp τ sig (Elt F))).Forall fun op => op.fresh = ∅ := by
  simp only [List.Forall]; repeat' constructor
theorem prod0_fresh : (prod0 : List (HloOp τ sig (Elt F))).Forall fun op => op.fresh = ∅ := by
  simp only [List.Forall]; repeat' constructor
theorem host1_fresh : (host1 : List (HloOp τ sig (Elt F))).Forall fun op => op.fresh = ∅ := by
  simp only [List.Forall]; repeat' constructor
theorem prod1_fresh : (prod1 : List (HloOp τ sig (Elt F))).Forall fun op => op.fresh = ∅ := by
  simp only [List.Forall]; repeat' constructor
theorem host2_fresh : (host2 : List (HloOp τ sig (Elt F))).Forall fun op => op.fresh = ∅ := by
  simp only [List.Forall]; repeat' constructor
theorem prod2_fresh : (prod2 : List (HloOp τ sig (Elt F))).Forall fun op => op.fresh = ∅ := by
  simp only [List.Forall]; repeat' constructor
theorem host3_fresh : (host3 : List (HloOp τ sig (Elt F))).Forall fun op => op.fresh = ∅ := by
  simp only [List.Forall]; repeat' constructor
theorem prod3_fresh : (prod3 : List (HloOp τ sig (Elt F))).Forall fun op => op.fresh = ∅ := by
  simp only [List.Forall]; repeat' constructor
theorem host4_fresh : (host4 : List (HloOp τ sig (Elt F))).Forall fun op => op.fresh = ∅ := by
  simp only [List.Forall]; repeat' constructor
theorem prod4_fresh : (prod4 : List (HloOp τ sig (Elt F))).Forall fun op => op.fresh = ∅ := by
  simp only [List.Forall]; repeat' constructor
theorem host5_fresh : (host5 : List (HloOp τ sig (Elt F))).Forall fun op => op.fresh = ∅ := by
  simp only [List.Forall]; repeat' constructor

theorem ops_fresh : (ops : List (HloOp τ sig (Elt F))).Forall fun op => op.fresh = ∅ :=
  forall_append (forall_append (forall_append (forall_append (forall_append (forall_append (forall_append (forall_append
    (forall_append (forall_append host0_fresh prod0_fresh) host1_fresh) prod1_fresh) host2_fresh) prod2_fresh) host3_fresh)
    prod3_fresh) host4_fresh) prod4_fresh) host5_fresh

/-- On every device, for any float values, from any memory with zero counters: every weakly fair execution of the
    program terminates with each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

/-- The fold over two lists run one after the other is the second's fold over the first's. -/
theorem after_append (A B : List (HloOp τ sig (Elt F))) (V : Valuation τ sig (Elt F)) :
    after (A ++ B) V = after B (after A V) := by
  induction A generalizing V with
  | nil => rfl
  | cons op A ih => exact ih (op.result V)

/-- The whole fold, stretch by stretch. -/
theorem after_ops (V : Valuation τ sig (Elt F)) : after ops V
    = after host5 (after prod4 (after host4 (after prod3 (after host3 (after prod2 (after host2 (after prod1 (after host1 (after prod0 (after host0 V)))))))))) := by
  unfold ops
  rw [after_append, after_append, after_append, after_append, after_append, after_append, after_append, after_append,
    after_append, after_append]

/-! ## The arguments keep their contents

The thirteen arguments are the first thirteen buffers of the program (indices 0 … 12); every operation writes the one
buffer of its result, and each result buffer has index 13 or more. So no operation writes an argument, and the fold at
an argument's buffer is the contents it started from. -/

/-- Every operation of a literal list of the builders' operations writes only buffers of index 13 or more: its set of
    written buffers is the singleton of its result's buffer, a buffer is that of one reference only, and the result's
    index is a literal. -/
local macro "results_from_13" : tactic =>
  `(tactic| (simp only [List.Forall, nullary_writes, unary_writes, binary_writes, ternary_writes, quaternary_writes,
               reshape_writes, Finset.mem_singleton]
             repeat' apply And.intro
             all_goals (intro r h; cases Proc.devRef_injective _ h; decide)))

theorem host0_writes : (host0 : List (HloOp τ sig (Elt F))).Forall fun op => ∀ r : Ref sig .tc, Proc.devRef (τ := τ) .tc r ∈ op.writes → 13 ≤ (r.idx : ℕ) := by
  results_from_13
theorem prod0_writes : (prod0 : List (HloOp τ sig (Elt F))).Forall fun op => ∀ r : Ref sig .tc, Proc.devRef (τ := τ) .tc r ∈ op.writes → 13 ≤ (r.idx : ℕ) := by
  results_from_13
theorem host1_writes : (host1 : List (HloOp τ sig (Elt F))).Forall fun op => ∀ r : Ref sig .tc, Proc.devRef (τ := τ) .tc r ∈ op.writes → 13 ≤ (r.idx : ℕ) := by
  results_from_13
theorem prod1_writes : (prod1 : List (HloOp τ sig (Elt F))).Forall fun op => ∀ r : Ref sig .tc, Proc.devRef (τ := τ) .tc r ∈ op.writes → 13 ≤ (r.idx : ℕ) := by
  results_from_13
theorem host2_writes : (host2 : List (HloOp τ sig (Elt F))).Forall fun op => ∀ r : Ref sig .tc, Proc.devRef (τ := τ) .tc r ∈ op.writes → 13 ≤ (r.idx : ℕ) := by
  results_from_13
theorem prod2_writes : (prod2 : List (HloOp τ sig (Elt F))).Forall fun op => ∀ r : Ref sig .tc, Proc.devRef (τ := τ) .tc r ∈ op.writes → 13 ≤ (r.idx : ℕ) := by
  results_from_13
theorem host3_writes : (host3 : List (HloOp τ sig (Elt F))).Forall fun op => ∀ r : Ref sig .tc, Proc.devRef (τ := τ) .tc r ∈ op.writes → 13 ≤ (r.idx : ℕ) := by
  results_from_13
theorem prod3_writes : (prod3 : List (HloOp τ sig (Elt F))).Forall fun op => ∀ r : Ref sig .tc, Proc.devRef (τ := τ) .tc r ∈ op.writes → 13 ≤ (r.idx : ℕ) := by
  results_from_13
theorem host4_writes : (host4 : List (HloOp τ sig (Elt F))).Forall fun op => ∀ r : Ref sig .tc, Proc.devRef (τ := τ) .tc r ∈ op.writes → 13 ≤ (r.idx : ℕ) := by
  results_from_13
theorem prod4_writes : (prod4 : List (HloOp τ sig (Elt F))).Forall fun op => ∀ r : Ref sig .tc, Proc.devRef (τ := τ) .tc r ∈ op.writes → 13 ≤ (r.idx : ℕ) := by
  results_from_13
theorem host5_writes : (host5 : List (HloOp τ sig (Elt F))).Forall fun op => ∀ r : Ref sig .tc, Proc.devRef (τ := τ) .tc r ∈ op.writes → 13 ≤ (r.idx : ℕ) := by
  results_from_13

theorem ops_writes : (ops : List (HloOp τ sig (Elt F))).Forall fun op => ∀ r : Ref sig .tc, Proc.devRef (τ := τ) .tc r ∈ op.writes → 13 ≤ (r.idx : ℕ) :=
  forall_append (forall_append (forall_append (forall_append (forall_append (forall_append (forall_append (forall_append
    (forall_append (forall_append host0_writes prod0_writes) host1_writes) prod1_writes) host2_writes) prod2_writes)
    host3_writes) prod3_writes) host4_writes) prod4_writes) host5_writes

/-- A buffer of index below 13 is, after all the operations, as it was. -/
theorem kept_of_lt (V : Valuation τ sig (Elt F)) {r : Ref sig .tc} (hr : (r.idx : ℕ) < 13) :
    after ops V (Proc.devRef .tc r) = V (Proc.devRef .tc r) :=
  after_of_forall_not_mem ops V fun op hop hmem =>
    absurd (List.forall_iff_forall_mem.mp ops_writes op hop r hmem) (Nat.not_le.mpr hr)

theorem kept_main_arg0 (V : Valuation τ sig (Elt F)) : after ops V (Proc.devRef .tc main_arg0) = V (Proc.devRef .tc main_arg0) :=
  kept_of_lt V (by decide)
theorem kept_main_arg1 (V : Valuation τ sig (Elt F)) : after ops V (Proc.devRef .tc main_arg1) = V (Proc.devRef .tc main_arg1) :=
  kept_of_lt V (by decide)
theorem kept_main_arg2 (V : Valuation τ sig (Elt F)) : after ops V (Proc.devRef .tc main_arg2) = V (Proc.devRef .tc main_arg2) :=
  kept_of_lt V (by decide)
theorem kept_main_arg3 (V : Valuation τ sig (Elt F)) : after ops V (Proc.devRef .tc main_arg3) = V (Proc.devRef .tc main_arg3) :=
  kept_of_lt V (by decide)
theorem kept_main_arg4 (V : Valuation τ sig (Elt F)) : after ops V (Proc.devRef .tc main_arg4) = V (Proc.devRef .tc main_arg4) :=
  kept_of_lt V (by decide)
theorem kept_main_arg5 (V : Valuation τ sig (Elt F)) : after ops V (Proc.devRef .tc main_arg5) = V (Proc.devRef .tc main_arg5) :=
  kept_of_lt V (by decide)
theorem kept_main_arg6 (V : Valuation τ sig (Elt F)) : after ops V (Proc.devRef .tc main_arg6) = V (Proc.devRef .tc main_arg6) :=
  kept_of_lt V (by decide)
theorem kept_main_arg7 (V : Valuation τ sig (Elt F)) : after ops V (Proc.devRef .tc main_arg7) = V (Proc.devRef .tc main_arg7) :=
  kept_of_lt V (by decide)
theorem kept_main_arg8 (V : Valuation τ sig (Elt F)) : after ops V (Proc.devRef .tc main_arg8) = V (Proc.devRef .tc main_arg8) :=
  kept_of_lt V (by decide)
theorem kept_main_arg9 (V : Valuation τ sig (Elt F)) : after ops V (Proc.devRef .tc main_arg9) = V (Proc.devRef .tc main_arg9) :=
  kept_of_lt V (by decide)
theorem kept_main_arg10 (V : Valuation τ sig (Elt F)) : after ops V (Proc.devRef .tc main_arg10) = V (Proc.devRef .tc main_arg10) :=
  kept_of_lt V (by decide)
theorem kept_main_arg11 (V : Valuation τ sig (Elt F)) : after ops V (Proc.devRef .tc main_arg11) = V (Proc.devRef .tc main_arg11) :=
  kept_of_lt V (by decide)
theorem kept_main_arg12 (V : Valuation τ sig (Elt F)) : after ops V (Proc.devRef .tc main_arg12) = V (Proc.devRef .tc main_arg12) :=
  kept_of_lt V (by decide)

/-- On every device, for any float values, from any memory with zero counters: every weakly fair execution of the
    program terminates with each argument's buffer holding what it held at the launch. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_arg0).trans (kept_main_arg0 _),
      (h c main_arg1).trans (kept_main_arg1 _),
      (h c main_arg2).trans (kept_main_arg2 _),
      (h c main_arg3).trans (kept_main_arg3 _),
      (h c main_arg4).trans (kept_main_arg4 _),
      (h c main_arg5).trans (kept_main_arg5 _),
      (h c main_arg6).trans (kept_main_arg6 _),
      (h c main_arg7).trans (kept_main_arg7 _),
      (h c main_arg8).trans (kept_main_arg8 _),
      (h c main_arg9).trans (kept_main_arg9 _),
      (h c main_arg10).trans (kept_main_arg10 _),
      (h c main_arg11).trans (kept_main_arg11 _),
      (h c main_arg12).trans (kept_main_arg12 _)⟩)
    (run m ρ)

end Cert.ReferenceIdeal.RefRun

end
-- ==== Proof.LibConcatCongr.lean ====
/- A congruence rule for a concatenate of two pieces.
   `concatenate t a xs h` carries a side condition `h` whose type mentions the list of pieces (through the list of their
   shapes), so the simplifier's automatic congruence treats the list as fixed and never rewrites inside a piece. The
   shapes of the pieces do not depend on the pieces' contents: with the side condition stated over the two shapes, equal
   pieces may be exchanged, and as a `congr` rule this lets a simp pass rewrite the contents of both pieces (a read of a
   buffer pushed back through host operations, for instance) where a program concatenates two arrays. -/
import Idealize.ShloMosaic.PureOps.ShapeOps

namespace Cert.ConcatCongr

open Idealize.ShloMosaic

/-- Two concatenated pieces may be replaced by equal pieces: the side condition speaks of the pieces' shapes only. -/
@[congr] theorem concatenate2_congr {α : Type} (t : Shape) (a : Fin t.rank) (s₁ s₂ : Shape) {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by subst hx hy; rfl

end Cert.ConcatCongr
-- ==== Proof.BridgeDefs.lean ====
/- The two programs' buffer contents side by side: the reference's contents at the boundaries where the kernel enters and
   leaves a region, what it means for the launch memories to agree on the arguments, and the steps by which one host
   stretch of the kernel is compared with the same stretch of the reference — both are the same operations on buffers of
   the same names, so once every read is pushed back to the launch memory (or to the one dense product the stretch
   consumes, kept as a variable) the two sides are one term. -/
import proofs.«157516_j44770739094124_1_alg».proof.Proof.Gen.KernelIdeal.Frame
import proofs.«157516_j44770739094124_1_alg».proof.Proof.RefOps
import proofs.«157516_j44770739094124_1_alg».proof.Proof.LibConcatCongr
import Idealize.ShloMosaic.Lib.StableHlo.Run
import Idealize.ShloMosaic.PureOps.Ideal

set_option maxRecDepth 16384

noncomputable section

open Idealize.ShloMosaic Idealize.ShloMosaic.TcCoe Idealize.SL.Sem

namespace Cert.Bridge

section Contents

variable (m' : (ℓ : Loc Cert.ReferenceIdeal.nD Cert.ReferenceIdeal.τ Cert.ReferenceIdeal.sig) → Buf (Elt Ideal) ℓ)
  (c : Dev Cert.ReferenceIdeal.nD)

/-! The reference's buffer contents before its k-th dense product (`RAk`) and after it (`RBk`); `RA5` is the end. -/
def RA0 : Valuation Cert.ReferenceIdeal.τ Cert.ReferenceIdeal.sig (Elt Ideal) := StableHlo.after Cert.ReferenceIdeal.RefOps.host0 (StableHlo.launchContents m' c)
def RB0 : Valuation Cert.ReferenceIdeal.τ Cert.ReferenceIdeal.sig (Elt Ideal) := StableHlo.after Cert.ReferenceIdeal.RefOps.prod0 (RA0 m' c)
def RA1 : Valuation Cert.ReferenceIdeal.τ Cert.ReferenceIdeal.sig (Elt Ideal) := StableHlo.after Cert.ReferenceIdeal.RefOps.host1 (RB0 m' c)
def RB1 : Valuation Cert.ReferenceIdeal.τ Cert.ReferenceIdeal.sig (Elt Ideal) := StableHlo.after Cert.ReferenceIdeal.RefOps.prod1 (RA1 m' c)
def RA2 : Valuation Cert.ReferenceIdeal.τ Cert.ReferenceIdeal.sig (Elt Ideal) := StableHlo.after Cert.ReferenceIdeal.RefOps.host2 (RB1 m' c)
def RB2 : Valuation Cert.ReferenceIdeal.τ Cert.ReferenceIdeal.sig (Elt Ideal) := StableHlo.after Cert.ReferenceIdeal.RefOps.prod2 (RA2 m' c)
def RA3 : Valuation Cert.ReferenceIdeal.τ Cert.ReferenceIdeal.sig (Elt Ideal) := StableHlo.after Cert.ReferenceIdeal.RefOps.host3 (RB2 m' c)
def RB3 : Valuation Cert.ReferenceIdeal.τ Cert.ReferenceIdeal.sig (Elt Ideal) := StableHlo.after Cert.ReferenceIdeal.RefOps.prod3 (RA3 m' c)
def RA4 : Valuation Cert.ReferenceIdeal.τ Cert.ReferenceIdeal.sig (Elt Ideal) := StableHlo.after Cert.ReferenceIdeal.RefOps.host4 (RB3 m' c)
def RB4 : Valuation Cert.ReferenceIdeal.τ Cert.ReferenceIdeal.sig (Elt Ideal) := StableHlo.after Cert.ReferenceIdeal.RefOps.prod4 (RA4 m' c)
def RA5 : Valuation Cert.ReferenceIdeal.τ Cert.ReferenceIdeal.sig (Elt Ideal) := StableHlo.after Cert.ReferenceIdeal.RefOps.host5 (RB4 m' c)

end Contents

/-- The two launch memories hold the same thirteen argument arrays on core `c`. -/
structure ArgsAgree (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD) : Prop where
  a0 : StableHlo.launchContents m' c (Proc.devRef .tc Cert.ReferenceIdeal.main_arg0) = Cert.KernelIdeal.Gen.W0 m ρ c (Proc.devRef .tc Cert.KernelIdeal.main_arg0)
  a1 : StableHlo.launchContents m' c (Proc.devRef .tc Cert.ReferenceIdeal.main_arg1) = Cert.KernelIdeal.Gen.W0 m ρ c (Proc.devRef .tc Cert.KernelIdeal.main_arg1)
  a2 : StableHlo.launchContents m' c (Proc.devRef .tc Cert.ReferenceIdeal.main_arg2) = Cert.KernelIdeal.Gen.W0 m ρ c (Proc.devRef .tc Cert.KernelIdeal.main_arg2)
  a3 : StableHlo.launchContents m' c (Proc.devRef .tc Cert.ReferenceIdeal.main_arg3) = Cert.KernelIdeal.Gen.W0 m ρ c (Proc.devRef .tc Cert.KernelIdeal.main_arg3)
  a4 : StableHlo.launchContents m' c (Proc.devRef .tc Cert.ReferenceIdeal.main_arg4) = Cert.KernelIdeal.Gen.W0 m ρ c (Proc.devRef .tc Cert.KernelIdeal.main_arg4)
  a5 : StableHlo.launchContents m' c (Proc.devRef .tc Cert.ReferenceIdeal.main_arg5) = Cert.KernelIdeal.Gen.W0 m ρ c (Proc.devRef .tc Cert.KernelIdeal.main_arg5)
  a6 : StableHlo.launchContents m' c (Proc.devRef .tc Cert.ReferenceIdeal.main_arg6) = Cert.KernelIdeal.Gen.W0 m ρ c (Proc.devRef .tc Cert.KernelIdeal.main_arg6)
  a7 : StableHlo.launchContents m' c (Proc.devRef .tc Cert.ReferenceIdeal.main_arg7) = Cert.KernelIdeal.Gen.W0 m ρ c (Proc.devRef .tc Cert.KernelIdeal.main_arg7)
  a8 : StableHlo.launchContents m' c (Proc.devRef .tc Cert.ReferenceIdeal.main_arg8) = Cert.KernelIdeal.Gen.W0 m ρ c (Proc.devRef .tc Cert.KernelIdeal.main_arg8)
  a9 : StableHlo.launchContents m' c (Proc.devRef .tc Cert.ReferenceIdeal.main_arg9) = Cert.KernelIdeal.Gen.W0 m ρ c (Proc.devRef .tc Cert.KernelIdeal.main_arg9)
  a10 : StableHlo.launchContents m' c (Proc.devRef .tc Cert.ReferenceIdeal.main_arg10) = Cert.KernelIdeal.Gen.W0 m ρ c (Proc.devRef .tc Cert.KernelIdeal.main_arg10)
  a11 : StableHlo.launchContents m' c (Proc.devRef .tc Cert.ReferenceIdeal.main_arg11) = Cert.KernelIdeal.Gen.W0 m ρ c (Proc.devRef .tc Cert.KernelIdeal.main_arg11)
  a12 : StableHlo.launchContents m' c (Proc.devRef .tc Cert.ReferenceIdeal.main_arg12) = Cert.KernelIdeal.Gen.W0 m ρ c (Proc.devRef .tc Cert.KernelIdeal.main_arg12)

/-- The reference's side: every boundary opened, every read pushed back through the operations to the launch memory. -/
macro "ref_back" : tactic =>
  `(tactic| (try unfold RA5
             try unfold RB4
             try unfold RA4
             try unfold RB3
             try unfold RA3
             try unfold RB2
             try unfold RA2
             try unfold RB1
             try unfold RA1
             try unfold RB0
             try unfold RA0
             try dsimp only [Cert.ReferenceIdeal.RefOps.host0, Cert.ReferenceIdeal.RefOps.prod0, Cert.ReferenceIdeal.RefOps.host1, Cert.ReferenceIdeal.RefOps.prod1, Cert.ReferenceIdeal.RefOps.host2, Cert.ReferenceIdeal.RefOps.prod2, Cert.ReferenceIdeal.RefOps.host3, Cert.ReferenceIdeal.RefOps.prod3, Cert.ReferenceIdeal.RefOps.host4, Cert.ReferenceIdeal.RefOps.prod4, Cert.ReferenceIdeal.RefOps.host5]
             try after_results_simp))

/-- The kernel's side, one round: the host stretches opened back to the nearest region, their reads pushed through the
    operations, and every read of a buffer the region does not own carried across the region. -/
macro "ker_back" : tactic =>
  `(tactic| (try dsimp only [Cert.KernelIdeal.Gen.W1, Cert.KernelIdeal.Gen.W2, Cert.KernelIdeal.Gen.W3, Cert.KernelIdeal.Gen.W5, Cert.KernelIdeal.Gen.W6, Cert.KernelIdeal.Gen.W7, Cert.KernelIdeal.Gen.W8, Cert.KernelIdeal.Gen.W9, Cert.KernelIdeal.Gen.W11, Cert.KernelIdeal.Gen.W12, Cert.KernelIdeal.Gen.W13, Cert.KernelIdeal.Gen.W14, Cert.KernelIdeal.Gen.W15, Cert.KernelIdeal.Gen.W17, Cert.KernelIdeal.Gen.W18, Cert.KernelIdeal.Gen.W19, Cert.KernelIdeal.Gen.W20, Cert.KernelIdeal.Gen.W21, Cert.KernelIdeal.Gen.W23, Cert.KernelIdeal.Gen.W24, Cert.KernelIdeal.Gen.W25, Cert.KernelIdeal.Gen.W26, Cert.KernelIdeal.Gen.W27, Cert.KernelIdeal.Gen.W28, Cert.KernelIdeal.Gen.W29, Cert.KernelIdeal.Gen.W31, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps2, Cert.KernelIdeal.Gen.hostOps2_1, Cert.KernelIdeal.Gen.hostOps2_2, Cert.KernelIdeal.Gen.hostOps2_3, Cert.KernelIdeal.Gen.hostOps2_4, Cert.KernelIdeal.Gen.hostOps3, Cert.KernelIdeal.Gen.hostOps3_1, Cert.KernelIdeal.Gen.hostOps3_2, Cert.KernelIdeal.Gen.hostOps3_3, Cert.KernelIdeal.Gen.hostOps3_4, Cert.KernelIdeal.Gen.hostOps4, Cert.KernelIdeal.Gen.hostOps4_1, Cert.KernelIdeal.Gen.hostOps4_2, Cert.KernelIdeal.Gen.hostOps4_3, Cert.KernelIdeal.Gen.hostOps4_4, Cert.KernelIdeal.Gen.hostOps4_5, Cert.KernelIdeal.Gen.hostOps4_6, Cert.KernelIdeal.Gen.hostOps5]
             try after_results_simp
             repeat (first
               | (rw [Cert.KernelIdeal.Gen.W30_of_ne]; rotate_left; decide)
               | (rw [Cert.KernelIdeal.Gen.W22_of_ne]; rotate_left; decide)
               | (rw [Cert.KernelIdeal.Gen.W16_of_ne]; rotate_left; decide)
               | (rw [Cert.KernelIdeal.Gen.W10_of_ne]; rotate_left; decide)
               | (rw [Cert.KernelIdeal.Gen.W4_of_ne]; rotate_left; decide))))

/-- The arguments' agreement, used to read the reference's launch memory as the kernel's. -/
macro "args_to_kernel" h:ident : tactic =>
  `(tactic| (simp only [($h).a0, ($h).a1, ($h).a2, ($h).a3, ($h).a4, ($h).a5, ($h).a6, ($h).a7, ($h).a8, ($h).a9, ($h).a10, ($h).a11, ($h).a12]))

end Cert.Bridge

end
-- ==== Proof.Stage0.lean ====
/- Region 0 reads two argument arrays: at its entry the kernel holds them as launched, and so does the reference
   before its first dense product. -/
import proofs.«157516_j44770739094124_1_alg».proof.Proof.BridgeDefs

set_option maxRecDepth 16384

noncomputable section

open Idealize.ShloMosaic Idealize.ShloMosaic.TcCoe Idealize.SL.Sem

namespace Cert.Bridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

theorem entry0_x (ha : ArgsAgree m ρ m' c) :
    Cert.KernelIdeal.Gen.W3 m ρ c (Proc.devRef .tc Cert.KernelIdeal.main_arg0) = RA0 m' c (Proc.devRef .tc Cert.ReferenceIdeal.main_arg0) := by
  ref_back
  args_to_kernel ha

theorem entry0_w (ha : ArgsAgree m ρ m' c) :
    Cert.KernelIdeal.Gen.W3 m ρ c (Proc.devRef .tc Cert.KernelIdeal.main_arg3) = RA0 m' c (Proc.devRef .tc Cert.ReferenceIdeal.main_arg3) := by
  ref_back
  args_to_kernel ha

end Cert.Bridge

end
-- ==== Proof.Stage1.lean ====
/- The first layer's host stretch (gather along the edges, scale by the edge normalisation, scatter-add to the target
   rows, bias, batch normalisation over the rows, rectifier; then the next layer's weight slice): what the kernel holds
   at region 1's entry is what the reference holds before its second dense product, given that region 0's output is the
   reference's first product. -/
import proofs.«157516_j44770739094124_1_alg».proof.Proof.BridgeDefs

set_option maxRecDepth 16384

noncomputable section

open Idealize.ShloMosaic Idealize.ShloMosaic.TcCoe Idealize.SL.Sem

namespace Cert.Bridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 4000000 in
theorem layer1_weights (ha : ArgsAgree m ρ m' c) :
    Cert.KernelIdeal.Gen.W9 m ρ c (Proc.devRef .tc Cert.KernelIdeal.main_v74) = RA1 m' c (Proc.devRef .tc Cert.ReferenceIdeal.main_v74) := by
  ref_back
  ker_back
  ker_back
  args_to_kernel ha
  rfl

set_option maxHeartbeats 4000000 in
theorem layer1_acts (ha : ArgsAgree m ρ m' c)
    (hP : Cert.KernelIdeal.Gen.W4 m ρ c (Proc.devRef .tc Cert.KernelIdeal.main_v32) = RB0 m' c (Proc.devRef .tc Cert.ReferenceIdeal.main_v32)) :
    Cert.KernelIdeal.Gen.W9 m ρ c (Proc.devRef .tc Cert.KernelIdeal.main_v72) = RA1 m' c (Proc.devRef .tc Cert.ReferenceIdeal.main_v72) := by
  unfold RA1
  dsimp only [Cert.ReferenceIdeal.RefOps.host1]
  after_results_simp
  try dsimp only [Cert.KernelIdeal.Gen.W1, Cert.KernelIdeal.Gen.W2, Cert.KernelIdeal.Gen.W3, Cert.KernelIdeal.Gen.W5, Cert.KernelIdeal.Gen.W6, Cert.KernelIdeal.Gen.W7, Cert.KernelIdeal.Gen.W8, Cert.KernelIdeal.Gen.W9, Cert.KernelIdeal.Gen.W11, Cert.KernelIdeal.Gen.W12, Cert.KernelIdeal.Gen.W13, Cert.KernelIdeal.Gen.W14, Cert.KernelIdeal.Gen.W15, Cert.KernelIdeal.Gen.W17, Cert.KernelIdeal.Gen.W18, Cert.KernelIdeal.Gen.W19, Cert.KernelIdeal.Gen.W20, Cert.KernelIdeal.Gen.W21, Cert.KernelIdeal.Gen.W23, Cert.KernelIdeal.Gen.W24, Cert.KernelIdeal.Gen.W25, Cert.KernelIdeal.Gen.W26, Cert.KernelIdeal.Gen.W27, Cert.KernelIdeal.Gen.W28, Cert.KernelIdeal.Gen.W29, Cert.KernelIdeal.Gen.W31, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps2, Cert.KernelIdeal.Gen.hostOps2_1, Cert.KernelIdeal.Gen.hostOps2_2, Cert.KernelIdeal.Gen.hostOps2_3, Cert.KernelIdeal.Gen.hostOps2_4, Cert.KernelIdeal.Gen.hostOps3, Cert.KernelIdeal.Gen.hostOps3_1, Cert.KernelIdeal.Gen.hostOps3_2, Cert.KernelIdeal.Gen.hostOps3_3, Cert.KernelIdeal.Gen.hostOps3_4, Cert.KernelIdeal.Gen.hostOps4, Cert.KernelIdeal.Gen.hostOps4_1, Cert.KernelIdeal.Gen.hostOps4_2, Cert.KernelIdeal.Gen.hostOps4_3, Cert.KernelIdeal.Gen.hostOps4_4, Cert.KernelIdeal.Gen.hostOps4_5, Cert.KernelIdeal.Gen.hostOps4_6, Cert.KernelIdeal.Gen.hostOps5]
  try after_results_simp
  rw [hP]
  generalize RB0 m' c (Proc.devRef .tc Cert.ReferenceIdeal.main_v32) = P
  ref_back
  ker_back
  ker_back
  args_to_kernel ha
  rfl

end Cert.Bridge

end
-- ==== Proof.Stage2.lean ====
/- The host stretch between the second and third dense products, on both programs: the activations and the weights the
   third product reads are the same in the kernel (at the entry of its region 2) and in the reference (before its
   product 2). Both sides apply the same operations to buffers of the same names; with every read pushed back to the
   launch memory — the previous product's output kept as one variable — the two sides are one term. -/
import proofs.«157516_j44770739094124_1_alg».proof.Proof.BridgeDefs

set_option maxRecDepth 16384
set_option pp.maxSteps 3000
set_option pp.deepTerms false

noncomputable section

open Idealize.ShloMosaic Idealize.ShloMosaic.TcCoe Idealize.SL.Sem

namespace Cert.Bridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 4000000 in
/-- The weights the product reads: no product's output enters them, so both sides reduce to the same term of the
    argument arrays. -/
theorem layer2_weights (ha : ArgsAgree m ρ m' c) :
    Cert.KernelIdeal.Gen.W15 m ρ c (Proc.devRef .tc Cert.KernelIdeal.main_v119) = RA2 m' c (Proc.devRef .tc Cert.ReferenceIdeal.main_v119) := by
  ref_back
  ker_back
  ker_back
  ker_back
  args_to_kernel ha
  rfl

set_option maxHeartbeats 4000000 in
/-- The activations the product reads, given that the previous product's output agrees (`hP`): the last stretch is
    opened on both sides first, so that the one read of that output is exposed and can be named `P` before anything
    behind it is opened; what remains is a term of `P` and the argument arrays, the same on both sides. -/
theorem layer2_acts (ha : ArgsAgree m ρ m' c)
    (hP : Cert.KernelIdeal.Gen.W10 m ρ c (Proc.devRef .tc Cert.KernelIdeal.main_v77) = RB1 m' c (Proc.devRef .tc Cert.ReferenceIdeal.main_v77)) :
    Cert.KernelIdeal.Gen.W15 m ρ c (Proc.devRef .tc Cert.KernelIdeal.main_v117) = RA2 m' c (Proc.devRef .tc Cert.ReferenceIdeal.main_v117) := by
  unfold RA2
  dsimp only [Cert.ReferenceIdeal.RefOps.host2]
  after_results_simp
  try dsimp only [Cert.KernelIdeal.Gen.W11, Cert.KernelIdeal.Gen.W12, Cert.KernelIdeal.Gen.W13, Cert.KernelIdeal.Gen.W14, Cert.KernelIdeal.Gen.W15, Cert.KernelIdeal.Gen.hostOps2, Cert.KernelIdeal.Gen.hostOps2_1, Cert.KernelIdeal.Gen.hostOps2_2, Cert.KernelIdeal.Gen.hostOps2_3, Cert.KernelIdeal.Gen.hostOps2_4]
  try after_results_simp
  rw [hP]
  generalize RB1 m' c (Proc.devRef .tc Cert.ReferenceIdeal.main_v77) = P
  ref_back
  ker_back
  ker_back
  ker_back
  args_to_kernel ha
  rfl

end Cert.Bridge

end
-- ==== Proof.Stage3.lean ====
/- The host stretch between the third and fourth dense products, on both programs: the activations and the weights the
   fourth product reads are the same in the kernel (at the entry of its region 3) and in the reference (before its
   product 3). Both sides apply the same operations to buffers of the same names; with every read pushed back to the
   launch memory — the previous product's output kept as one variable — the two sides are one term. -/
import proofs.«157516_j44770739094124_1_alg».proof.Proof.BridgeDefs

set_option maxRecDepth 16384
set_option pp.maxSteps 3000
set_option pp.deepTerms false

noncomputable section

open Idealize.ShloMosaic Idealize.ShloMosaic.TcCoe Idealize.SL.Sem

namespace Cert.Bridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 4000000 in
/-- The weights the product reads: no product's output enters them, so both sides reduce to the same term of the
    argument arrays. -/
theorem layer3_weights (ha : ArgsAgree m ρ m' c) :
    Cert.KernelIdeal.Gen.W21 m ρ c (Proc.devRef .tc Cert.KernelIdeal.main_v164) = RA3 m' c (Proc.devRef .tc Cert.ReferenceIdeal.main_v164) := by
  ref_back
  ker_back
  ker_back
  ker_back
  ker_back
  args_to_kernel ha
  rfl

set_option maxHeartbeats 4000000 in
/-- The activations the product reads, given that the previous product's output agrees (`hP`): the last stretch is
    opened on both sides first, so that the one read of that output is exposed and can be named `P` before anything
    behind it is opened; what remains is a term of `P` and the argument arrays, the same on both sides. -/
theorem layer3_acts (ha : ArgsAgree m ρ m' c)
    (hP : Cert.KernelIdeal.Gen.W16 m ρ c (Proc.devRef .tc Cert.KernelIdeal.main_v122) = RB2 m' c (Proc.devRef .tc Cert.ReferenceIdeal.main_v122)) :
    Cert.KernelIdeal.Gen.W21 m ρ c (Proc.devRef .tc Cert.KernelIdeal.main_v162) = RA3 m' c (Proc.devRef .tc Cert.ReferenceIdeal.main_v162) := by
  unfold RA3
  dsimp only [Cert.ReferenceIdeal.RefOps.host3]
  after_results_simp
  try dsimp only [Cert.KernelIdeal.Gen.W17, Cert.KernelIdeal.Gen.W18, Cert.KernelIdeal.Gen.W19, Cert.KernelIdeal.Gen.W20, Cert.KernelIdeal.Gen.W21, Cert.KernelIdeal.Gen.hostOps3, Cert.KernelIdeal.Gen.hostOps3_1, Cert.KernelIdeal.Gen.hostOps3_2, Cert.KernelIdeal.Gen.hostOps3_3, Cert.KernelIdeal.Gen.hostOps3_4]
  try after_results_simp
  rw [hP]
  generalize RB2 m' c (Proc.devRef .tc Cert.ReferenceIdeal.main_v122) = P
  ref_back
  ker_back
  ker_back
  ker_back
  ker_back
  args_to_kernel ha
  rfl

end Cert.Bridge

end
-- ==== Proof.Stage4.lean ====
/- The host stretch between the fourth and the fifth dense product: the fourth layer's aggregation over the edges and
   its bias, batch norm, rectifier, the mean over each graph's nodes, and the last batch norm — the same operations in
   both programs on buffers of the same names. With the fourth product's output (the one dense-product output the
   stretch consumes) kept as a variable and every other read pushed back to the launch memories, the two programs'
   values are one term. The head's weights and bias are arguments, read at the same boundary. -/
import proofs.«157516_j44770739094124_1_alg».proof.Proof.BridgeDefs

set_option maxRecDepth 16384
set_option pp.maxSteps 3000
set_option pp.deepTerms false

noncomputable section

open Idealize.ShloMosaic Idealize.ShloMosaic.TcCoe Idealize.SL.Sem

namespace Cert.Bridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 16000000 in
/-- The normalised pooled activations agree. Only this stretch is opened on both sides first, so that the read of the
    fourth product's output stands exposed and can be named before the remaining reads (the edge list, the graph
    assignment, the bias and the norm's scale and shift rows) are pushed back through every earlier operation. -/
theorem pooled_norm (ha : ArgsAgree m ρ m' c)
    (hP : Cert.KernelIdeal.Gen.W22 m ρ c (Proc.devRef .tc Cert.KernelIdeal.main_v167) = RB3 m' c (Proc.devRef .tc Cert.ReferenceIdeal.main_v167)) :
    Cert.KernelIdeal.Gen.W29 m ρ c (Proc.devRef .tc Cert.KernelIdeal.main_v242) = RA4 m' c (Proc.devRef .tc Cert.ReferenceIdeal.main_v242) := by
  unfold RA4
  dsimp only [Cert.ReferenceIdeal.RefOps.host4]
  after_results_simp
  rw [hP]
  generalize RB3 m' c (Proc.devRef .tc Cert.ReferenceIdeal.main_v167) = P
  ref_back
  ker_back
  ker_back
  ker_back
  ker_back
  ker_back
  args_to_kernel ha
  rfl

set_option maxHeartbeats 4000000 in
/-- The head's weight matrix is an argument: no operation of either program writes it, so at the entry of the head's
    product both programs still hold what they were launched with. -/
theorem head_weights (ha : ArgsAgree m ρ m' c) :
    Cert.KernelIdeal.Gen.W29 m ρ c (Proc.devRef .tc Cert.KernelIdeal.main_arg9) = RA4 m' c (Proc.devRef .tc Cert.ReferenceIdeal.main_arg9) := by
  ref_back
  ker_back
  ker_back
  ker_back
  ker_back
  ker_back
  exact ha.a9.symm

set_option maxHeartbeats 4000000 in
/-- The head's bias is an argument too, and is likewise as launched on both sides. -/
theorem head_bias (ha : ArgsAgree m ρ m' c) :
    Cert.KernelIdeal.Gen.W29 m ρ c (Proc.devRef .tc Cert.KernelIdeal.main_arg10) = RA4 m' c (Proc.devRef .tc Cert.ReferenceIdeal.main_arg10) := by
  ref_back
  ker_back
  ker_back
  ker_back
  ker_back
  ker_back
  exact ha.a10.symm

end Cert.Bridge

end
-- ==== Proof.Stage5.lean ====
/- The last host stretch of the two programs: the final dense product, the bias broadcast to its shape, and their sum.
   The two programs name these buffers three apart; the operations are the same, so with the head's rectified
   activations (the one dense-product output the stretch consumes) kept as a variable, and the two arguments read back
   to the launch memories, the two results are one term. -/
import proofs.«157516_j44770739094124_1_alg».proof.Proof.BridgeDefs

set_option maxRecDepth 16384
set_option pp.maxSteps 3000
set_option pp.deepTerms false

noncomputable section

open Idealize.ShloMosaic Idealize.ShloMosaic.TcCoe Idealize.SL.Sem

namespace Cert.Bridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 4000000 in
/-- The programs' results agree: each is the product of the head's activations with the last weight column plus the
    broadcast bias. Only the last stretch is opened on both sides first, so that the activations' read stands exposed
    and can be named before the arguments' reads are pushed back through every earlier operation. -/
theorem result (ha : ArgsAgree m ρ m' c)
    (hP : Cert.KernelIdeal.Gen.W30 m ρ c (Proc.devRef .tc Cert.KernelIdeal.main_v244) = RB4 m' c (Proc.devRef .tc Cert.ReferenceIdeal.main_v247)) :
    Cert.KernelIdeal.Gen.W31 m ρ c (Proc.devRef .tc Cert.KernelIdeal.main_v248) = RA5 m' c (Proc.devRef .tc Cert.ReferenceIdeal.main_v251) := by
  unfold RA5
  dsimp only [Cert.ReferenceIdeal.RefOps.host5]
  after_results_simp
  rw [hP]
  generalize RB4 m' c (Proc.devRef .tc Cert.ReferenceIdeal.main_v247) = P
  ref_back
  ker_back
  ker_back
  ker_back
  ker_back
  ker_back
  ker_back
  args_to_kernel ha
  rfl

end Cert.Bridge

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.LibSageLayer.lean ====
/-
  One layer of a graph network with mean aggregation, over the extended reals: the pieces its two spellings share.

  The layer's entry (p, q) is  max( x(p,·)·ws(·,q) + bs(q) + nei(p,·)·wn(·,q) + bn(q), 0 ).
  One spelling forms the two products separately and adds the biases one at a time. The other lays x and nei side by
  side along the columns, stacks ws on wn along the rows, forms ONE product over the doubled axis and adds bs + bn.

  * `entry_eq`: the two spellings agree. A sum over an axis of length K + K is the sum over its first K positions plus
    the sum over its last K; the rest is commutativity and associativity of addition, which hold on all extended reals
    (no entry need be finite).
  * `cat_cols_left` / `cat_cols_right`, `cat_rows_left` / `cat_rows_right`: a two-piece concatenation of matrices read at
    an entry of either piece, along the columns and along the rows.
  * `dotGeneral_rows_cols`: a host matrix product [A, K] · [K, B] read at (p, q) is ∑ k, L(p,k) · R(k,q), for any
    dimension record whose index facts are supplied.
-/
import Idealize.ShloMosaic.Lib.ValueIdx
import Idealize.ShloMosaic.Lib.Pipeline.Value
import Idealize.ShloMosaic.PureOps.Ideal.Laws

noncomputable section

namespace Cert.SageLayer

open Idealize.ShloMosaic Idealize.ShloMosaic.ValueIdx

/-- The concatenated spelling of one entry equals the separate one. `cr` is a row of the side-by-side matrix (its
    first K entries the row `xr` of x, its last K the row `nr` of nei), `wq` a column of the stacked weights (first K
    entries the column `wsq` of ws, last K the column `wnq` of wn). -/
theorem entry_eq {K K2 : ℕ} (hK : K2 = K + K) (cr wq : Fin K2 → EReal) (xr nr wsq wnq : Fin K → EReal)
    (hcl : ∀ k : Fin K, cr ⟨k.val, by omega⟩ = xr k) (hcr : ∀ k : Fin K, cr ⟨K + k.val, by omega⟩ = nr k)
    (hwl : ∀ k : Fin K, wq ⟨k.val, by omega⟩ = wsq k) (hwr : ∀ k : Fin K, wq ⟨K + k.val, by omega⟩ = wnq k)
    (bs bn : EReal) :
    max ((∑ k, cr k * wq k) + (bs + bn)) 0
      = max ((((∑ k, xr k * wsq k) + bs) + ∑ k, nr k * wnq k) + bn) 0 := by
  subst hK
  -- the doubled axis splits into its two halves
  rw [Fin.sum_univ_add]
  have h1 : ∀ k : Fin K, cr (Fin.castAdd K k) * wq (Fin.castAdd K k) = xr k * wsq k := fun k => by
    rw [← hcl k, ← hwl k]; rfl
  have h2 : ∀ k : Fin K, cr (Fin.natAdd K k) * wq (Fin.natAdd K k) = nr k * wnq k := fun k => by
    rw [← hcr k, ← hwr k]; rfl
  simp only [h1, h2]
  -- (a + b) + (s + n) = ((a + s) + b) + n
  rw [add_add_add_comm, ← add_assoc]

/-- Row `r` of two [A, K] matrices laid side by side, as a function of the column: the first matrix's row on the first
    K columns, the second's on the next K. -/
def catRow {A K K2 : ℕ} (X NEI : (⟨2, ![A, K]⟩ : Shape).Idx → EReal) (r : Fin A) (k : Fin K2) : EReal :=
  if h : k.val < K then X (ix2 r ⟨k.val, h⟩) else if h2 : k.val - K < K then NEI (ix2 r ⟨k.val - K, h2⟩) else 0

theorem catRow_left {A K K2 : ℕ} (X NEI : (⟨2, ![A, K]⟩ : Shape).Idx → EReal) (r : Fin A) (k : Fin K) (hk : k.val < K2) :
    catRow X NEI r (⟨k.val, hk⟩ : Fin K2) = X (ix2 r k) := by
  unfold catRow; rw [dif_pos k.isLt]

theorem catRow_right {A K K2 : ℕ} (X NEI : (⟨2, ![A, K]⟩ : Shape).Idx → EReal) (r : Fin A) (k : Fin K) (hk : K + k.val < K2) :
    catRow X NEI r (⟨K + k.val, hk⟩ : Fin K2) = NEI (ix2 r k) := by
  unfold catRow
  have h1 : ¬ (K + k.val < K) := by omega
  have h2 : K + k.val - K < K := by have := k.isLt; omega
  rw [dif_neg h1, dif_pos h2]
  exact congrArg (fun z => NEI (ix2 r z)) (Fin.ext (by show K + k.val - K = k.val; omega))

/-- Entry (p, q) of the layer in its concatenated spelling: the side-by-side row p against column q of a [K2, M]
    matrix, plus entry q of a bias vector, and the maximum of that with zero. -/
def denseEntry {A K K2 M : ℕ} (X NEI : (⟨2, ![A, K]⟩ : Shape).Idx → EReal) (W : (⟨2, ![K2, M]⟩ : Shape).Idx → EReal)
    (B : (⟨1, ![M]⟩ : Shape).Idx → EReal) (p : Fin A) (q : Fin M) : EReal :=
  max ((∑ k : Fin K2, catRow X NEI p k * W (ix2 k q)) + B (ix1 q)) 0

/-- The layer in its concatenated spelling, as one function of whole arrays. -/
def dense {A K K2 M : ℕ} (X NEI : (⟨2, ![A, K]⟩ : Shape).Idx → EReal) (W : (⟨2, ![K2, M]⟩ : Shape).Idx → EReal)
    (B : (⟨1, ![M]⟩ : Shape).Idx → EReal) : (⟨2, ![A, M]⟩ : Shape).Idx → EReal :=
  fun i => denseEntry X NEI W B (i 0) (i 1)

/-- An entry depends only on row p of the two feature matrices, column q of the weights and entry q of the bias: two
    settings that agree on those (possibly at different row and column numbers, as a block and the array it is cut
    from do) have the same entry. -/
theorem denseEntry_congr {A A' K K2 M M' : ℕ}
    (X NEI : (⟨2, ![A, K]⟩ : Shape).Idx → EReal) (W : (⟨2, ![K2, M]⟩ : Shape).Idx → EReal) (B : (⟨1, ![M]⟩ : Shape).Idx → EReal)
    (X' NEI' : (⟨2, ![A', K]⟩ : Shape).Idx → EReal) (W' : (⟨2, ![K2, M']⟩ : Shape).Idx → EReal) (B' : (⟨1, ![M']⟩ : Shape).Idx → EReal)
    (p : Fin A) (q : Fin M) (p' : Fin A') (q' : Fin M')
    (hX : ∀ k : Fin K, X (ix2 p k) = X' (ix2 p' k)) (hN : ∀ k : Fin K, NEI (ix2 p k) = NEI' (ix2 p' k))
    (hW : ∀ k : Fin K2, W (ix2 k q) = W' (ix2 k q')) (hB : B (ix1 q) = B' (ix1 q')) :
    denseEntry X NEI W B p q = denseEntry X' NEI' W' B' p' q' := by
  unfold denseEntry
  rw [hB]
  refine congrArg (fun s => max (s + B' (ix1 q')) 0) (Finset.sum_congr rfl fun k _ => ?_)
  rw [hW k]
  refine congrArg (· * W' (ix2 k q')) ?_
  unfold catRow
  split
  · exact hX _
  · split
    · exact hN _
    · rfl

variable {α : Type}

/-- Two [A, K] matrices side by side: a column below K reads the first. -/
theorem cat_cols_left {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : k.val < K2) :
    concatenate ⟨2, ![A, K2]⟩ (1 : Fin 2) [⟨⟨2, ![A, K]⟩, x₁⟩, ⟨⟨2, ![A, K]⟩, x₂⟩] h (ix2 p ⟨k.val, hk⟩) = x₁ (ix2 p k) :=
  concatenate_pair_apply_left (t := ⟨2, ![A, K2]⟩) (1 : Fin 2) x₁ x₂ h (ix2 p ⟨k.val, hk⟩) rfl (ix2 p k) fun b => by
    match b with
    | ⟨0, _⟩ => rfl
    | ⟨1, _⟩ => rfl

/-- Two [A, K] matrices side by side: column K + k reads the second at column k. -/
theorem cat_cols_right {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : K + k.val < K2) :
    concatenate ⟨2, ![A, K2]⟩ (1 : Fin 2) [⟨⟨2, ![A, K]⟩, x₁⟩, ⟨⟨2, ![A, K]⟩, x₂⟩] h (ix2 p ⟨K + k.val, hk⟩) = x₂ (ix2 p k) :=
  concatenate_pair_apply_right (t := ⟨2, ![A, K2]⟩) (1 : Fin 2) x₁ x₂ h (ix2 p ⟨K + k.val, hk⟩) rfl rfl (ix2 p k)
    (fun b hb => by
      match b with
      | ⟨0, _⟩ => rfl
      | ⟨1, _⟩ => exact absurd rfl hb)
    (by show k.val + K = K + k.val; omega)

/-- Two [K, M] matrices one above the other: a row below K reads the first. -/
theorem cat_rows_left {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : k.val < K2) :
    concatenate ⟨2, ![K2, M]⟩ (0 : Fin 2) [⟨⟨2, ![K, M]⟩, x₁⟩, ⟨⟨2, ![K, M]⟩, x₂⟩] h (ix2 ⟨k.val, hk⟩ q) = x₁ (ix2 k q) :=
  concatenate_pair_apply_left (t := ⟨2, ![K2, M]⟩) (0 : Fin 2) x₁ x₂ h (ix2 ⟨k.val, hk⟩ q) rfl (ix2 k q) fun b => by
    match b with
    | ⟨0, _⟩ => rfl
    | ⟨1, _⟩ => rfl

/-- Two [K, M] matrices one above the other: row K + k reads the second at row k. -/
theorem cat_rows_right {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : K + k.val < K2) :
    concatenate ⟨2, ![K2, M]⟩ (0 : Fin 2) [⟨⟨2, ![K, M]⟩, x₁⟩, ⟨⟨2, ![K, M]⟩, x₂⟩] h (ix2 ⟨K + k.val, hk⟩ q) = x₂ (ix2 k q) :=
  concatenate_pair_apply_right (t := ⟨2, ![K2, M]⟩) (0 : Fin 2) x₁ x₂ h (ix2 ⟨K + k.val, hk⟩ q) rfl rfl (ix2 k q)
    (fun b hb => by
      match b with
      | ⟨0, _⟩ => exact absurd rfl hb
      | ⟨1, _⟩ => rfl)
    (by show k.val + K = K + k.val; omega)

/-- A concatenation of two [A, K] matrices along the columns, read at (p, k), is the side-by-side row. -/
theorem cat_cols_eq_catRow {A K K2 : ℕ} (hK : K2 = K + K) (x₁ x₂ : (⟨2, ![A, K]⟩ : Shape).Idx → EReal)
    (h : Shape.Concatenates [(⟨2, ![A, K]⟩ : Shape), ⟨2, ![A, K]⟩] ⟨2, ![A, K2]⟩ (1 : Fin 2)) (p : Fin A) (k : Fin K2) :
    concatenate ⟨2, ![A, K2]⟩ (1 : Fin 2) [⟨⟨2, ![A, K]⟩, x₁⟩, ⟨⟨2, ![A, K]⟩, x₂⟩] h (ix2 p k) = catRow x₁ x₂ p k := by
  by_cases hk : k.val < K
  · have e : k = ⟨(⟨k.val, hk⟩ : Fin K).val, k.isLt⟩ := rfl
    rw [e, cat_cols_left x₁ x₂ h p ⟨k.val, hk⟩ k.isLt, catRow_left x₁ x₂ p ⟨k.val, hk⟩ k.isLt]
  · have hk2 : k.val - K < K := by have := k.isLt; omega
    have hlt : K + (⟨k.val - K, hk2⟩ : Fin K).val < K2 := by show K + (k.val - K) < K2; have := k.isLt; omega
    have e : k = ⟨K + (⟨k.val - K, hk2⟩ : Fin K).val, hlt⟩ := Fin.ext (by show k.val = K + (k.val - K); omega)
    rw [e, cat_cols_right x₁ x₂ h p ⟨k.val - K, hk2⟩ hlt, catRow_right x₁ x₂ p ⟨k.val - K, hk2⟩ hlt]

/-- A host matrix product read at (p, q): the sum over the contracted axis of the left operand's row p times the
    right operand's column q. -/
theorem dotGeneral_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    Host.dotGeneral d prec L R (ix2 p q) = ∑ k : Fin K, L (ix2 p k) * R (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.SageLayer

end
-- ==== Proof.RegionLib.lean ====
/-
  An ordinary matrix product over the extended reals, read one entry at a time, and a row band of it.

  For L of shape [A, K] and R of shape [K, B] the product's entry (p, q) is ∑ k, L(p,k) · R(k,q). Both the matrix
  unit's product into a zero accumulator and the host's product are that sum once their dimension record says "contract
  the left operand's columns with the right operand's rows, batch nothing" (`IsPlain`), whatever the extents.

  `band_entry`: the entry depends only on row p of the left operand and column q of the right one. So the product of a
  BAND of rows of a tall matrix X with the whole of Wt, read at (p, q), is the product of X with Wt read at (r, q), as
  soon as row p of the band is row r of X. This is what lets a product be evaluated one band of rows at a time.
-/
import Idealize.ShloMosaic.Lib.ValueIdx
import Idealize.ShloMosaic.Lib.Pipeline.Value
import Idealize.ShloMosaic.PureOps.Ideal.Laws
import proofs.«157516_j44770739094124_1_alg».proof.Proof.LibDenseLayer
import proofs.«157516_j44770739094124_1_alg».proof.Proof.LibSageLayer

noncomputable section

namespace Cert.Bridge.RowBand

open Idealize.ShloMosaic Idealize.ShloMosaic.ValueIdx

/-- The zero offsets of a rank-2 rectangle, as the constant function. -/
theorem zero_offsets : (![0, 0] : Fin 2 → Nat) = fun _ => 0 := funext fun a => by fin_cases a <;> rfl

/-- The dimension record of an ordinary matrix product [A, K] · [K, B]: the left operand's columns are contracted with
    the right operand's rows, and nothing is batched. -/
def IsPlain {A K B : ℕ} (d : DotDims ⟨2, ![A, K]⟩ ⟨2, ![K, B]⟩ ⟨2, ![A, B]⟩) : Prop :=
  d.lhsContracting = [1] ∧ d.rhsContracting = [0] ∧ d.lhsNonContracting = [0] ∧ d.rhsNonContracting = [1]
    ∧ d.lhsBatch = [] ∧ d.rhsBatch = []

/-- Such a record contracts one axis, of extent K; at output index i and contraction position q its left index is
    (i 0, q) and its right index is (q, i 1). -/
theorem IsPlain.facts {A K B : ℕ} {d : DotDims ⟨2, ![A, K]⟩ ⟨2, ![K, B]⟩ ⟨2, ![A, B]⟩} (h : IsPlain d) :
    ∃ (hr : d.contr.rank = 1) (hs : d.contr.size ⟨0, by omega⟩ = K),
      (∀ (i : (⟨2, ![A, B]⟩ : Shape).Idx) (q : d.contr.Idx), (d.lhsIdx i q 0).val = (i 0).val)
      ∧ (∀ (i : (⟨2, ![A, B]⟩ : Shape).Idx) (q : d.contr.Idx), (d.lhsIdx i q 1).val = (q ⟨0, by omega⟩).val)
      ∧ (∀ (i : (⟨2, ![A, B]⟩ : Shape).Idx) (q : d.contr.Idx), (d.rhsIdx i q 0).val = (q ⟨0, by omega⟩).val)
      ∧ (∀ (i : (⟨2, ![A, B]⟩ : Shape).Idx) (q : d.contr.Idx), (d.rhsIdx i q 1).val = (i 1).val) := by
  obtain ⟨lc, rc, ln, rn, lb, rb, w⟩ := d
  obtain ⟨h1, h2, h3, h4, h5, h6⟩ := h
  dsimp only at h1 h2 h3 h4 h5 h6
  subst h1 h2 h3 h4 h5 h6
  exact ⟨rfl, rfl, fun _ _ => rfl, fun _ _ => rfl, fun _ _ => rfl, fun _ _ => rfl⟩

/-- The matrix unit's product into a zero accumulator, at entry (p, q). -/
theorem IsPlain.matmul_apply {A K B : ℕ} {φ₁ φ₂ : FTy} {d : DotDims ⟨2, ![A, K]⟩ ⟨2, ![K, B]⟩ ⟨2, ![A, B]⟩} (h : IsPlain d)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  obtain ⟨hr, hs, hl0, hl1, hr0, hr1⟩ := h.facts
  exact Cert.DenseLayer.matmul_rows_cols d hr hs hl0 hl1 hr0 hr1 prec L R p q

/-- The host's product, at entry (p, q). -/
theorem IsPlain.dotGeneral_apply {A K B : ℕ} {φ₁ φ₂ : FTy} {d : DotDims ⟨2, ![A, K]⟩ ⟨2, ![K, B]⟩ ⟨2, ![A, B]⟩} (h : IsPlain d)
    (prec : Option ContractPrecision) (L : FVec Ideal ⟨2, ![A, K]⟩ φ₁) (R : FVec Ideal ⟨2, ![K, B]⟩ φ₂) (p : Fin A) (q : Fin B) :
    Host.dotGeneral d prec L R (ix2 p q) = ∑ k : Fin K, L (ix2 p k) * R (ix2 k q) := by
  obtain ⟨hr, hs, hl0, hl1, hr0, hr1⟩ := h.facts
  exact Cert.SageLayer.dotGeneral_rows_cols d hr hs hl0 hl1 hr0 hr1 prec L R p q

/-- A band of rows of a product: if row p of the band x0 is row r of X, and x1 agrees with Wt on column q, then entry
    (p, q) of the matrix unit's product x0 · x1 (into a zero accumulator) is entry (r, q) of the host's product X · Wt. -/
theorem band_entry {a A K B : ℕ} {φ₁ φ₂ φ₃ φ₄ : FTy}
    {d : DotDims ⟨2, ![a, K]⟩ ⟨2, ![K, B]⟩ ⟨2, ![a, B]⟩} (hd : IsPlain d)
    {D : DotDims ⟨2, ![A, K]⟩ ⟨2, ![K, B]⟩ ⟨2, ![A, B]⟩} (hD : IsPlain D)
    (prec prec' : Option ContractPrecision)
    (x0 : FVec Ideal ⟨2, ![a, K]⟩ φ₁) (x1 : FVec Ideal ⟨2, ![K, B]⟩ φ₂)
    (X : FVec Ideal ⟨2, ![A, K]⟩ φ₃) (Wt : FVec Ideal ⟨2, ![K, B]⟩ φ₄) (p : Fin a) (r : Fin A) (q : Fin B)
    (h0 : ∀ k : Fin K, x0 (ix2 p k) = X (ix2 r k)) (h1 : ∀ k : Fin K, x1 (ix2 k q) = Wt (ix2 k q)) :
    FloatOps.matmul d prec x0 x1 (constant ⟨2, ![a, B]⟩ .f32 0x00000000#32) (ix2 p q)
      = Host.dotGeneral D prec' X Wt (ix2 r q) := by
  rw [hd.matmul_apply, hD.dotGeneral_apply]
  exact Finset.sum_congr rfl fun k _ => by rw [h0 k, h1 k]

end Cert.Bridge.RowBand

end
-- ==== Proof.Region0.lean ====
/-
  What region 0 leaves in its result array, over the extended reals.

  The region multiplies the matrix X ([50000, 128]) by the weights Wt ([128, 512]) one band of 2000 rows at a time: grid
  point t (of 25) reads rows 2000·t … 2000·t + 1999 of X and the whole of Wt, forms the band's product on the matrix unit
  into a zero accumulator (the changes of float format on the way in are the identity on extended reals), and writes
  it to rows 2000·t … 2000·t + 1999 of the result. Entry (p, q) of a band's product is ∑ k, X(2000·t + p, k) · Wt(k, q),
  which is entry (2000·t + p, q) of the product of the whole matrices; the 25 bands are disjoint and cover the 50000
  rows (row r is in band r / 2000). So the result array ends holding X · Wt, spelt as the host's product.
-/
import proofs.«157516_j44770739094124_1_alg».proof.Proof.Gen.KernelIdeal.Frame
import proofs.«157516_j44770739094124_1_alg».proof.Proof.Gen.ReferenceIdeal
import proofs.«157516_j44770739094124_1_alg».proof.Proof.RegionLib
import Idealize.ShloMosaic.PureOps.Ideal
import Idealize.ShloMosaic.Lib.Pipeline.Value

noncomputable section

open Cert.KernelIdeal Cert.KernelIdeal.Gen Idealize.ShloMosaic Idealize.ShloMosaic.ValueIdx Idealize.ShloMosaic.TcCoe Idealize.SL.Sem
open Idealize.ShloMosaic.Pipeline (Dat)

namespace Cert.Bridge.RowBand

/-- The matrix unit's product of a band [2000, 128] with the weights [128, 512] is an ordinary matrix product, -/
theorem unit_dims0 : IsPlain Cert.KernelIdeal.dot_S2000x128_S128x512_S2000x512_1_0_0_1_n_n := ⟨rfl, rfl, rfl, rfl, rfl, rfl⟩
/-- and so is the host's product of [50000, 128] with [128, 512]. -/
theorem host_dims0 : IsPlain Cert.ReferenceIdeal.dot_S50000x128_S128x512_S50000x512_1_0_0_1_n_n := ⟨rfl, rfl, rfl, rfl, rfl, rfl⟩

/-- The product of X ([50000, 128]) with Wt ([128, 512]), as the host forms it. -/
abbrev product0 (X : FVec Ideal S50000x128 .f32) (Wt : FVec Ideal S128x512 .f32) : FVec Ideal S50000x512 .f32 :=
  Host.dotGeneral (F := Ideal) Cert.ReferenceIdeal.dot_S50000x128_S128x512_S50000x512_1_0_0_1_n_n none X Wt

/-- The body's arithmetic at entry (p, q) of a band: when row p of the band x0 is row r of X and x1 is Wt on column q,
    it is entry (r, q) of the product X · Wt. -/
theorem band0_entry (x0 : Vec Ideal S2000x128 .f32) (x1 : Vec Ideal S128x512 .f32)
    (X : FVec Ideal S50000x128 .f32) (Wt : FVec Ideal S128x512 .f32) (p : Fin 2000) (r : Fin 50000) (q : Fin 512)
    (h0 : ∀ k : Fin 128, x0 (ix2 p k) = X (ix2 r k)) (h1 : ∀ k : Fin 128, x1 (ix2 k q) = Wt (ix2 k q)) :
    k0_pay1 x0 x1 (ix2 p q) = product0 X Wt (ix2 r q) := by
  unfold k0_pay1
  exact band_entry (φ₁ := .bf16) (φ₂ := .bf16) unit_dims0 host_dims0 none none
    (truncf .bf16 x0 bitsLt_bf16_f32) (truncf .bf16 x1 bitsLt_bf16_f32) X Wt p r q h0 h1

/-- Where the three windows' blocks sit at grid point t: the band of X and the band of the result are block t along the
    rows; the weights' block is the whole matrix. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- Row p of the band of X at point t is row 2000·t + p of X. -/
theorem band0_rows (c : Dev nD) (t : Fin cfg0.N) (p : Fin 2000) (k : Fin 128) (r : Fin 50000)
    (hr : r.val = t.val * 2000 + p.val) :
    (iblk0 V c 0 t : Vec Ideal S2000x128 .f32) (ix2 p k) = (V c main_arg0 : FVec Ideal S50000x128 .f32) (ix2 r k) := by
  obtain ⟨e0, e1, -⟩ := block_indices0 t
  show V c main_arg0 (((cfg0.win 0).blk t).view.emb (ix2 p k)) = V c main_arg0 (ix2 r k)
  have e : ((cfg0.win 0).blk t).view.emb (ix2 p k) = ix2 r k := by
    funext a; apply Fin.ext
    match a with
    | ⟨0, _⟩ => show win0_0.index t (0 : Fin 2) * 2000 + 1 * p.val = r.val; rw [e0, hr]; omega
    | ⟨1, _⟩ => show win0_0.index t (1 : Fin 2) * 128 + 1 * k.val = k.val; rw [e1]; omega
  rw [e]

/-- The weights' block at every point is the weight matrix. -/
theorem band0_weights (c : Dev nD) (t : Fin cfg0.N) (k : Fin 128) (q : Fin 512) :
    (iblk0 V c 1 t : Vec Ideal S128x512 .f32) (ix2 k q) = (V c main_arg3 : FVec Ideal S128x512 .f32) (ix2 k q) := by
  obtain ⟨-, -, e0, e1, -⟩ := block_indices0 t
  show V c main_arg3 (((cfg0.win 1).blk t).view.emb (ix2 k q)) = V c main_arg3 (ix2 k q)
  have e : ((cfg0.win 1).blk t).view.emb (ix2 k q) = ix2 k q := by
    funext a; apply Fin.ext
    match a with
    | ⟨0, _⟩ => show win0_1.index t (0 : Fin 2) * 128 + 1 * k.val = k.val; rw [e0]; omega
    | ⟨1, _⟩ => show win0_1.index t (1 : Fin 2) * 512 + 1 * q.val = q.val; rw [e1]; omega
  rw [e]

/-- What point t writes back is band t of the product of the two arrays as the region finds them. -/
theorem written0 (c : Dev nD) (t : Fin cfg0.N) :
    (dat0 V c).flushed 2 t
      = ((cfg0.win 2).blk t).view.read (Elt Ideal) (product0 (V c main_arg0) (V c main_arg3)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x512) zero_offsets]
  have hN : cfg0.N = 25 := N_0
  have ht : t.val < cfg0.N := t.isLt
  obtain ⟨-, -, -, -, e0, e1⟩ := block_indices0 t
  funext j
  obtain ⟨p, q, rfl⟩ : ∃ (p : Fin 2000) (q : Fin 512), j = ix2 p q := ⟨j 0, j 1, eq_ix2 j⟩
  have hp : p.val < 2000 := p.isLt
  let r : Fin 50000 := ⟨t.val * 2000 + p.val, by omega⟩
  have e : ((cfg0.win 2).blk t).view.emb (ix2 p q) = ix2 r q := by
    funext a; apply Fin.ext
    match a with
    | ⟨0, _⟩ => show win0_2.index t (0 : Fin 2) * 2000 + 1 * p.val = t.val * 2000 + p.val; rw [e0]; omega
    | ⟨1, _⟩ => show win0_2.index t (1 : Fin 2) * 512 + 1 * q.val = q.val; rw [e1]; omega
  show k0_pay1 (iblk0 V c 0 t) (iblk0 V c 1 t) (ix2 p q)
    = product0 (V c main_arg0) (V c main_arg3) (((cfg0.win 2).blk t).view.emb (ix2 p q))
  rw [e]
  exact band0_entry (iblk0 V c 0 t) (iblk0 V c 1 t) (V c main_arg0) (V c main_arg3) p r q
    (fun k => band0_rows V c t p k r rfl) (fun k => band0_weights V c t k q)

/-- An index of the result lies in point t's block iff, on each axis, its coordinate is in the block's range. -/
theorem mem_band0 (t : Fin cfg0.N) (i : S50000x512.Idx) :
    i ∈ ((cfg0.win 2).blk t).view.set ↔ ∀ a : Fin 2, win0_2.index t a * S2000x512.size a ≤ (i a).val
      ∧ (i a).val < win0_2.index t a * S2000x512.size a + S2000x512.size a := by
  show i ∈ ((View.whole main_v32).slice (win0_2.rect t)).set ↔ _
  rw [View.set_slice_whole, Rect.mem_set_unit]
  exact Iff.rfl

/-- Every row of the result is in the band of the point numbered row / 2000. -/
theorem bands_cover0 (i : S50000x512.Idx) :
    ∃ t : Fin cfg0.N, (cfg0.win 2).flush t = true ∧ i ∈ ((cfg0.win 2).blk t).view.set := by
  have hN : cfg0.N = 25 := N_0
  have hi0 : (i 0).val < 50000 := (i 0).isLt
  have hi1 : (i 1).val < 512 := (i 1).isLt
  let t : Fin cfg0.N := ⟨(i 0).val / 2000, by omega⟩
  obtain ⟨-, -, -, -, e0, e1⟩ := block_indices0 t
  have e0' : win0_2.index t (0 : Fin 2) = (i 0).val / 2000 := e0
  refine ⟨t, flush0_2 t, ?_⟩
  rw [mem_band0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 512 ≤ (i 1).val ∧ (i 1).val < win0_2.index t (1 : Fin 2) * 512 + 512; omega

/-- So the result array ends holding the product. -/
theorem result0 (c : Dev nD) :
    (dat0 V c).arrAt 2 cfg0.N = product0 (V c main_arg0) (V c main_arg3) :=
  (dat0 V c).arrAt_eq_of_cover 2 (product0 (V c main_arg0) (V c main_arg3)) (fun t _ => written0 V c t) bands_cover0

end

end Cert.Bridge.RowBand

namespace Cert.Bridge

/-- Region 0 leaves in its result array the host's product of the two arrays it reads. -/
theorem region0_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W4 m ρ c (Proc.devRef .tc Cert.KernelIdeal.main_v32)
      = Host.dotGeneral (F := Ideal) (φ₁ := .f32) (φ₂ := .f32) Cert.ReferenceIdeal.dot_S50000x128_S128x512_S50000x512_1_0_0_1_n_n none
          (Cert.KernelIdeal.Gen.W3 m ρ c (Proc.devRef .tc Cert.KernelIdeal.main_arg0)) (Cert.KernelIdeal.Gen.W3 m ρ c (Proc.devRef .tc Cert.KernelIdeal.main_arg3)) :=
  (W4_arr m ρ c 2).trans (RowBand.result0 (V3 m ρ) c)

end Cert.Bridge

end
-- ==== Proof.Region1.lean ====
/-
  What region 1 leaves in its result array, over the extended reals.

  The region multiplies the matrix X ([50000, 512]) by the weights Wt ([512, 512]) one band of 2000 rows at a time: grid
  point t (of 25) reads rows 2000·t … 2000·t + 1999 of X and the whole of Wt, forms the band's product on the matrix unit
  into a zero accumulator (the reshapes to the same shape and the changes of float format on the way in are the identity
  on extended reals), and writes it to rows 2000·t … 2000·t + 1999 of the result. Entry (p, q) of a band's product is
  ∑ k, X(2000·t + p, k) · Wt(k, q), which is entry (2000·t + p, q) of the product of the whole matrices; the 25 bands
  are disjoint and cover the 50000 rows (row r is in band r / 2000). So the result array ends holding X · Wt, spelt as
  the host's product.
-/
import proofs.«157516_j44770739094124_1_alg».proof.Proof.Gen.KernelIdeal.Frame
import proofs.«157516_j44770739094124_1_alg».proof.Proof.Gen.ReferenceIdeal
import proofs.«157516_j44770739094124_1_alg».proof.Proof.RegionLib
import Idealize.ShloMosaic.PureOps.Ideal
import Idealize.ShloMosaic.Lib.Pipeline.Value

noncomputable section

open Cert.KernelIdeal Cert.KernelIdeal.Gen Idealize.ShloMosaic Idealize.ShloMosaic.ValueIdx Idealize.ShloMosaic.TcCoe Idealize.SL.Sem
open Idealize.ShloMosaic.Pipeline (Dat)

namespace Cert.Bridge.RowBand

/-- The matrix unit's product of a band [2000, 512] with the weights [512, 512] is an ordinary matrix product, -/
theorem unit_dims1 : IsPlain Cert.KernelIdeal.dot_S2000x512_S512x512_S2000x512_1_0_0_1_n_n := ⟨rfl, rfl, rfl, rfl, rfl, rfl⟩
/-- and so is the host's product of [50000, 512] with [512, 512]. -/
theorem host_dims1 : IsPlain Cert.ReferenceIdeal.dot_S50000x512_S512x512_S50000x512_1_0_0_1_n_n := ⟨rfl, rfl, rfl, rfl, rfl, rfl⟩

/-- The product of X ([50000, 512]) with Wt ([512, 512]), as the host forms it. -/
abbrev product1 (X : FVec Ideal S50000x512 .f32) (Wt : FVec Ideal S512x512 .f32) : FVec Ideal S50000x512 .f32 :=
  Host.dotGeneral (F := Ideal) Cert.ReferenceIdeal.dot_S50000x512_S512x512_S50000x512_1_0_0_1_n_n none X Wt

/-- The body's arithmetic at entry (p, q) of a band: when row p of the band x0 is row r of X and x1 is Wt on column q,
    it is entry (r, q) of the product X · Wt. -/
theorem band1_entry (x0 : Vec Ideal S2000x512 .f32) (x1 : Vec Ideal S512x512 .f32)
    (X : FVec Ideal S50000x512 .f32) (Wt : FVec Ideal S512x512 .f32) (p : Fin 2000) (r : Fin 50000) (q : Fin 512)
    (h0 : ∀ k : Fin 512, x0 (ix2 p k) = X (ix2 r k)) (h1 : ∀ k : Fin 512, x1 (ix2 k q) = Wt (ix2 k q)) :
    k1_pay1 x0 x1 (ix2 p q) = product1 X Wt (ix2 r q) := by
  unfold k1_pay1
  exact band_entry (φ₁ := .bf16) (φ₂ := .bf16) unit_dims1 host_dims1 none none
    (truncf .bf16 (shapeCast S2000x512 x0 shapeCasts_S2000x512_S2000x512) bitsLt_bf16_f32)
      (truncf .bf16 (shapeCast S512x512 x1 shapeCasts_S512x512_S512x512) bitsLt_bf16_f32) X Wt p r q (fun k => (congrFun (shapeCast_self x0 shapeCasts_S2000x512_S2000x512) (ix2 p k)).trans (h0 k))
    (fun k => (congrFun (shapeCast_self x1 shapeCasts_S512x512_S512x512) (ix2 k q)).trans (h1 k))

/-- Where the three windows' blocks sit at grid point t: the band of X and the band of the result are block t along the
    rows; the weights' block is the whole matrix. -/
theorem block_indices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- Row p of the band of X at point t is row 2000·t + p of X. -/
theorem band1_rows (c : Dev nD) (t : Fin cfg1.N) (p : Fin 2000) (k : Fin 512) (r : Fin 50000)
    (hr : r.val = t.val * 2000 + p.val) :
    (iblk1 V c 0 t : Vec Ideal S2000x512 .f32) (ix2 p k) = (V c main_v72 : FVec Ideal S50000x512 .f32) (ix2 r k) := by
  obtain ⟨e0, e1, -⟩ := block_indices1 t
  show V c main_v72 (((cfg1.win 0).blk t).view.emb (ix2 p k)) = V c main_v72 (ix2 r k)
  have e : ((cfg1.win 0).blk t).view.emb (ix2 p k) = ix2 r k := by
    funext a; apply Fin.ext
    match a with
    | ⟨0, _⟩ => show win1_0.index t (0 : Fin 2) * 2000 + 1 * p.val = r.val; rw [e0, hr]; omega
    | ⟨1, _⟩ => show win1_0.index t (1 : Fin 2) * 512 + 1 * k.val = k.val; rw [e1]; omega
  rw [e]

/-- The weights' block at every point is the weight matrix. -/
theorem band1_weights (c : Dev nD) (t : Fin cfg1.N) (k : Fin 512) (q : Fin 512) :
    (iblk1 V c 1 t : Vec Ideal S512x512 .f32) (ix2 k q) = (V c main_v74 : FVec Ideal S512x512 .f32) (ix2 k q) := by
  obtain ⟨-, -, e0, e1, -⟩ := block_indices1 t
  show V c main_v74 (((cfg1.win 1).blk t).view.emb (ix2 k q)) = V c main_v74 (ix2 k q)
  have e : ((cfg1.win 1).blk t).view.emb (ix2 k q) = ix2 k q := by
    funext a; apply Fin.ext
    match a with
    | ⟨0, _⟩ => show win1_1.index t (0 : Fin 2) * 512 + 1 * k.val = k.val; rw [e0]; omega
    | ⟨1, _⟩ => show win1_1.index t (1 : Fin 2) * 512 + 1 * q.val = q.val; rw [e1]; omega
  rw [e]

/-- What point t writes back is band t of the product of the two arrays as the region finds them. -/
theorem written1 (c : Dev nD) (t : Fin cfg1.N) :
    (dat1 V c).flushed 2 t
      = ((cfg1.win 2).blk t).view.read (Elt Ideal) (product1 (V c main_v72) (V c main_v74)) := by
  show (cfg1.win 2).cut (grid1.coords t) ((dat1 V c).after 2 t) = _
  rw [after1_2]
  unfold out1_2
  rw [View.canon_unit_zero zero_offsets]
  simp only [View.ld_unit_zero (S := S2000x512) zero_offsets, View.ld_unit_zero (S := S512x512) zero_offsets]
  have hN : cfg1.N = 25 := N_1
  have ht : t.val < cfg1.N := t.isLt
  obtain ⟨-, -, -, -, e0, e1⟩ := block_indices1 t
  funext j
  obtain ⟨p, q, rfl⟩ : ∃ (p : Fin 2000) (q : Fin 512), j = ix2 p q := ⟨j 0, j 1, eq_ix2 j⟩
  have hp : p.val < 2000 := p.isLt
  let r : Fin 50000 := ⟨t.val * 2000 + p.val, by omega⟩
  have e : ((cfg1.win 2).blk t).view.emb (ix2 p q) = ix2 r q := by
    funext a; apply Fin.ext
    match a with
    | ⟨0, _⟩ => show win1_2.index t (0 : Fin 2) * 2000 + 1 * p.val = t.val * 2000 + p.val; rw [e0]; omega
    | ⟨1, _⟩ => show win1_2.index t (1 : Fin 2) * 512 + 1 * q.val = q.val; rw [e1]; omega
  show k1_pay1 (iblk1 V c 0 t) (iblk1 V c 1 t) (ix2 p q)
    = product1 (V c main_v72) (V c main_v74) (((cfg1.win 2).blk t).view.emb (ix2 p q))
  rw [e]
  exact band1_entry (iblk1 V c 0 t) (iblk1 V c 1 t) (V c main_v72) (V c main_v74) p r q
    (fun k => band1_rows V c t p k r rfl) (fun k => band1_weights V c t k q)

/-- An index of the result lies in point t's block iff, on each axis, its coordinate is in the block's range. -/
theorem mem_band1 (t : Fin cfg1.N) (i : S50000x512.Idx) :
    i ∈ ((cfg1.win 2).blk t).view.set ↔ ∀ a : Fin 2, win1_2.index t a * S2000x512.size a ≤ (i a).val
      ∧ (i a).val < win1_2.index t a * S2000x512.size a + S2000x512.size a := by
  show i ∈ ((View.whole main_v77).slice (win1_2.rect t)).set ↔ _
  rw [View.set_slice_whole, Rect.mem_set_unit]
  exact Iff.rfl

/-- Every row of the result is in the band of the point numbered row / 2000. -/
theorem bands_cover1 (i : S50000x512.Idx) :
    ∃ t : Fin cfg1.N, (cfg1.win 2).flush t = true ∧ i ∈ ((cfg1.win 2).blk t).view.set := by
  have hN : cfg1.N = 25 := N_1
  have hi0 : (i 0).val < 50000 := (i 0).isLt
  have hi1 : (i 1).val < 512 := (i 1).isLt
  let t : Fin cfg1.N := ⟨(i 0).val / 2000, by omega⟩
  obtain ⟨-, -, -, -, e0, e1⟩ := block_indices1 t
  have e0' : win1_2.index t (0 : Fin 2) = (i 0).val / 2000 := e0
  refine ⟨t, flush1_2 t, ?_⟩
  rw [mem_band1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 512 ≤ (i 1).val ∧ (i 1).val < win1_2.index t (1 : Fin 2) * 512 + 512; omega

/-- So the result array ends holding the product. -/
theorem result1 (c : Dev nD) :
    (dat1 V c).arrAt 2 cfg1.N = product1 (V c main_v72) (V c main_v74) :=
  (dat1 V c).arrAt_eq_of_cover 2 (product1 (V c main_v72) (V c main_v74)) (fun t _ => written1 V c t) bands_cover1

end

end Cert.Bridge.RowBand

namespace Cert.Bridge

/-- Region 1 leaves in its result array the host's product of the two arrays it reads. -/
theorem region1_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W10 m ρ c (Proc.devRef .tc Cert.KernelIdeal.main_v77)
      = Host.dotGeneral (F := Ideal) (φ₁ := .f32) (φ₂ := .f32) Cert.ReferenceIdeal.dot_S50000x512_S512x512_S50000x512_1_0_0_1_n_n none
          (Cert.KernelIdeal.Gen.W9 m ρ c (Proc.devRef .tc Cert.KernelIdeal.main_v72)) (Cert.KernelIdeal.Gen.W9 m ρ c (Proc.devRef .tc Cert.KernelIdeal.main_v74)) :=
  (W10_arr m ρ c 2).trans (RowBand.result1 (V9 m ρ) c)

end Cert.Bridge

end
-- ==== Proof.Region2.lean ====
/-
  What region 2 leaves in its result array, over the extended reals.

  The region multiplies the matrix X ([50000, 512]) by the weights Wt ([512, 512]) one band of 2000 rows at a time: grid
  point t (of 25) reads rows 2000·t … 2000·t + 1999 of X and the whole of Wt, forms the band's product on the matrix unit
  into a zero accumulator (the reshapes to the same shape and the changes of float format on the way in are the identity
  on extended reals), and writes it to rows 2000·t … 2000·t + 1999 of the result. Entry (p, q) of a band's product is
  ∑ k, X(2000·t + p, k) · Wt(k, q), which is entry (2000·t + p, q) of the product of the whole matrices; the 25 bands
  are disjoint and cover the 50000 rows (row r is in band r / 2000). So the result array ends holding X · Wt, spelt as
  the host's product.
-/
import proofs.«157516_j44770739094124_1_alg».proof.Proof.Gen.KernelIdeal.Frame
import proofs.«157516_j44770739094124_1_alg».proof.Proof.Gen.ReferenceIdeal
import proofs.«157516_j44770739094124_1_alg».proof.Proof.RegionLib
import Idealize.ShloMosaic.PureOps.Ideal
import Idealize.ShloMosaic.Lib.Pipeline.Value

noncomputable section

open Cert.KernelIdeal Cert.KernelIdeal.Gen Idealize.ShloMosaic Idealize.ShloMosaic.ValueIdx Idealize.ShloMosaic.TcCoe Idealize.SL.Sem
open Idealize.ShloMosaic.Pipeline (Dat)

namespace Cert.Bridge.RowBand

/-- The matrix unit's product of a band [2000, 512] with the weights [512, 512] is an ordinary matrix product, -/
theorem unit_dims2 : IsPlain Cert.KernelIdeal.dot_S2000x512_S512x512_S2000x512_1_0_0_1_n_n := ⟨rfl, rfl, rfl, rfl, rfl, rfl⟩
/-- and so is the host's product of [50000, 512] with [512, 512]. -/
theorem host_dims2 : IsPlain Cert.ReferenceIdeal.dot_S50000x512_S512x512_S50000x512_1_0_0_1_n_n := ⟨rfl, rfl, rfl, rfl, rfl, rfl⟩

/-- The product of X ([50000, 512]) with Wt ([512, 512]), as the host forms it. -/
abbrev product2 (X : FVec Ideal S50000x512 .f32) (Wt : FVec Ideal S512x512 .f32) : FVec Ideal S50000x512 .f32 :=
  Host.dotGeneral (F := Ideal) Cert.ReferenceIdeal.dot_S50000x512_S512x512_S50000x512_1_0_0_1_n_n none X Wt

/-- The body's arithmetic at entry (p, q) of a band: when row p of the band x0 is row r of X and x1 is Wt on column q,
    it is entry (r, q) of the product X · Wt. -/
theorem band2_entry (x0 : Vec Ideal S2000x512 .f32) (x1 : Vec Ideal S512x512 .f32)
    (X : FVec Ideal S50000x512 .f32) (Wt : FVec Ideal S512x512 .f32) (p : Fin 2000) (r : Fin 50000) (q : Fin 512)
    (h0 : ∀ k : Fin 512, x0 (ix2 p k) = X (ix2 r k)) (h1 : ∀ k : Fin 512, x1 (ix2 k q) = Wt (ix2 k q)) :
    k2_pay1 x0 x1 (ix2 p q) = product2 X Wt (ix2 r q) := by
  unfold k2_pay1
  exact band_entry (φ₁ := .bf16) (φ₂ := .bf16) unit_dims2 host_dims2 none none
    (truncf .bf16 (shapeCast S2000x512 x0 shapeCasts_S2000x512_S2000x512) bitsLt_bf16_f32)
      (truncf .bf16 (shapeCast S512x512 x1 shapeCasts_S512x512_S512x512) bitsLt_bf16_f32) X Wt p r q (fun k => (congrFun (shapeCast_self x0 shapeCasts_S2000x512_S2000x512) (ix2 p k)).trans (h0 k))
    (fun k => (congrFun (shapeCast_self x1 shapeCasts_S512x512_S512x512) (ix2 k q)).trans (h1 k))

/-- Where the three windows' blocks sit at grid point t: the band of X and the band of the result are block t along the
    rows; the weights' block is the whole matrix. -/
theorem block_indices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b))

/-- Row p of the band of X at point t is row 2000·t + p of X. -/
theorem band2_rows (c : Dev nD) (t : Fin cfg2.N) (p : Fin 2000) (k : Fin 512) (r : Fin 50000)
    (hr : r.val = t.val * 2000 + p.val) :
    (iblk2 V c 0 t : Vec Ideal S2000x512 .f32) (ix2 p k) = (V c main_v117 : FVec Ideal S50000x512 .f32) (ix2 r k) := by
  obtain ⟨e0, e1, -⟩ := block_indices2 t
  show V c main_v117 (((cfg2.win 0).blk t).view.emb (ix2 p k)) = V c main_v117 (ix2 r k)
  have e : ((cfg2.win 0).blk t).view.emb (ix2 p k) = ix2 r k := by
    funext a; apply Fin.ext
    match a with
    | ⟨0, _⟩ => show win2_0.index t (0 : Fin 2) * 2000 + 1 * p.val = r.val; rw [e0, hr]; omega
    | ⟨1, _⟩ => show win2_0.index t (1 : Fin 2) * 512 + 1 * k.val = k.val; rw [e1]; omega
  rw [e]

/-- The weights' block at every point is the weight matrix. -/
theorem band2_weights (c : Dev nD) (t : Fin cfg2.N) (k : Fin 512) (q : Fin 512) :
    (iblk2 V c 1 t : Vec Ideal S512x512 .f32) (ix2 k q) = (V c main_v119 : FVec Ideal S512x512 .f32) (ix2 k q) := by
  obtain ⟨-, -, e0, e1, -⟩ := block_indices2 t
  show V c main_v119 (((cfg2.win 1).blk t).view.emb (ix2 k q)) = V c main_v119 (ix2 k q)
  have e : ((cfg2.win 1).blk t).view.emb (ix2 k q) = ix2 k q := by
    funext a; apply Fin.ext
    match a with
    | ⟨0, _⟩ => show win2_1.index t (0 : Fin 2) * 512 + 1 * k.val = k.val; rw [e0]; omega
    | ⟨1, _⟩ => show win2_1.index t (1 : Fin 2) * 512 + 1 * q.val = q.val; rw [e1]; omega
  rw [e]

/-- What point t writes back is band t of the product of the two arrays as the region finds them. -/
theorem written2 (c : Dev nD) (t : Fin cfg2.N) :
    (dat2 V c).flushed 2 t
      = ((cfg2.win 2).blk t).view.read (Elt Ideal) (product2 (V c main_v117) (V c main_v119)) := by
  show (cfg2.win 2).cut (grid2.coords t) ((dat2 V c).after 2 t) = _
  rw [after2_2]
  unfold out2_2
  rw [View.canon_unit_zero zero_offsets]
  simp only [View.ld_unit_zero (S := S2000x512) zero_offsets, View.ld_unit_zero (S := S512x512) zero_offsets]
  have hN : cfg2.N = 25 := N_2
  have ht : t.val < cfg2.N := t.isLt
  obtain ⟨-, -, -, -, e0, e1⟩ := block_indices2 t
  funext j
  obtain ⟨p, q, rfl⟩ : ∃ (p : Fin 2000) (q : Fin 512), j = ix2 p q := ⟨j 0, j 1, eq_ix2 j⟩
  have hp : p.val < 2000 := p.isLt
  let r : Fin 50000 := ⟨t.val * 2000 + p.val, by omega⟩
  have e : ((cfg2.win 2).blk t).view.emb (ix2 p q) = ix2 r q := by
    funext a; apply Fin.ext
    match a with
    | ⟨0, _⟩ => show win2_2.index t (0 : Fin 2) * 2000 + 1 * p.val = t.val * 2000 + p.val; rw [e0]; omega
    | ⟨1, _⟩ => show win2_2.index t (1 : Fin 2) * 512 + 1 * q.val = q.val; rw [e1]; omega
  show k2_pay1 (iblk2 V c 0 t) (iblk2 V c 1 t) (ix2 p q)
    = product2 (V c main_v117) (V c main_v119) (((cfg2.win 2).blk t).view.emb (ix2 p q))
  rw [e]
  exact band2_entry (iblk2 V c 0 t) (iblk2 V c 1 t) (V c main_v117) (V c main_v119) p r q
    (fun k => band2_rows V c t p k r rfl) (fun k => band2_weights V c t k q)

/-- An index of the result lies in point t's block iff, on each axis, its coordinate is in the block's range. -/
theorem mem_band2 (t : Fin cfg2.N) (i : S50000x512.Idx) :
    i ∈ ((cfg2.win 2).blk t).view.set ↔ ∀ a : Fin 2, win2_2.index t a * S2000x512.size a ≤ (i a).val
      ∧ (i a).val < win2_2.index t a * S2000x512.size a + S2000x512.size a := by
  show i ∈ ((View.whole main_v122).slice (win2_2.rect t)).set ↔ _
  rw [View.set_slice_whole, Rect.mem_set_unit]
  exact Iff.rfl

/-- Every row of the result is in the band of the point numbered row / 2000. -/
theorem bands_cover2 (i : S50000x512.Idx) :
    ∃ t : Fin cfg2.N, (cfg2.win 2).flush t = true ∧ i ∈ ((cfg2.win 2).blk t).view.set := by
  have hN : cfg2.N = 25 := N_2
  have hi0 : (i 0).val < 50000 := (i 0).isLt
  have hi1 : (i 1).val < 512 := (i 1).isLt
  let t : Fin cfg2.N := ⟨(i 0).val / 2000, by omega⟩
  obtain ⟨-, -, -, -, e0, e1⟩ := block_indices2 t
  have e0' : win2_2.index t (0 : Fin 2) = (i 0).val / 2000 := e0
  refine ⟨t, flush2_2 t, ?_⟩
  rw [mem_band2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 512 ≤ (i 1).val ∧ (i 1).val < win2_2.index t (1 : Fin 2) * 512 + 512; omega

/-- So the result array ends holding the product. -/
theorem result2 (c : Dev nD) :
    (dat2 V c).arrAt 2 cfg2.N = product2 (V c main_v117) (V c main_v119) :=
  (dat2 V c).arrAt_eq_of_cover 2 (product2 (V c main_v117) (V c main_v119)) (fun t _ => written2 V c t) bands_cover2

end

end Cert.Bridge.RowBand

namespace Cert.Bridge

/-- Region 2 leaves in its result array the host's product of the two arrays it reads. -/
theorem region2_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W16 m ρ c (Proc.devRef .tc Cert.KernelIdeal.main_v122)
      = Host.dotGeneral (F := Ideal) (φ₁ := .f32) (φ₂ := .f32) Cert.ReferenceIdeal.dot_S50000x512_S512x512_S50000x512_1_0_0_1_n_n none
          (Cert.KernelIdeal.Gen.W15 m ρ c (Proc.devRef .tc Cert.KernelIdeal.main_v117)) (Cert.KernelIdeal.Gen.W15 m ρ c (Proc.devRef .tc Cert.KernelIdeal.main_v119)) :=
  (W16_arr m ρ c 2).trans (RowBand.result2 (V15 m ρ) c)

end Cert.Bridge

end
-- ==== Proof.Region3.lean ====
/-
  What region 3 leaves in its result array, over the extended reals.

  The region multiplies the matrix X ([50000, 512]) by the weights Wt ([512, 512]) one band of 2000 rows at a time: grid
  point t (of 25) reads rows 2000·t … 2000·t + 1999 of X and the whole of Wt, forms the band's product on the matrix unit
  into a zero accumulator (the reshapes to the same shape and the changes of float format on the way in are the identity
  on extended reals), and writes it to rows 2000·t … 2000·t + 1999 of the result. Entry (p, q) of a band's product is
  ∑ k, X(2000·t + p, k) · Wt(k, q), which is entry (2000·t + p, q) of the product of the whole matrices; the 25 bands
  are disjoint and cover the 50000 rows (row r is in band r / 2000). So the result array ends holding X · Wt, spelt as
  the host's product.
-/
import proofs.«157516_j44770739094124_1_alg».proof.Proof.Gen.KernelIdeal.Frame
import proofs.«157516_j44770739094124_1_alg».proof.Proof.Gen.ReferenceIdeal
import proofs.«157516_j44770739094124_1_alg».proof.Proof.RegionLib
import Idealize.ShloMosaic.PureOps.Ideal
import Idealize.ShloMosaic.Lib.Pipeline.Value

noncomputable section

open Cert.KernelIdeal Cert.KernelIdeal.Gen Idealize.ShloMosaic Idealize.ShloMosaic.ValueIdx Idealize.ShloMosaic.TcCoe Idealize.SL.Sem
open Idealize.ShloMosaic.Pipeline (Dat)

namespace Cert.Bridge.RowBand

/-- The matrix unit's product of a band [2000, 512] with the weights [512, 512] is an ordinary matrix product, -/
theorem unit_dims3 : IsPlain Cert.KernelIdeal.dot_S2000x512_S512x512_S2000x512_1_0_0_1_n_n := ⟨rfl, rfl, rfl, rfl, rfl, rfl⟩
/-- and so is the host's product of [50000, 512] with [512, 512]. -/
theorem host_dims3 : IsPlain Cert.ReferenceIdeal.dot_S50000x512_S512x512_S50000x512_1_0_0_1_n_n := ⟨rfl, rfl, rfl, rfl, rfl, rfl⟩

/-- The product of X ([50000, 512]) with Wt ([512, 512]), as the host forms it. -/
abbrev product3 (X : FVec Ideal S50000x512 .f32) (Wt : FVec Ideal S512x512 .f32) : FVec Ideal S50000x512 .f32 :=
  Host.dotGeneral (F := Ideal) Cert.ReferenceIdeal.dot_S50000x512_S512x512_S50000x512_1_0_0_1_n_n none X Wt

/-- The body's arithmetic at entry (p, q) of a band: when row p of the band x0 is row r of X and x1 is Wt on column q,
    it is entry (r, q) of the product X · Wt. -/
theorem band3_entry (x0 : Vec Ideal S2000x512 .f32) (x1 : Vec Ideal S512x512 .f32)
    (X : FVec Ideal S50000x512 .f32) (Wt : FVec Ideal S512x512 .f32) (p : Fin 2000) (r : Fin 50000) (q : Fin 512)
    (h0 : ∀ k : Fin 512, x0 (ix2 p k) = X (ix2 r k)) (h1 : ∀ k : Fin 512, x1 (ix2 k q) = Wt (ix2 k q)) :
    k3_pay1 x0 x1 (ix2 p q) = product3 X Wt (ix2 r q) := by
  unfold k3_pay1
  exact band_entry (φ₁ := .bf16) (φ₂ := .bf16) unit_dims3 host_dims3 none none
    (truncf .bf16 (shapeCast S2000x512 x0 shapeCasts_S2000x512_S2000x512) bitsLt_bf16_f32)
      (truncf .bf16 (shapeCast S512x512 x1 shapeCasts_S512x512_S512x512) bitsLt_bf16_f32) X Wt p r q (fun k => (congrFun (shapeCast_self x0 shapeCasts_S2000x512_S2000x512) (ix2 p k)).trans (h0 k))
    (fun k => (congrFun (shapeCast_self x1 shapeCasts_S512x512_S512x512) (ix2 k q)).trans (h1 k))

/-- Where the three windows' blocks sit at grid point t: the band of X and the band of the result are block t along the
    rows; the weights' block is the whole matrix. -/
theorem block_indices3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

/-- Row p of the band of X at point t is row 2000·t + p of X. -/
theorem band3_rows (c : Dev nD) (t : Fin cfg3.N) (p : Fin 2000) (k : Fin 512) (r : Fin 50000)
    (hr : r.val = t.val * 2000 + p.val) :
    (iblk3 V c 0 t : Vec Ideal S2000x512 .f32) (ix2 p k) = (V c main_v162 : FVec Ideal S50000x512 .f32) (ix2 r k) := by
  obtain ⟨e0, e1, -⟩ := block_indices3 t
  show V c main_v162 (((cfg3.win 0).blk t).view.emb (ix2 p k)) = V c main_v162 (ix2 r k)
  have e : ((cfg3.win 0).blk t).view.emb (ix2 p k) = ix2 r k := by
    funext a; apply Fin.ext
    match a with
    | ⟨0, _⟩ => show win3_0.index t (0 : Fin 2) * 2000 + 1 * p.val = r.val; rw [e0, hr]; omega
    | ⟨1, _⟩ => show win3_0.index t (1 : Fin 2) * 512 + 1 * k.val = k.val; rw [e1]; omega
  rw [e]

/-- The weights' block at every point is the weight matrix. -/
theorem band3_weights (c : Dev nD) (t : Fin cfg3.N) (k : Fin 512) (q : Fin 512) :
    (iblk3 V c 1 t : Vec Ideal S512x512 .f32) (ix2 k q) = (V c main_v164 : FVec Ideal S512x512 .f32) (ix2 k q) := by
  obtain ⟨-, -, e0, e1, -⟩ := block_indices3 t
  show V c main_v164 (((cfg3.win 1).blk t).view.emb (ix2 k q)) = V c main_v164 (ix2 k q)
  have e : ((cfg3.win 1).blk t).view.emb (ix2 k q) = ix2 k q := by
    funext a; apply Fin.ext
    match a with
    | ⟨0, _⟩ => show win3_1.index t (0 : Fin 2) * 512 + 1 * k.val = k.val; rw [e0]; omega
    | ⟨1, _⟩ => show win3_1.index t (1 : Fin 2) * 512 + 1 * q.val = q.val; rw [e1]; omega
  rw [e]

/-- What point t writes back is band t of the product of the two arrays as the region finds them. -/
theorem written3 (c : Dev nD) (t : Fin cfg3.N) :
    (dat3 V c).flushed 2 t
      = ((cfg3.win 2).blk t).view.read (Elt Ideal) (product3 (V c main_v162) (V c main_v164)) := by
  show (cfg3.win 2).cut (grid3.coords t) ((dat3 V c).after 2 t) = _
  rw [after3_2]
  unfold out3_2
  rw [View.canon_unit_zero zero_offsets]
  simp only [View.ld_unit_zero (S := S2000x512) zero_offsets, View.ld_unit_zero (S := S512x512) zero_offsets]
  have hN : cfg3.N = 25 := N_3
  have ht : t.val < cfg3.N := t.isLt
  obtain ⟨-, -, -, -, e0, e1⟩ := block_indices3 t
  funext j
  obtain ⟨p, q, rfl⟩ : ∃ (p : Fin 2000) (q : Fin 512), j = ix2 p q := ⟨j 0, j 1, eq_ix2 j⟩
  have hp : p.val < 2000 := p.isLt
  let r : Fin 50000 := ⟨t.val * 2000 + p.val, by omega⟩
  have e : ((cfg3.win 2).blk t).view.emb (ix2 p q) = ix2 r q := by
    funext a; apply Fin.ext
    match a with
    | ⟨0, _⟩ => show win3_2.index t (0 : Fin 2) * 2000 + 1 * p.val = t.val * 2000 + p.val; rw [e0]; omega
    | ⟨1, _⟩ => show win3_2.index t (1 : Fin 2) * 512 + 1 * q.val = q.val; rw [e1]; omega
  show k3_pay1 (iblk3 V c 0 t) (iblk3 V c 1 t) (ix2 p q)
    = product3 (V c main_v162) (V c main_v164) (((cfg3.win 2).blk t).view.emb (ix2 p q))
  rw [e]
  exact band3_entry (iblk3 V c 0 t) (iblk3 V c 1 t) (V c main_v162) (V c main_v164) p r q
    (fun k => band3_rows V c t p k r rfl) (fun k => band3_weights V c t k q)

/-- An index of the result lies in point t's block iff, on each axis, its coordinate is in the block's range. -/
theorem mem_band3 (t : Fin cfg3.N) (i : S50000x512.Idx) :
    i ∈ ((cfg3.win 2).blk t).view.set ↔ ∀ a : Fin 2, win3_2.index t a * S2000x512.size a ≤ (i a).val
      ∧ (i a).val < win3_2.index t a * S2000x512.size a + S2000x512.size a := by
  show i ∈ ((View.whole main_v167).slice (win3_2.rect t)).set ↔ _
  rw [View.set_slice_whole, Rect.mem_set_unit]
  exact Iff.rfl

/-- Every row of the result is in the band of the point numbered row / 2000. -/
theorem bands_cover3 (i : S50000x512.Idx) :
    ∃ t : Fin cfg3.N, (cfg3.win 2).flush t = true ∧ i ∈ ((cfg3.win 2).blk t).view.set := by
  have hN : cfg3.N = 25 := N_3
  have hi0 : (i 0).val < 50000 := (i 0).isLt
  have hi1 : (i 1).val < 512 := (i 1).isLt
  let t : Fin cfg3.N := ⟨(i 0).val / 2000, by omega⟩
  obtain ⟨-, -, -, -, e0, e1⟩ := block_indices3 t
  have e0' : win3_2.index t (0 : Fin 2) = (i 0).val / 2000 := e0
  refine ⟨t, flush3_2 t, ?_⟩
  rw [mem_band3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 512 ≤ (i 1).val ∧ (i 1).val < win3_2.index t (1 : Fin 2) * 512 + 512; omega

/-- So the result array ends holding the product. -/
theorem result3 (c : Dev nD) :
    (dat3 V c).arrAt 2 cfg3.N = product3 (V c main_v162) (V c main_v164) :=
  (dat3 V c).arrAt_eq_of_cover 2 (product3 (V c main_v162) (V c main_v164)) (fun t _ => written3 V c t) bands_cover3

end

end Cert.Bridge.RowBand

namespace Cert.Bridge

/-- Region 3 leaves in its result array the host's product of the two arrays it reads. -/
theorem region3_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W22 m ρ c (Proc.devRef .tc Cert.KernelIdeal.main_v167)
      = Host.dotGeneral (F := Ideal) (φ₁ := .f32) (φ₂ := .f32) Cert.ReferenceIdeal.dot_S50000x512_S512x512_S50000x512_1_0_0_1_n_n none
          (Cert.KernelIdeal.Gen.W21 m ρ c (Proc.devRef .tc Cert.KernelIdeal.main_v162)) (Cert.KernelIdeal.Gen.W21 m ρ c (Proc.devRef .tc Cert.KernelIdeal.main_v164)) :=
  (W22_arr m ρ c 2).trans (RowBand.result3 (V21 m ρ) c)

end Cert.Bridge

end
-- ==== Proof.Region4Layer.lean ====
/-
  The first layer of the head, as a whole-array identity over the extended reals.

  For activations X ([2048, 512]), weights W ([512, 512]) and a bias b (512 entries) the layer's entry (p, q) is
      max (∑ k, X(p,k) · W(k,q) + b(q)) 0.
  The kernel body forms it from whole blocks: both operands rounded to bf16 (no change over the extended reals),
  the product accumulated onto a zero array, the bias — held as one row [1, 512] — laid along every row, and the
  maximum with a splat zero. The host program forms it from a product without accumulator, the bias broadcast
  [512] → [1, 512] → [2048, 512], and the maximum with a broadcast scalar zero. The two spellings are one array.
-/
import proofs.«157516_j44770739094124_1_alg».proof.Proof.Gen.KernelIdeal.Skeleton
import proofs.«157516_j44770739094124_1_alg».proof.Proof.Gen.ReferenceIdeal
import Idealize.ShloMosaic.PureOps.Ideal
import Idealize.ShloMosaic.Lib.KernelVsHost
import Idealize.ShloMosaic.Lib.ValueLayout

noncomputable section

namespace Cert.Bridge

open Idealize.ShloMosaic Idealize.ShloMosaic.ValueIdx

/-- A bias of 512 entries laid along each of 2048 rows, two ways: cast to one row and that row repeated, or
    broadcast to one row and that row broadcast down. Entry (p, q) of either is b(q). -/
theorem biasRows_eq {α : Type} (b : (⟨1, ![512]⟩ : Shape).Idx → α)
    (h1 : (⟨1, ![512]⟩ : Shape).ShapeCasts ⟨2, ![1, 512]⟩)
    (hb : (⟨2, ![1, 512]⟩ : Shape).Broadcasts ⟨2, ![2048, 512]⟩)
    (hd1 : (⟨1, ![512]⟩ : Shape).BroadcastsInDim ⟨2, ![1, 512]⟩ ![1])
    (hd2 : (⟨2, ![1, 512]⟩ : Shape).BroadcastsInDim ⟨2, ![2048, 512]⟩ ![0, 1]) :
    broadcastTo ⟨2, ![2048, 512]⟩ (shapeCast ⟨2, ![1, 512]⟩ b h1) hb
      = broadcastInDim ⟨2, ![2048, 512]⟩ ![0, 1] hd2 (broadcastInDim ⟨2, ![1, 512]⟩ ![1] hd1 b) := by
  funext i
  obtain ⟨p, q, rfl⟩ : ∃ (p : Fin 2048) (q : Fin 512), i = ix2 p q := ⟨i 0, i 1, eq_ix2 i⟩
  rw [broadcastTo_1b_ab_apply, shapeCast_a_1a_apply, broadcastInDim_oneRow_apply]
  refine (broadcastInDim_apply ![1] hd1 b (ix2 (0 : Fin 1) q) (ix1 q) ?_).symm
  intro a
  match a with
  | ⟨0, _⟩ => rfl

/-- The body's stored value, of whole arrays X, W and the bias held as the one-row cast of b, is the host's
    spelling of the layer: the product onto zero is the product without accumulator (the two programs' dimension
    records have the same fields), rounding to bf16 changes nothing, the bias rows agree (biasRows_eq), and a
    splat of the zero word is the broadcast of the scalar zero constant. -/
theorem headLayer_payload (X : Vec Ideal Cert.KernelIdeal.S2048x512 .f32) (W : Vec Ideal Cert.KernelIdeal.S512x512 .f32)
    (b : Vec Ideal Cert.KernelIdeal.S512 .f32) :
    Cert.KernelIdeal.Gen.k4_pay1 (F := Ideal) X W
        (shapeCast Cert.KernelIdeal.S1x512 b Cert.KernelIdeal.Facts₀.shapeCasts_S512_S1x512)
      = maximumf
          (addf
            (Host.dotGeneral (F := Ideal) (φ₁ := .f32) (φ₂ := .f32)
              Cert.ReferenceIdeal.dot_S2048x512_S512x512_S2048x512_1_0_0_1_n_n none X W)
            (broadcastInDim Cert.ReferenceIdeal.S2048x512 ![0, 1] Cert.ReferenceIdeal.Facts₀.bcast_S1x512_S2048x512_0_1
              (broadcastInDim Cert.ReferenceIdeal.S1x512 ![1] Cert.ReferenceIdeal.Facts₀.bcast_S512_S1x512_1 b)))
          (broadcastInDim Cert.ReferenceIdeal.S2048x512 ![] Cert.ReferenceIdeal.Facts₀.bcast_S_S2048x512
            (constant (F := Ideal) Cert.ReferenceIdeal.S_ .f32 0x00000000#32)) := by
  unfold Cert.KernelIdeal.Gen.k4_pay1
  dsimp only
  refine congrArg₂ maximumf (congrArg₂ addf ?_ ?_) ?_
  · rw [shapeCast_self]
    refine (matmul_zero_eq_dotGeneral _ none _ _).trans ?_
    simp only [Host.dotGeneral, Ideal.dotGeneral_def]
    rfl
  · rw [shapeCast_self]
    exact biasRows_eq b _ _ _ _
  · exact funext fun _ => rfl

end Cert.Bridge

end
-- ==== Proof.Region4Array.lean ====
/-
  What the head's first-layer region leaves in its result array, at any float instance.

  The region's grid is a single point and each of its four windows' blocks is its whole array: block index 0 on both
  axes, so an element of a block sits in the array at its own coordinates. The body stores one whole-block value, a
  pure function of the three input blocks. Hence the one write-back writes that function of the three input ARRAYS
  as the region finds them, its block covers the result array, and the array ends holding exactly that value.
-/
import proofs.«157516_j44770739094124_1_alg».proof.Proof.Gen.KernelIdeal.Frame
import Idealize.ShloMosaic.Lib.Pipeline.Value

set_option maxRecDepth 16384

noncomputable section

namespace Cert.Bridge

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zeroOffsets : (![0, 0] : Fin 2 → Nat) = fun _ => 0 := funext fun a => by fin_cases a <;> rfl

/-- At the grid's one point every window's block index is 0 on both axes (decided over the grid). -/
theorem headBlockIndices : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The activations' block is the whole [2048, 512] array: element y of the block sits at 0 · 2048 + y₀, 0 · 512 + y₁. -/
theorem headBlock0 (c : Dev nD) (t : Fin cfg4.N) :
    (iblk4 V c 0 t : Vec F S2048x512 .f32) = (V c main_v242 : Vec F S2048x512 .f32) := by
  funext y
  show V c main_v242 (((cfg4.win 0).blk t).view.emb y) = V c main_v242 y
  refine congrArg _ (funext fun a => Fin.ext ?_)
  obtain ⟨e0, e1, -⟩ := headBlockIndices t
  match a with
  | ⟨0, _⟩ => show win4_0.index t (0 : Fin 2) * 2048 + 1 * (y 0).val = (y 0).val; rw [e0]; omega
  | ⟨1, _⟩ => show win4_0.index t (1 : Fin 2) * 512 + 1 * (y 1).val = (y 1).val; rw [e1]; omega

/-- The weights' block is the whole [512, 512] array. -/
theorem headBlock1 (c : Dev nD) (t : Fin cfg4.N) :
    (iblk4 V c 1 t : Vec F S512x512 .f32) = (V c main_arg9 : Vec F S512x512 .f32) := by
  funext y
  show V c main_arg9 (((cfg4.win 1).blk t).view.emb y) = V c main_arg9 y
  refine congrArg _ (funext fun a => Fin.ext ?_)
  obtain ⟨-, -, e0, e1, -⟩ := headBlockIndices t
  match a with
  | ⟨0, _⟩ => show win4_1.index t (0 : Fin 2) * 512 + 1 * (y 0).val = (y 0).val; rw [e0]; omega
  | ⟨1, _⟩ => show win4_1.index t (1 : Fin 2) * 512 + 1 * (y 1).val = (y 1).val; rw [e1]; omega

/-- The bias row's block is the whole [1, 512] array. -/
theorem headBlock2 (c : Dev nD) (t : Fin cfg4.N) :
    (iblk4 V c 2 t : Vec F S1x512 .f32) = (V c main_v243 : Vec F S1x512 .f32) := by
  funext y
  show V c main_v243 (((cfg4.win 2).blk t).view.emb y) = V c main_v243 y
  refine congrArg _ (funext fun a => Fin.ext ?_)
  obtain ⟨-, -, -, -, e0, e1, -⟩ := headBlockIndices t
  match a with
  | ⟨0, _⟩ => show win4_2.index t (0 : Fin 2) * 1 + 1 * (y 0).val = (y 0).val; rw [e0]; omega
  | ⟨1, _⟩ => show win4_2.index t (1 : Fin 2) * 512 + 1 * (y 1).val = (y 1).val; rw [e1]; omega

/-- What the point writes back is the result window's block of the body's value of the three input arrays: the one
    whole-block store leaves its payload, each loaded block is its whole array, and the result's block is the whole
    [2048, 512] array. -/
theorem headFlushed (c : Dev nD) (t : Fin cfg4.N) :
    (dat4 V c).flushed 3 t = ((cfg4.win 3).blk t).view.read (Elt F)
      (k4_pay1 (V c main_v242 : Vec F S2048x512 .f32) (V c main_arg9 : Vec F S512x512 .f32) (V c main_v243 : Vec F S1x512 .f32)) := by
  show (cfg4.win 3).cut (grid4.coords t) ((dat4 V c).after 3 t) = _
  rw [after4_3]
  unfold out4_3
  rw [View.canon_unit_zero zeroOffsets]
  simp only [View.ld_unit_zero (S := S2048x512) zeroOffsets, View.ld_unit_zero (S := S512x512) zeroOffsets,
    View.ld_unit_zero (S := S1x512) zeroOffsets]
  rw [headBlock0, headBlock1, headBlock2]
  funext y
  show k4_pay1 _ _ _ y = k4_pay1 _ _ _ (((cfg4.win 3).blk t).view.emb y)
  refine congrArg _ (funext fun a => Fin.ext ?_)
  obtain ⟨-, -, -, -, -, -, e0, e1⟩ := headBlockIndices t
  match a with
  | ⟨0, _⟩ => show (y 0).val = win4_3.index t (0 : Fin 2) * 2048 + 1 * (y 0).val; rw [e0]; omega
  | ⟨1, _⟩ => show (y 1).val = win4_3.index t (1 : Fin 2) * 512 + 1 * (y 1).val; rw [e1]; omega

/-- An index of the result array is in the point's block iff each coordinate is in the block's range on its axis. -/
theorem headMemBlock (t : Fin cfg4.N) (i : S2048x512.Idx) :
    i ∈ ((cfg4.win 3).blk t).view.set ↔ ∀ a : Fin 2, win4_3.index t a * S2048x512.size a ≤ (i a).val ∧ (i a).val < win4_3.index t a * S2048x512.size a + S2048x512.size a := by
  show i ∈ ((View.whole main_v244).slice (win4_3.rect t)).set ↔ _
  rw [View.set_slice_whole, Rect.mem_set_unit]
  exact Iff.rfl

/-- The result array after the region: the body's value of the three input arrays as the region finds them. The one
    point's block, rows 0 … 2047 and columns 0 … 511, covers every index. -/
theorem headArray (c : Dev nD) :
    (dat4 V c).arrAt 3 cfg4.N
      = k4_pay1 (V c main_v242 : Vec F S2048x512 .f32) (V c main_arg9 : Vec F S512x512 .f32) (V c main_v243 : Vec F S1x512 .f32) :=
  (dat4 V c).arrAt_eq_of_cover 3 _ (fun t _ => headFlushed V c t) fun i => ⟨t4_0, flush4_3 t4_0, by
    rw [headMemBlock]
    obtain ⟨-, -, -, -, -, -, e0, e1⟩ := headBlockIndices t4_0
    intro a
    match a with
    | ⟨0, _⟩ =>
      show win4_3.index t4_0 (0 : Fin 2) * 2048 ≤ (i 0).val ∧ (i 0).val < win4_3.index t4_0 (0 : Fin 2) * 2048 + 2048
      have h : (i 0).val < 2048 := (i 0).isLt
      rw [e0]; omega
    | ⟨1, _⟩ =>
      show win4_3.index t4_0 (1 : Fin 2) * 512 ≤ (i 1).val ∧ (i 1).val < win4_3.index t4_0 (1 : Fin 2) * 512 + 512
      have h : (i 1).val < 512 := (i 1).isLt
      rw [e1]; omega⟩

end Cert.Bridge

end
-- ==== Proof.Region4.lean ====
/-
  The head's first layer, read off the kernel program's buffers.

  After the region that computes the layer, its result array holds the body's value of the three arrays the region
  reads (Region4Array). The third of them, the one-row bias [1, 512], is the reshape of the bias b [512] that the host
  operations just before the region wrote. At the extended reals that value is the host program's own spelling of the
  layer (Region4Layer): entry (p, q) is max (∑ k, x(p,k) · w(k,q) + b(q)) 0.
-/
import proofs.«157516_j44770739094124_1_alg».proof.Proof.Gen.KernelIdeal.Frame
import proofs.«157516_j44770739094124_1_alg».proof.Proof.Gen.ReferenceIdeal
import proofs.«157516_j44770739094124_1_alg».proof.Proof.Region4Layer
import proofs.«157516_j44770739094124_1_alg».proof.Proof.Region4Array
import Idealize.ShloMosaic.PureOps.Ideal
import Idealize.ShloMosaic.Lib.StableHlo.Run

set_option maxRecDepth 16384

noncomputable section

namespace Cert.Bridge

open Cert.KernelIdeal Idealize.ShloMosaic Idealize.ShloMosaic.TcCoe Idealize.SL.Sem

/-- From any contents P, after the host operations just before the region the one-row buffer holds the bias cast to
    one row: the last of those operations is that reshape, and none of them writes the bias. -/
theorem biasRow_of (P : Valuation τ sig (Elt Ideal)) :
    (StableHlo.after Gen.hostOps4_6 P (Proc.devRef .tc main_v243) : Vec Ideal S1x512 .f32)
      = shapeCast S1x512 (StableHlo.after Gen.hostOps4_6 P (Proc.devRef .tc main_arg10) : Vec Ideal S512 .f32)
          Facts₀.shapeCasts_S512_S1x512 := by
  dsimp only [Gen.hostOps4_6]
  after_results
  rfl

/-- So the one-row bias the region reads is the bias, as the region finds it, cast to one row. -/
theorem biasRow_eq (m : (ℓ : Loc nD τ sig) → Buf (Elt Ideal) ℓ) (ρ : Dev nD → PrngReg) (c : Dev nD) :
    (Gen.W29 m ρ c (Proc.devRef .tc main_v243) : Vec Ideal S1x512 .f32)
      = shapeCast S1x512 (Gen.W29 m ρ c (Proc.devRef .tc main_arg10) : Vec Ideal S512 .f32) Facts₀.shapeCasts_S512_S1x512 :=
  biasRow_of (Gen.W28 m ρ c)

/-- The result array of the head's first layer after its region, in the host program's spelling of the layer over
    the activations, the weights and the bias as the region finds them. -/
theorem region4_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W30 m ρ c (Proc.devRef .tc Cert.KernelIdeal.main_v244)
      = maximumf
          (addf
            (Host.dotGeneral (F := Ideal) (φ₁ := .f32) (φ₂ := .f32) Cert.ReferenceIdeal.dot_S2048x512_S512x512_S2048x512_1_0_0_1_n_n none
              (Cert.KernelIdeal.Gen.W29 m ρ c (Proc.devRef .tc Cert.KernelIdeal.main_v242)) (Cert.KernelIdeal.Gen.W29 m ρ c (Proc.devRef .tc Cert.KernelIdeal.main_arg9)))
            (broadcastInDim Cert.ReferenceIdeal.S2048x512 ![0, 1] Cert.ReferenceIdeal.Facts₀.bcast_S1x512_S2048x512_0_1
              (broadcastInDim Cert.ReferenceIdeal.S1x512 ![1] Cert.ReferenceIdeal.Facts₀.bcast_S512_S1x512_1 (Cert.KernelIdeal.Gen.W29 m ρ c (Proc.devRef .tc Cert.KernelIdeal.main_arg10)))))
          (broadcastInDim Cert.ReferenceIdeal.S2048x512 ![] Cert.ReferenceIdeal.Facts₀.bcast_S_S2048x512 (constant (F := Ideal) Cert.ReferenceIdeal.S_ .f32 0x00000000#32)) := by
  refine (Gen.W30_arr m ρ c 3).trans ?_
  refine (headArray (Gen.V29 m ρ) c).trans ?_
  show Gen.k4_pay1 (Gen.W29 m ρ c (Proc.devRef .tc main_v242) : Vec Ideal S2048x512 .f32)
      (Gen.W29 m ρ c (Proc.devRef .tc main_arg9) : Vec Ideal S512x512 .f32)
      (Gen.W29 m ρ c (Proc.devRef .tc main_v243) : Vec Ideal S1x512 .f32) = _
  rw [biasRow_eq m ρ c]
  exact headLayer_payload _ _ _

end Cert.Bridge

end
-- ==== Proof.Products.lean ====
/- Each region's result array against the reference's dense product at the same place: the region's value is that
   product of the arrays it reads, and those agree with the reference's operands. -/
import proofs.«157516_j44770739094124_1_alg».proof.Proof.BridgeDefs
import proofs.«157516_j44770739094124_1_alg».proof.Proof.Region0
import proofs.«157516_j44770739094124_1_alg».proof.Proof.Region1
import proofs.«157516_j44770739094124_1_alg».proof.Proof.Region2
import proofs.«157516_j44770739094124_1_alg».proof.Proof.Region3
import proofs.«157516_j44770739094124_1_alg».proof.Proof.Region4

set_option maxRecDepth 16384

noncomputable section

open Idealize.ShloMosaic Idealize.ShloMosaic.TcCoe Idealize.SL.Sem

namespace Cert.Bridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- Region 0's result array is the reference's dense product number 0, their operands agreeing. -/
theorem product0 (hl : Cert.KernelIdeal.Gen.W3 m ρ c (Proc.devRef .tc Cert.KernelIdeal.main_arg0) = RA0 m' c (Proc.devRef .tc Cert.ReferenceIdeal.main_arg0)) (hr : Cert.KernelIdeal.Gen.W3 m ρ c (Proc.devRef .tc Cert.KernelIdeal.main_arg3) = RA0 m' c (Proc.devRef .tc Cert.ReferenceIdeal.main_arg3)) :
    Cert.KernelIdeal.Gen.W4 m ρ c (Proc.devRef .tc Cert.KernelIdeal.main_v32) = RB0 m' c (Proc.devRef .tc Cert.ReferenceIdeal.main_v32) := by
  rw [region0_value m ρ c, hl, hr]
  unfold RB0
  dsimp only [Cert.ReferenceIdeal.RefOps.prod0]
  after_results_simp
  try rfl

/-- Region 1's result array is the reference's dense product number 1, their operands agreeing. -/
theorem product1 (hl : Cert.KernelIdeal.Gen.W9 m ρ c (Proc.devRef .tc Cert.KernelIdeal.main_v72) = RA1 m' c (Proc.devRef .tc Cert.ReferenceIdeal.main_v72)) (hr : Cert.KernelIdeal.Gen.W9 m ρ c (Proc.devRef .tc Cert.KernelIdeal.main_v74) = RA1 m' c (Proc.devRef .tc Cert.ReferenceIdeal.main_v74)) :
    Cert.KernelIdeal.Gen.W10 m ρ c (Proc.devRef .tc Cert.KernelIdeal.main_v77) = RB1 m' c (Proc.devRef .tc Cert.ReferenceIdeal.main_v77) := by
  rw [region1_value m ρ c, hl, hr]
  unfold RB1
  dsimp only [Cert.ReferenceIdeal.RefOps.prod1]
  after_results_simp
  try rfl

/-- Region 2's result array is the reference's dense product number 2, their operands agreeing. -/
theorem product2 (hl : Cert.KernelIdeal.Gen.W15 m ρ c (Proc.devRef .tc Cert.KernelIdeal.main_v117) = RA2 m' c (Proc.devRef .tc Cert.ReferenceIdeal.main_v117)) (hr : Cert.KernelIdeal.Gen.W15 m ρ c (Proc.devRef .tc Cert.KernelIdeal.main_v119) = RA2 m' c (Proc.devRef .tc Cert.ReferenceIdeal.main_v119)) :
    Cert.KernelIdeal.Gen.W16 m ρ c (Proc.devRef .tc Cert.KernelIdeal.main_v122) = RB2 m' c (Proc.devRef .tc Cert.ReferenceIdeal.main_v122) := by
  rw [region2_value m ρ c, hl, hr]
  unfold RB2
  dsimp only [Cert.ReferenceIdeal.RefOps.prod2]
  after_results_simp
  try rfl

/-- Region 3's result array is the reference's dense product number 3, their operands agreeing. -/
theorem product3 (hl : Cert.KernelIdeal.Gen.W21 m ρ c (Proc.devRef .tc Cert.KernelIdeal.main_v162) = RA3 m' c (Proc.devRef .tc Cert.ReferenceIdeal.main_v162)) (hr : Cert.KernelIdeal.Gen.W21 m ρ c (Proc.devRef .tc Cert.KernelIdeal.main_v164) = RA3 m' c (Proc.devRef .tc Cert.ReferenceIdeal.main_v164)) :
    Cert.KernelIdeal.Gen.W22 m ρ c (Proc.devRef .tc Cert.KernelIdeal.main_v167) = RB3 m' c (Proc.devRef .tc Cert.ReferenceIdeal.main_v167) := by
  rw [region3_value m ρ c, hl, hr]
  unfold RB3
  dsimp only [Cert.ReferenceIdeal.RefOps.prod3]
  after_results_simp
  try rfl

/-- Region 4's result array (product, bias, rectifier in one body) is the reference's head layer: its product, the
    bias row broadcast over the rows, and the rectifier. -/
theorem product4 (hx : Cert.KernelIdeal.Gen.W29 m ρ c (Proc.devRef .tc Cert.KernelIdeal.main_v242) = RA4 m' c (Proc.devRef .tc Cert.ReferenceIdeal.main_v242)) (hw : Cert.KernelIdeal.Gen.W29 m ρ c (Proc.devRef .tc Cert.KernelIdeal.main_arg9) = RA4 m' c (Proc.devRef .tc Cert.ReferenceIdeal.main_arg9))
    (hb : Cert.KernelIdeal.Gen.W29 m ρ c (Proc.devRef .tc Cert.KernelIdeal.main_arg10) = RA4 m' c (Proc.devRef .tc Cert.ReferenceIdeal.main_arg10)) :
    Cert.KernelIdeal.Gen.W30 m ρ c (Proc.devRef .tc Cert.KernelIdeal.main_v244) = RB4 m' c (Proc.devRef .tc Cert.ReferenceIdeal.main_v247) := by
  rw [region4_value m ρ c, hx, hw, hb]
  unfold RB4
  dsimp only [Cert.ReferenceIdeal.RefOps.prod4]
  after_results_simp
  try rfl

end Cert.Bridge

end
-- ==== Proof.Final.lean ====
/- The whole chain: from launch memories that agree on the arguments, stretch by stretch and product by product, the
   kernel's result array is the reference's. -/
import proofs.«157516_j44770739094124_1_alg».proof.Proof.BridgeDefs
import proofs.«157516_j44770739094124_1_alg».proof.Proof.Stage0
import proofs.«157516_j44770739094124_1_alg».proof.Proof.Stage1
import proofs.«157516_j44770739094124_1_alg».proof.Proof.Stage2
import proofs.«157516_j44770739094124_1_alg».proof.Proof.Stage3
import proofs.«157516_j44770739094124_1_alg».proof.Proof.Stage4
import proofs.«157516_j44770739094124_1_alg».proof.Proof.Stage5
import proofs.«157516_j44770739094124_1_alg».proof.Proof.Products
import proofs.«157516_j44770739094124_1_alg».proof.Proof.RefRun

set_option maxRecDepth 16384

noncomputable section

open Idealize.ShloMosaic Idealize.ShloMosaic.TcCoe Idealize.SL.Sem

namespace Cert.Bridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The reference's final contents are its last boundary's. -/
theorem after_ops_eq : StableHlo.after (Cert.ReferenceIdeal.RefRun.ops (F := Ideal)) (StableHlo.launchContents m' c) = RA5 m' c := by
  rw [Cert.ReferenceIdeal.RefRun.after_ops]
  rfl

/-- The kernel's result array at the end of its run is the reference's. -/
theorem kernel_eq_reference (ha : ArgsAgree m ρ m' c) :
    Cert.KernelIdeal.Gen.W31 m ρ c (Proc.devRef .tc Cert.KernelIdeal.main_v248)
      = StableHlo.after (Cert.ReferenceIdeal.RefRun.ops (F := Ideal)) (StableHlo.launchContents m' c) (Proc.devRef .tc Cert.ReferenceIdeal.main_v251) := by
  have p0 := product0 m ρ m' c (entry0_x m ρ m' c ha) (entry0_w m ρ m' c ha)
  have p1 := product1 m ρ m' c (layer1_acts m ρ m' c ha p0) (layer1_weights m ρ m' c ha)
  have p2 := product2 m ρ m' c (layer2_acts m ρ m' c ha p1) (layer2_weights m ρ m' c ha)
  have p3 := product3 m ρ m' c (layer3_acts m ρ m' c ha p2) (layer3_weights m ρ m' c ha)
  have p4 := product4 m ρ m' c (pooled_norm m ρ m' c ha p3) (head_weights m ρ m' c ha) (head_bias m ρ m' c ha)
  rw [after_ops_eq]
  exact result m ρ m' c ha p4

end Cert.Bridge

end
-- ==== Proof.lean ====
/- The certificate of `Cert.Claim`: a four-layer graph convolution network with batch normalisation, mean pooling and a two-layer
   head, whose five dense products the kernel runs as Pallas regions (rounded to bf16 on the way in, accumulated in f32)
   and the reference as host matrix products.
   Over the extended reals a change of float format is the identity and a matrix product into a zero accumulator is the
   host's product — the sum over the contracted axis of row times column —, so each region leaves in its result array
   exactly the reference's product of the same operands (Region0 … Region4: row blocks of 2000 tiling the 50000 rows;
   the head's layer in one block with its bias and rectifier). Everything between the products is the same host
   operations on both sides (edge normalisation from the degrees, gather · scale · scatter-add, batch normalisation,
   rectifier, mean pool): stretch by stretch the kernel's buffers at a region's entry are the reference's before its
   product (Stage0 … Stage5), and so the two results are one array (Final). No law of the extended reals beyond the
   reading of a product as a sum is used, and the precondition is never opened.
   The frames: the two kernel programs' are the generated ones; the reference's is its run with the results dropped. -/
import proofs.«157516_j44770739094124_1_alg».proof.Defs
import proofs.«157516_j44770739094124_1_alg».proof.Proof.Gen.Kernel
import proofs.«157516_j44770739094124_1_alg».proof.Proof.Gen.Kernel.Frame
import proofs.«157516_j44770739094124_1_alg».proof.Proof.Gen.KernelIdeal
import proofs.«157516_j44770739094124_1_alg».proof.Proof.Gen.KernelIdeal.Frame
import proofs.«157516_j44770739094124_1_alg».proof.Proof.Gen.ReferenceIdeal
import proofs.«157516_j44770739094124_1_alg».proof.Proof.Gen.Pre_finite_inputs
import proofs.«157516_j44770739094124_1_alg».proof.Proof.KernelRun
import proofs.«157516_j44770739094124_1_alg».proof.Proof.RefRun
import proofs.«157516_j44770739094124_1_alg».proof.Proof.Final
import Idealize.ShloMosaic.Adequacy
import Idealize.ShloMosaic.Init

noncomputable section

namespace Cert.Proof

open Idealize.ShloMosaic Idealize.ShloMosaic.TcCoe Idealize.SL.Sem

/-- Both idealized programs, from launch memories agreeing on the thirteen arguments, end with the same result array:
    the kernel's run names its result as the last boundary's contents, the reference's run as its operations' contents,
    and the chain of stretches and products identifies the two. -/
theorem algebraic : @Cert.algebraic_KernelIdeal_ReferenceIdeal Cert.KernelIdeal.Gen.facts Cert.ReferenceIdeal.Gen.facts Cert.Pre_finite_inputs.Gen.facts := by
  intro m ρ m' ρ' _ hagree
  have ha : ∀ c, Cert.Bridge.ArgsAgree m ρ m' c := fun c =>
    ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2⟩
  refine ⟨fun c => Cert.KernelIdeal.Gen.W31 m ρ c (Proc.devRef .tc Cert.KernelIdeal.main_v248), Cert.KernelIdeal.ValueRun.run m ρ, ?_⟩
  refine (θ_run Cert.ReferenceIdeal.defs _ _).mono (fun r h c => ⟨?_, (h c Cert.ReferenceIdeal.main_arg0).trans (Cert.ReferenceIdeal.RefRun.kept_main_arg0 _),
    (h c Cert.ReferenceIdeal.main_arg1).trans (Cert.ReferenceIdeal.RefRun.kept_main_arg1 _),
    (h c Cert.ReferenceIdeal.main_arg2).trans (Cert.ReferenceIdeal.RefRun.kept_main_arg2 _),
    (h c Cert.ReferenceIdeal.main_arg3).trans (Cert.ReferenceIdeal.RefRun.kept_main_arg3 _),
    (h c Cert.ReferenceIdeal.main_arg4).trans (Cert.ReferenceIdeal.RefRun.kept_main_arg4 _),
    (h c Cert.ReferenceIdeal.main_arg5).trans (Cert.ReferenceIdeal.RefRun.kept_main_arg5 _),
    (h c Cert.ReferenceIdeal.main_arg6).trans (Cert.ReferenceIdeal.RefRun.kept_main_arg6 _),
    (h c Cert.ReferenceIdeal.main_arg7).trans (Cert.ReferenceIdeal.RefRun.kept_main_arg7 _),
    (h c Cert.ReferenceIdeal.main_arg8).trans (Cert.ReferenceIdeal.RefRun.kept_main_arg8 _),
    (h c Cert.ReferenceIdeal.main_arg9).trans (Cert.ReferenceIdeal.RefRun.kept_main_arg9 _),
    (h c Cert.ReferenceIdeal.main_arg10).trans (Cert.ReferenceIdeal.RefRun.kept_main_arg10 _),
    (h c Cert.ReferenceIdeal.main_arg11).trans (Cert.ReferenceIdeal.RefRun.kept_main_arg11 _),
    (h c Cert.ReferenceIdeal.main_arg12).trans (Cert.ReferenceIdeal.RefRun.kept_main_arg12 _)⟩)
    (Cert.ReferenceIdeal.RefRun.run m' ρ')
  exact (h c Cert.ReferenceIdeal.main_v251).trans (Cert.Bridge.kernel_eq_reference m ρ m' c (ha c)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.RefRun.frame m ρ,
  trivial,
  algebraic⟩

end Cert.Proof

end
